-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x1 : Shape := ⟨2, ![1600000, 1]⟩
abbrev S128 : Shape := ⟨1, ![128]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg15 : FVec F S64 .f32) (main_arg16 : FVec F S64 .f32) (main_arg17 : FVec F S64x64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg17
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  main_v83

def fn_part3 {F : FTy → Type} [FloatOps F] (main_arg12 : FVec F S64 .f32) (main_arg13 : FVec F S64x64 .f32) (main_arg14 : FVec F S64 .f32) (main_arg15 : FVec F S64 .f32) (main_arg16 : FVec F S64 .f32) (main_arg17 : FVec F S64x64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S64 .f32) (main_arg9 : FVec F S64 .f32) (main_arg10 : FVec F S64 .f32) (main_arg11 : FVec F S1x64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S1x64 .f32 := Host.absf main_arg11
  let main_cst_18 : FVec F S_ .f32 := constant S_ .f32 0x7F800000#32
  let main_v50 : FVec F S1x64 .f32 := broadcastInDim S1x64 ![] bcast_S_S1x64 main_cst_18
  fn_part3 (F := F) main_arg12 main_arg13 main_arg14 main_arg15 main_arg16 main_arg17 main_v48 main_v49 main_v50

def fn_part1 {F : FTy → Type} [FloatOps F] (main_arg5 : FVec F S1x128 .f32) (main_arg6 : FVec F S128 .f32) (main_arg7 : FVec F S128x64 .f32) (main_arg8 : FVec F S64 .f32) (main_arg9 : FVec F S64 .f32) (main_arg10 : FVec F S64 .f32) (main_arg11 : FVec F S1x64 .f32) (main_arg12 : FVec F S64 .f32) (main_arg13 : FVec F S64x64 .f32) (main_arg14 : FVec F S64 .f32) (main_arg15 : FVec F S64 .f32) (main_arg16 : FVec F S64 .f32) (main_arg17 : FVec F S64x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg5
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S1600000x1 .f32) (main_arg3 : FVec F S128 .f32) (main_arg4 : FVec F S128 .f32) (main_arg5 : FVec F S1x128 .f32) (main_arg6 : FVec F S128 .f32) (main_arg7 : FVec F S128x64 .f32) (main_arg8 : FVec F S64 .f32) (main_arg9 : FVec F S64 .f32) (main_arg10 : FVec F S64 .f32) (main_arg11 : FVec F S1x64 .f32) (main_arg12 : FVec F S64 .f32) (main_arg13 : FVec F S64x64 .f32) (main_arg14 : FVec F S64 .f32) (main_arg15 : FVec F S64 .f32) (main_arg16 : FVec F S64 .f32) (main_arg17 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x1 .f32 := Host.absf main_arg2
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S1600000x1 : Shape := ⟨2, ![1600000, 1]⟩
abbrev S128 : Shape := ⟨1, ![128]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S5000x128 : Shape := ⟨2, ![5000, 128]⟩
abbrev S1600000x128 : Shape := ⟨2, ![1600000, 128]⟩
abbrev S100000x64 : Shape := ⟨2, ![100000, 64]⟩
abbrev S5000x64 : Shape := ⟨2, ![5000, 64]⟩
abbrev S1600000x64 : Shape := ⟨2, ![1600000, 64]⟩
abbrev S100000x192 : Shape := ⟨2, ![100000, 192]⟩

abbrev nBuf : Space → Nat
  | .hbm => 173
  | .vmem => 45
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128, .f32⟩
  | 4 => ⟨S128, .f32⟩
  | 5 => ⟨S1x128, .f32⟩
  | 6 => ⟨S128, .f32⟩
  | 7 => ⟨S128x64, .f32⟩
  | 8 => ⟨S64, .f32⟩
  | 9 => ⟨S64, .f32⟩
  | 10 => ⟨S64, .f32⟩
  | 11 => ⟨S1x64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S100000x128, .f32⟩
  | 35 => ⟨S100000x128, .f32⟩
  | 36 => ⟨S100000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S1x128, .f32⟩
  | 52 => ⟨S1x128, .f32⟩
  | 53 => ⟨S1x128, .f32⟩
  | 54 => ⟨S100000x128, .f32⟩
  | 55 => ⟨S1600000x128, .f32⟩
  | 56 => ⟨S1600000x128, .f32⟩
  | 57 => ⟨S1600000x128, .f32⟩
  | 58 => ⟨S1x128, .f32⟩
  | 59 => ⟨S1600000x128, .f32⟩
  | 60 => ⟨S1600000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x128, .f32⟩
  | 71 => ⟨S_, .f32⟩
  | 72 => ⟨S1600000x128, .f32⟩
  | 73 => ⟨S1600000x128, .f32⟩
  | 74 => ⟨S_, .f32⟩
  | 75 => ⟨S100000x128, .f32⟩
  | 76 => ⟨S1600000x1, .i32⟩
  | 77 => ⟨S100000x128, .f32⟩
  | 78 => ⟨S1x64, .f32⟩
  | 79 => ⟨S100000x64, .f32⟩
  | 80 => ⟨S_, .f32⟩
  | 81 => ⟨S64, .f32⟩
  | 82 => ⟨S_, .f32⟩
  | 83 => ⟨S64, .f32⟩
  | 84 => ⟨S64, .f32⟩
  | 85 => ⟨S_, .i32⟩
  | 86 => ⟨S_, .f32⟩
  | 87 => ⟨S64, .f32⟩
  | 88 => ⟨S1x64, .f32⟩
  | 89 => ⟨S_, .f32⟩
  | 90 => ⟨S1x64, .f32⟩
  | 91 => ⟨S1x64, .f32⟩
  | 92 => ⟨S100000x64, .f32⟩
  | 93 => ⟨S100000x64, .f32⟩
  | 94 => ⟨S100000x64, .f32⟩
  | 95 => ⟨S_, .f32⟩
  | 96 => ⟨S_, .f32⟩
  | 97 => ⟨S_, .f32⟩
  | 98 => ⟨S_, .f32⟩
  | 99 => ⟨S64, .f32⟩
  | 100 => ⟨S64, .f32⟩
  | 101 => ⟨S64, .f32⟩
  | 102 => ⟨S_, .f32⟩
  | 103 => ⟨S_, .i1⟩
  | 104 => ⟨S_, .f32⟩
  | 105 => ⟨S_, .f32⟩
  | 106 => ⟨S64, .f32⟩
  | 107 => ⟨S64, .f32⟩
  | 108 => ⟨S1x64, .f32⟩
  | 109 => ⟨S1x64, .f32⟩
  | 110 => ⟨S1x64, .f32⟩
  | 111 => ⟨S1x64, .f32⟩
  | 112 => ⟨S100000x64, .f32⟩
  | 113 => ⟨S1600000x64, .f32⟩
  | 114 => ⟨S1600000x64, .f32⟩
  | 115 => ⟨S1600000x64, .f32⟩
  | 116 => ⟨S1x64, .f32⟩
  | 117 => ⟨S1600000x64, .f32⟩
  | 118 => ⟨S1600000x64, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x64, .f32⟩
  | _ => ⟨S100000x128, .f32⟩

abbrev hbmTy0_1 (i : Nat) : BufTy := match i % 128 with
  | 0 => ⟨S1600000x64, .f32⟩
  | 1 => ⟨S_, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S1x64, .f32⟩
  | 9 => ⟨S100000x64, .f32⟩
  | 10 => ⟨S_, .f32⟩
  | 11 => ⟨S64, .f32⟩
  | 12 => ⟨S_, .f32⟩
  | 13 => ⟨S64, .f32⟩
  | 14 => ⟨S64, .f32⟩
  | 15 => ⟨S_, .i32⟩
  | 16 => ⟨S_, .f32⟩
  | 17 => ⟨S64, .f32⟩
  | 18 => ⟨S1x64, .f32⟩
  | 19 => ⟨S_, .f32⟩
  | 20 => ⟨S1x64, .f32⟩
  | 21 => ⟨S1x64, .f32⟩
  | 22 => ⟨S100000x64, .f32⟩
  | 23 => ⟨S100000x64, .f32⟩
  | 24 => ⟨S100000x64, .f32⟩
  | 25 => ⟨S_, .f32⟩
  | 26 => ⟨S_, .f32⟩
  | 27 => ⟨S_, .f32⟩
  | 28 => ⟨S_, .f32⟩
  | 29 => ⟨S64, .f32⟩
  | 30 => ⟨S64, .f32⟩
  | 31 => ⟨S64, .f32⟩
  | 32 => ⟨S_, .f32⟩
  | 33 => ⟨S_, .i1⟩
  | 34 => ⟨S_, .f32⟩
  | 35 => ⟨S_, .f32⟩
  | 36 => ⟨S64, .f32⟩
  | 37 => ⟨S64, .f32⟩
  | 38 => ⟨S1x64, .f32⟩
  | 39 => ⟨S1x64, .f32⟩
  | 40 => ⟨S1x64, .f32⟩
  | 41 => ⟨S1x64, .f32⟩
  | 42 => ⟨S100000x64, .f32⟩
  | 43 => ⟨S100000x64, .f32⟩
  | 44 => ⟨S100000x192, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S5000x64, .f32⟩
  | .local _ .vmem, ⟨44, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_c_1 : Ref sig .tc := ⟨.hbm, 61, rfl⟩
abbrev main_v19 : Ref sig .tc := ⟨.hbm, 62, rfl⟩
abbrev main_v20 : Ref sig .tc := ⟨.hbm, 63, rfl⟩
abbrev main_c_2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_call1_cst : Ref sig .tc := ⟨.hbm, 71, rfl⟩
abbrev main_call1_v0 : Ref sig .tc := ⟨.hbm, 72, rfl⟩
abbrev main_v27 : Ref sig .tc := ⟨.hbm, 73, rfl⟩
abbrev main_cst_3 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_4 : Ref sig .tc := ⟨.hbm, 80, rfl⟩
abbrev main_v33 : Ref sig .tc := ⟨.hbm, 81, rfl⟩
abbrev main_cst_5 : Ref sig .tc := ⟨.hbm, 82, rfl⟩
abbrev main_v34 : Ref sig .tc := ⟨.hbm, 83, rfl⟩
abbrev main_v35 : Ref sig .tc := ⟨.hbm, 84, rfl⟩
abbrev main_c_6 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_cst_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_cst_1 : Ref sig .tc := ⟨.hbm, 96, rfl⟩
abbrev main_call2_v8 : Ref sig .tc := ⟨.hbm, 97, rfl⟩
abbrev main_call2_cst_2 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_cst_3 : Ref sig .tc := ⟨.hbm, 102, rfl⟩
abbrev main_call2_v12 : Ref sig .tc := ⟨.hbm, 103, rfl⟩
abbrev main_call2_cst_4 : Ref sig .tc := ⟨.hbm, 104, rfl⟩
abbrev main_call2_call0_v0 : Ref sig .tc := ⟨.hbm, 105, rfl⟩
abbrev main_call2_call0_v1 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_c_7 : Ref sig .tc := ⟨.hbm, 119, rfl⟩
abbrev main_v48 : Ref sig .tc := ⟨.hbm, 120, rfl⟩
abbrev main_v49 : Ref sig .tc := ⟨.hbm, 121, rfl⟩
abbrev main_c_8 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_call3_cst : Ref sig .tc := ⟨.hbm, 129, rfl⟩
abbrev main_call3_v0 : Ref sig .tc := ⟨.hbm, 130, rfl⟩
abbrev main_v56 : Ref sig .tc := ⟨.hbm, 131, rfl⟩
abbrev main_cst_9 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_cst_10 : Ref sig .tc := ⟨.hbm, 138, rfl⟩
abbrev main_v62 : Ref sig .tc := ⟨.hbm, 139, rfl⟩
abbrev main_cst_11 : Ref sig .tc := ⟨.hbm, 140, rfl⟩
abbrev main_v63 : Ref sig .tc := ⟨.hbm, 141, rfl⟩
abbrev main_v64 : Ref sig .tc := ⟨.hbm, 142, rfl⟩
abbrev main_c_12 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_cst_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_v6 : Ref sig .tc := ⟨.hbm, 152, rfl⟩
abbrev main_call4_v7 : Ref sig .tc := ⟨.hbm, 153, rfl⟩
abbrev main_call4_cst_1 : Ref sig .tc := ⟨.hbm, 154, rfl⟩
abbrev main_call4_v8 : Ref sig .tc := ⟨.hbm, 155, rfl⟩
abbrev main_call4_cst_2 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_cst_3 : Ref sig .tc := ⟨.hbm, 160, rfl⟩
abbrev main_call4_v12 : Ref sig .tc := ⟨.hbm, 161, rfl⟩
abbrev main_call4_cst_4 : Ref sig .tc := ⟨.hbm, 162, rfl⟩
abbrev main_call4_call0_v0 : Ref sig .tc := ⟨.hbm, 163, rfl⟩
abbrev main_call4_call0_v1 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_v72 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg5_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg2_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem5_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem2_1 : DmaSem sig := 44

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reducesTo_S100000x64_S64_d0 : S100000x64.ReducesTo [0] S64
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S5000x64_S5000x64 : S5000x64.ShapeCasts S5000x64
  bcast_S1600000x1_S1600000x64_0_1 : S1600000x1.BroadcastsInDim S1600000x64 (![0, 1] : Fin 2 → Fin S1600000x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  inb_S64x64_S64x64_0_0 : ∀ a, (![0, 0] : Fin 2 → Nat) a + S64x64.size a ≤ S64x64.size a
  h_S64x64 : 0 < S64x64.numel
  concatenates_S100000x64_S100000x64_S100000x64_S100000x192_d1 : Shape.Concatenates [S100000x64, S100000x64, S100000x64] S100000x192 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v61) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v70) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v70) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg17) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x1 : Shape := ⟨2, ![1600000, 1]⟩
abbrev S128 : Shape := ⟨1, ![128]⟩
abbrev S1x128 : Shape := ⟨2, ![1, 128]⟩
abbrev S128x64 : Shape := ⟨2, ![128, 64]⟩
abbrev S64 : Shape := ⟨1, ![64]⟩
abbrev S1x64 : Shape := ⟨2, ![1, 64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x128 : Shape := ⟨2, ![1600000, 128]⟩
abbrev S100000x64 : Shape := ⟨2, ![100000, 64]⟩
abbrev S1600000x64 : Shape := ⟨2, ![1600000, 64]⟩
abbrev S100000x192 : Shape := ⟨2, ![100000, 192]⟩

abbrev nBuf : Space → Nat
  | .hbm => 211
  | .vmem => 0
  | .smem => 0
  | _ => 0

abbrev hbmTy0_0 (i : Nat) : BufTy := match i % 128 with
  | 0 => ⟨S100000x128, .f32⟩
  | 1 => ⟨S2x1600000, .i32⟩
  | 2 => ⟨S1600000x1, .f32⟩
  | 3 => ⟨S128, .f32⟩
  | 4 => ⟨S128, .f32⟩
  | 5 => ⟨S1x128, .f32⟩
  | 6 => ⟨S128, .f32⟩
  | 7 => ⟨S128x64, .f32⟩
  | 8 => ⟨S64, .f32⟩
  | 9 => ⟨S64, .f32⟩
  | 10 => ⟨S64, .f32⟩
  | 11 => ⟨S1x64, .f32⟩
  | 12 => ⟨S64, .f32⟩
  | 13 => ⟨S64x64, .f32⟩
  | 14 => ⟨S64, .f32⟩
  | 15 => ⟨S64, .f32⟩
  | 16 => ⟨S64, .f32⟩
  | 17 => ⟨S64x64, .f32⟩
  | 18 => ⟨S1x1600000, .i32⟩
  | 19 => ⟨S1600000, .i32⟩
  | 20 => ⟨S1x1600000, .i32⟩
  | 21 => ⟨S1600000, .i32⟩
  | 22 => ⟨S_, .f32⟩
  | 23 => ⟨S128, .f32⟩
  | 24 => ⟨S_, .f32⟩
  | 25 => ⟨S128, .f32⟩
  | 26 => ⟨S128, .f32⟩
  | 27 => ⟨S_, .i32⟩
  | 28 => ⟨S_, .f32⟩
  | 29 => ⟨S128, .f32⟩
  | 30 => ⟨S1x128, .f32⟩
  | 31 => ⟨S_, .f32⟩
  | 32 => ⟨S1x128, .f32⟩
  | 33 => ⟨S1x128, .f32⟩
  | 34 => ⟨S100000x128, .f32⟩
  | 35 => ⟨S100000x128, .f32⟩
  | 36 => ⟨S100000x128, .f32⟩
  | 37 => ⟨S_, .f32⟩
  | 38 => ⟨S_, .f32⟩
  | 39 => ⟨S_, .f32⟩
  | 40 => ⟨S_, .f32⟩
  | 41 => ⟨S128, .f32⟩
  | 42 => ⟨S128, .f32⟩
  | 43 => ⟨S128, .f32⟩
  | 44 => ⟨S_, .f32⟩
  | 45 => ⟨S_, .i1⟩
  | 46 => ⟨S_, .f32⟩
  | 47 => ⟨S_, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S_, .f32⟩
  | 54 => ⟨S128, .f32⟩
  | 55 => ⟨S128, .f32⟩
  | 56 => ⟨S128, .f32⟩
  | 57 => ⟨S1x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S1600000x128, .f32⟩
  | 67 => ⟨S1x128, .f32⟩
  | 68 => ⟨S1600000x128, .f32⟩
  | 69 => ⟨S1600000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S1600000x128, .f32⟩
  | 80 => ⟨S_, .f32⟩
  | 81 => ⟨S1600000x128, .f32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S100000x128, .f32⟩
  | 88 => ⟨S100000x64, .f32⟩
  | 89 => ⟨S1x64, .f32⟩
  | 90 => ⟨S100000x64, .f32⟩
  | 91 => ⟨S100000x64, .f32⟩
  | 92 => ⟨S100000x64, .f32⟩
  | 93 => ⟨S_, .f32⟩
  | 94 => ⟨S64, .f32⟩
  | 95 => ⟨S_, .f32⟩
  | 96 => ⟨S64, .f32⟩
  | 97 => ⟨S64, .f32⟩
  | 98 => ⟨S_, .i32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S100000x64, .f32⟩
  | 106 => ⟨S100000x64, .f32⟩
  | 107 => ⟨S100000x64, .f32⟩
  | 108 => ⟨S_, .f32⟩
  | 109 => ⟨S_, .f32⟩
  | 110 => ⟨S_, .f32⟩
  | 111 => ⟨S_, .f32⟩
  | 112 => ⟨S64, .f32⟩
  | 113 => ⟨S64, .f32⟩
  | 114 => ⟨S64, .f32⟩
  | 115 => ⟨S_, .f32⟩
  | 116 => ⟨S_, .i1⟩
  | 117 => ⟨S_, .f32⟩
  | 118 => ⟨S_, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S64, .f32⟩
  | 127 => ⟨S64, .f32⟩
  | _ => ⟨S100000x128, .f32⟩

abbrev hbmTy0_1 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S1x64, .f32⟩
  | 7 => ⟨S100000x64, .f32⟩
  | 8 => ⟨S100000x64, .f32⟩
  | 9 => ⟨S1600000x64, .f32⟩
  | 10 => ⟨S1x64, .f32⟩
  | 11 => ⟨S1600000x64, .f32⟩
  | 12 => ⟨S1600000x64, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x64, .f32⟩
  | 22 => ⟨S1600000x64, .f32⟩
  | 23 => ⟨S_, .f32⟩
  | 24 => ⟨S1600000x64, .f32⟩
  | 25 => ⟨S1600000x64, .f32⟩
  | 26 => ⟨S_, .f32⟩
  | 27 => ⟨S100000x64, .f32⟩
  | 28 => ⟨S1600000x1, .i32⟩
  | 29 => ⟨S100000x64, .f32⟩
  | 30 => ⟨S100000x64, .f32⟩
  | 31 => ⟨S100000x64, .f32⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S64, .f32⟩
  | 38 => ⟨S_, .f32⟩
  | 39 => ⟨S64, .f32⟩
  | 40 => ⟨S64, .f32⟩
  | 41 => ⟨S_, .i32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S100000x64, .f32⟩
  | 49 => ⟨S100000x64, .f32⟩
  | 50 => ⟨S100000x64, .f32⟩
  | 51 => ⟨S_, .f32⟩
  | 52 => ⟨S_, .f32⟩
  | 53 => ⟨S_, .f32⟩
  | 54 => ⟨S_, .f32⟩
  | 55 => ⟨S64, .f32⟩
  | 56 => ⟨S64, .f32⟩
  | 57 => ⟨S64, .f32⟩
  | 58 => ⟨S_, .f32⟩
  | 59 => ⟨S_, .i1⟩
  | 60 => ⟨S_, .f32⟩
  | 61 => ⟨S_, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S100000x64, .f32⟩
  | 81 => ⟨S100000x64, .f32⟩
  | 82 => ⟨S100000x192, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_cst_1 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_c_2 : Ref sig .tc := ⟨.hbm, 70, rfl⟩
abbrev main_v27 : Ref sig .tc := ⟨.hbm, 71, rfl⟩
abbrev main_v28 : Ref sig .tc := ⟨.hbm, 72, rfl⟩
abbrev main_c_3 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_call1_cst : Ref sig .tc := ⟨.hbm, 80, rfl⟩
abbrev main_call1_v0 : Ref sig .tc := ⟨.hbm, 81, rfl⟩
abbrev main_v35 : Ref sig .tc := ⟨.hbm, 82, rfl⟩
abbrev main_cst_4 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_cst_5 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_v47 : Ref sig .tc := ⟨.hbm, 97, rfl⟩
abbrev main_c_7 : Ref sig .tc := ⟨.hbm, 98, rfl⟩
abbrev main_call2_cst : Ref sig .tc := ⟨.hbm, 99, rfl⟩
abbrev main_call2_v0 : Ref sig .tc := ⟨.hbm, 100, rfl⟩
abbrev main_call2_v1 : Ref sig .tc := ⟨.hbm, 101, rfl⟩
abbrev main_call2_cst_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_v6 : Ref sig .tc := ⟨.hbm, 107, rfl⟩
abbrev main_call2_v7 : Ref sig .tc := ⟨.hbm, 108, rfl⟩
abbrev main_call2_cst_1 : Ref sig .tc := ⟨.hbm, 109, rfl⟩
abbrev main_call2_v8 : Ref sig .tc := ⟨.hbm, 110, rfl⟩
abbrev main_call2_cst_2 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_cst_3 : Ref sig .tc := ⟨.hbm, 115, rfl⟩
abbrev main_call2_v12 : Ref sig .tc := ⟨.hbm, 116, rfl⟩
abbrev main_call2_cst_4 : Ref sig .tc := ⟨.hbm, 117, rfl⟩
abbrev main_call2_call0_v0 : Ref sig .tc := ⟨.hbm, 118, rfl⟩
abbrev main_call2_call0_v1 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_cst_8 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_c_9 : Ref sig .tc := ⟨.hbm, 141, rfl⟩
abbrev main_v68 : Ref sig .tc := ⟨.hbm, 142, rfl⟩
abbrev main_v69 : Ref sig .tc := ⟨.hbm, 143, rfl⟩
abbrev main_c_10 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_call3_cst : Ref sig .tc := ⟨.hbm, 151, rfl⟩
abbrev main_call3_v0 : Ref sig .tc := ⟨.hbm, 152, rfl⟩
abbrev main_v76 : Ref sig .tc := ⟨.hbm, 153, rfl⟩
abbrev main_cst_11 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_cst_12 : Ref sig .tc := ⟨.hbm, 164, rfl⟩
abbrev main_v86 : Ref sig .tc := ⟨.hbm, 165, rfl⟩
abbrev main_cst_13 : Ref sig .tc := ⟨.hbm, 166, rfl⟩
abbrev main_v87 : Ref sig .tc := ⟨.hbm, 167, rfl⟩
abbrev main_v88 : Ref sig .tc := ⟨.hbm, 168, rfl⟩
abbrev main_c_14 : Ref sig .tc := ⟨.hbm, 169, rfl⟩
abbrev main_call4_cst : Ref sig .tc := ⟨.hbm, 170, rfl⟩
abbrev main_call4_v0 : Ref sig .tc := ⟨.hbm, 171, rfl⟩
abbrev main_call4_v1 : Ref sig .tc := ⟨.hbm, 172, rfl⟩
abbrev main_call4_cst_0 : Ref sig .tc := ⟨.hbm, 173, rfl⟩
abbrev main_call4_v2 : Ref sig .tc := ⟨.hbm, 174, rfl⟩
abbrev main_call4_v3 : Ref sig .tc := ⟨.hbm, 175, rfl⟩
abbrev main_call4_v4 : Ref sig .tc := ⟨.hbm, 176, rfl⟩
abbrev main_call4_v5 : Ref sig .tc := ⟨.hbm, 177, rfl⟩
abbrev main_call4_v6 : Ref sig .tc := ⟨.hbm, 178, rfl⟩
abbrev main_call4_v7 : Ref sig .tc := ⟨.hbm, 179, rfl⟩
abbrev main_call4_cst_1 : Ref sig .tc := ⟨.hbm, 180, rfl⟩
abbrev main_call4_v8 : Ref sig .tc := ⟨.hbm, 181, rfl⟩
abbrev main_call4_cst_2 : Ref sig .tc := ⟨.hbm, 182, rfl⟩
abbrev main_call4_v9 : Ref sig .tc := ⟨.hbm, 183, rfl⟩
abbrev main_call4_v10 : Ref sig .tc := ⟨.hbm, 184, rfl⟩
abbrev main_call4_v11 : Ref sig .tc := ⟨.hbm, 185, rfl⟩
abbrev main_call4_cst_3 : Ref sig .tc := ⟨.hbm, 186, rfl⟩
abbrev main_call4_v12 : Ref sig .tc := ⟨.hbm, 187, rfl⟩
abbrev main_call4_cst_4 : Ref sig .tc := ⟨.hbm, 188, rfl⟩
abbrev main_call4_call0_v0 : Ref sig .tc := ⟨.hbm, 189, rfl⟩
abbrev main_call4_call0_v1 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_cst_15 : Ref sig .tc := ⟨.hbm, 195, rfl⟩
abbrev main_v93 : Ref sig .tc := ⟨.hbm, 196, rfl⟩
abbrev main_v94 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S1x128_S1600000x128_0_1 : S1x128.BroadcastsInDim S1600000x128 (![0, 1] : Fin 2 → Fin S1600000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  bcast_S_S64 : S_.BroadcastsInDim S64 (![] : Fin 0 → Fin S64.rank)
  bcast_S_S1x64 : S_.BroadcastsInDim S1x64 (![] : Fin 0 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  dot_S1600000x1_S1x128_S1600000x128_1_0_0_1_n_n_wf : DotDims.WF S1600000x1 S1x128 S1600000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S1600000x1_S1x64_S1600000x64_1_0_0_1_n_n_wf : DotDims.WF S1600000x1 S1x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x1_S1x64_S1600000x64_1_0_0_1_n_n : DotDims S1600000x1 S1x64 S1600000x64 where
  lhsContracting := [1]
  rhsContracting := [0]
  lhsNonContracting := [0]
  rhsNonContracting := [1]
  lhsBatch := []
  rhsBatch := []
  wf := dot_S1600000x1_S1x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.K.R0.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body `cc0__bn_apply_kernel` run once per grid point, its 5 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole buffer -/
abbrev whole0_S5000x128 : Rect S5000x128 := Rect.unit (s := S5000x128) ![0, 0] S5000x128.size inb_S5000x128_S5000x128_0_0
abbrev whole0_S1x128 : Rect S1x128 := Rect.unit (s := S1x128) ![0, 0] S1x128.size inb_S1x128_S1x128_0_0

/-- The output window's staging buffer after the body: the one store's payload, a function of the input blocks. -/
def out0 (x0 : Vec F S5000x128 .f32) (x1 : Vec F S1x128 .f32) (x2 : Vec F S1x128 .f32) (x3 : Vec F S1x128 .f32) (x4 : Vec F S1x128 .f32) : Vec F S5000x128 .f32 :=
  View.canon [⟨whole0_S5000x128, k0_pay1 (View.ld x0 whole0_S5000x128) (View.ld x1 whole0_S1x128) (View.ld x2 whole0_S1x128) (View.ld x3 whole0_S1x128) (View.ld x4 whole0_S1x128)⟩]

/-- The store covers the buffer. -/
theorem cover0 (p0 : Vec F S5000x128 .f32) (y : S5000x128.Idx) :
    ∃ pc ∈ ([⟨whole0_S5000x128, p0⟩] : List (View.Piece (Elt F) S5000x128 .f32)), y ∈ pc.1.set :=
  View.cover_of_tiled [⟨whole0_S5000x128, p0⟩] S5000x128.size (by rfl) y

set_option maxHeartbeats 4000000 in
/-- The body's triple on whole staging memrefs: from the inputs at `x_j` and the output at anything, it ends with the
    inputs as they were and the output at `out0` of the inputs. -/
theorem sound_kernel0 (c : Dev nD) (E : Set ℕ) (i : grid0.Coords) (a0 : Memref sig .tc .vmem S5000x128 .f32) (ha0 : a0.IsWhole) (a1 : Memref sig .tc .vmem S1x128 .f32) (ha1 : a1.IsWhole) (a2 : Memref sig .tc .vmem S1x128 .f32) (ha2 : a2.IsWhole) (a3 : Memref sig .tc .vmem S1x128 .f32) (ha3 : a3.IsWhole) (a4 : Memref sig .tc .vmem S1x128 .f32) (ha4 : a4.IsWhole) (a5 : Memref sig .tc .vmem S5000x128 .f32) (ha5 : a5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out0 x0 x1 x2 x3 x4)) -∗ K ⟨⟩))
      ⊢ wp frame (wpE (defs₀ (F := F)) Variants.none c none) E (cc0__bn_apply_kernel i a0 ha0 a1 ha1 a2 ha2 a3 ha3 a4 ha4 a5 ha5) K := by
  simp only [cc0__bn_apply_kernel_eq_skeleton]; unfold cc0__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-! ## The pipeline's proof data -/

/-- The proof data of this pipeline on core `c`: the arrays as the region finds them; after the body at point `t` each
    input's buffer still at its block and the output's at `out0` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body `cc1__node_update_kernel` run once per grid point, its 4 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole buffer -/
abbrev whole1_S5000x128 : Rect S5000x128 := Rect.unit (s := S5000x128) ![0, 0] S5000x128.size inb_S5000x128_S5000x128_0_0
abbrev whole1_S128x64 : Rect S128x64 := Rect.unit (s := S128x64) ![0, 0] S128x64.size inb_S128x64_S128x64_0_0
abbrev whole1_S1x64 : Rect S1x64 := Rect.unit (s := S1x64) ![0, 0] S1x64.size inb_S1x64_S1x64_0_0
abbrev whole1_S5000x64 : Rect S5000x64 := Rect.unit (s := S5000x64) ![0, 0] S5000x64.size inb_S5000x64_S5000x64_0_0

/-- The output window's staging buffer after the body: the one store's payload, a function of the input blocks. -/
def out1 (x0 : Vec F S5000x128 .f32) (x1 : Vec F S5000x128 .f32) (x2 : Vec F S128x64 .f32) (x3 : Vec F S1x64 .f32) : Vec F S5000x64 .f32 :=
  View.canon [⟨whole1_S5000x64, k1_pay1 (View.ld x0 whole1_S5000x128) (View.ld x1 whole1_S5000x128) (View.ld x2 whole1_S128x64) (View.ld x3 whole1_S1x64)⟩]

/-- The store covers the buffer. -/
theorem cover1 (p0 : Vec F S5000x64 .f32) (y : S5000x64.Idx) :
    ∃ pc ∈ ([⟨whole1_S5000x64, p0⟩] : List (View.Piece (Elt F) S5000x64 .f32)), y ∈ pc.1.set :=
  View.cover_of_tiled [⟨whole1_S5000x64, p0⟩] S5000x64.size (by rfl) y

set_option maxHeartbeats 4000000 in
/-- The body's triple on whole staging memrefs: from the inputs at `x_j` and the output at anything, it ends with the
    inputs as they were and the output at `out1` of the inputs. -/
theorem sound_kernel1 (c : Dev nD) (E : Set ℕ) (i : grid1.Coords) (a0 : Memref sig .tc .vmem S5000x128 .f32) (ha0 : a0.IsWhole) (a1 : Memref sig .tc .vmem S5000x128 .f32) (ha1 : a1.IsWhole) (a2 : Memref sig .tc .vmem S128x64 .f32) (ha2 : a2.IsWhole) (a3 : Memref sig .tc .vmem S1x64 .f32) (ha3 : a3.IsWhole) (a4 : Memref sig .tc .vmem S5000x64 .f32) (ha4 : a4.IsWhole)
    (x0 : Vec F S5000x128 .f32) (x1 : Vec F S5000x128 .f32) (x2 : Vec F S128x64 .f32) (x3 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out1 x0 x1 x2 x3)) -∗ K ⟨⟩))
      ⊢ wp frame (wpE (defs₀ (F := F)) Variants.none c none) E (cc1__node_update_kernel i a0 ha0 a1 ha1 a2 ha2 a3 ha3 a4 ha4) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The pipeline's proof data -/

/-- The proof data of this pipeline on core `c`: the arrays as the region finds them; after the body at point `t` each
    input's buffer still at its block and the output's at `out1` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the kernel body `cc2__bn_apply_kernel` run once per grid point, its 5 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store go through the whole buffer -/
abbrev whole2_S5000x64 : Rect S5000x64 := Rect.unit (s := S5000x64) ![0, 0] S5000x64.size inb_S5000x64_S5000x64_0_0
abbrev whole2_S1x64 : Rect S1x64 := Rect.unit (s := S1x64) ![0, 0] S1x64.size inb_S1x64_S1x64_0_0

/-- The output window's staging buffer after the body: the one store's payload, a function of the input blocks. -/
def out2 (x0 : Vec F S5000x64 .f32) (x1 : Vec F S1x64 .f32) (x2 : Vec F S1x64 .f32) (x3 : Vec F S1x64 .f32) (x4 : Vec F S1x64 .f32) : Vec F S5000x64 .f32 :=
  View.canon [⟨whole2_S5000x64, k2_pay1 (View.ld x0 whole2_S5000x64) (View.ld x1 whole2_S1x64) (View.ld x2 whole2_S1x64) (View.ld x3 whole2_S1x64) (View.ld x4 whole2_S1x64)⟩]

/-- The store covers the buffer. -/
theorem cover2 (p0 : Vec F S5000x64 .f32) (y : S5000x64.Idx) :
    ∃ pc ∈ ([⟨whole2_S5000x64, p0⟩] : List (View.Piece (Elt F) S5000x64 .f32)), y ∈ pc.1.set :=
  View.cover_of_tiled [⟨whole2_S5000x64, p0⟩] S5000x64.size (by rfl) y

set_option maxHeartbeats 4000000 in
/-- The body's triple on whole staging memrefs: from the inputs at `x_j` and the output at anything, it ends with the
    inputs as they were and the output at `out2` of the inputs. -/
theorem sound_kernel2 (c : Dev nD) (E : Set ℕ) (i : grid2.Coords) (a0 : Memref sig .tc .vmem S5000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S5000x64 .f32) (ha5 : a5.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2 x0 x1 x2 x3 x4)) -∗ K ⟨⟩))
      ⊢ wp frame (wpE (defs₀ (F := F)) Variants.none c none) E (cc2__bn_apply_kernel i a0 ha0 a1 ha1 a2 ha2 a3 ha3 a4 ha4 a5 ha5) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of this pipeline on core `c`: the arrays as the region finds them; after the body at point `t` each
    input's buffer still at its block and the output's at `out2` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the kernel body `cc3__node_update_kernel` run once per grid point, its 4 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or the block index
    stood still since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or the block index
    stood still since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or the block index
    stood still since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store go through the whole buffer -/
abbrev whole3_S5000x64 : Rect S5000x64 := Rect.unit (s := S5000x64) ![0, 0] S5000x64.size inb_S5000x64_S5000x64_0_0
abbrev whole3_S64x64 : Rect S64x64 := Rect.unit (s := S64x64) ![0, 0] S64x64.size inb_S64x64_S64x64_0_0
abbrev whole3_S1x64 : Rect S1x64 := Rect.unit (s := S1x64) ![0, 0] S1x64.size inb_S1x64_S1x64_0_0

/-- The output window's staging buffer after the body: the one store's payload, a function of the input blocks. -/
def out3 (x0 : Vec F S5000x64 .f32) (x1 : Vec F S5000x64 .f32) (x2 : Vec F S64x64 .f32) (x3 : Vec F S1x64 .f32) : Vec F S5000x64 .f32 :=
  View.canon [⟨whole3_S5000x64, k3_pay1 (View.ld x0 whole3_S5000x64) (View.ld x1 whole3_S5000x64) (View.ld x2 whole3_S64x64) (View.ld x3 whole3_S1x64)⟩]

/-- The store covers the buffer. -/
theorem cover3 (p0 : Vec F S5000x64 .f32) (y : S5000x64.Idx) :
    ∃ pc ∈ ([⟨whole3_S5000x64, p0⟩] : List (View.Piece (Elt F) S5000x64 .f32)), y ∈ pc.1.set :=
  View.cover_of_tiled [⟨whole3_S5000x64, p0⟩] S5000x64.size (by rfl) y

set_option maxHeartbeats 4000000 in
/-- The body's triple on whole staging memrefs: from the inputs at `x_j` and the output at anything, it ends with the
    inputs as they were and the output at `out3` of the inputs. -/
theorem sound_kernel3 (c : Dev nD) (E : Set ℕ) (i : grid3.Coords) (a0 : Memref sig .tc .vmem S5000x64 .f32) (ha0 : a0.IsWhole) (a1 : Memref sig .tc .vmem S5000x64 .f32) (ha1 : a1.IsWhole) (a2 : Memref sig .tc .vmem S64x64 .f32) (ha2 : a2.IsWhole) (a3 : Memref sig .tc .vmem S1x64 .f32) (ha3 : a3.IsWhole) (a4 : Memref sig .tc .vmem S5000x64 .f32) (ha4 : a4.IsWhole)
    (x0 : Vec F S5000x64 .f32) (x1 : Vec F S5000x64 .f32) (x2 : Vec F S64x64 .f32) (x3 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out3 x0 x1 x2 x3)) -∗ K ⟨⟩))
      ⊢ wp frame (wpE (defs₀ (F := F)) Variants.none c none) E (cc3__node_update_kernel i a0 ha0 a1 ha1 a2 ha2 a3 ha3 a4 ha4) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-! ## The pipeline's proof data -/

/-- The proof data of this pipeline on core `c`: the arrays as the region finds them; after the body at point `t` each
    input's buffer still at its block and the output's at `out3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.R4.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the kernel body `cc4__bn_apply_kernel` run once per grid point, its 5 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the point fetched it or the block index
    stood still since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store go through the whole buffer -/
abbrev whole4_S5000x64 : Rect S5000x64 := Rect.unit (s := S5000x64) ![0, 0] S5000x64.size inb_S5000x64_S5000x64_0_0
abbrev whole4_S1x64 : Rect S1x64 := Rect.unit (s := S1x64) ![0, 0] S1x64.size inb_S1x64_S1x64_0_0

/-- The output window's staging buffer after the body: the one store's payload, a function of the input blocks. -/
def out4 (x0 : Vec F S5000x64 .f32) (x1 : Vec F S1x64 .f32) (x2 : Vec F S1x64 .f32) (x3 : Vec F S1x64 .f32) (x4 : Vec F S1x64 .f32) : Vec F S5000x64 .f32 :=
  View.canon [⟨whole4_S5000x64, k4_pay1 (View.ld x0 whole4_S5000x64) (View.ld x1 whole4_S1x64) (View.ld x2 whole4_S1x64) (View.ld x3 whole4_S1x64) (View.ld x4 whole4_S1x64)⟩]

/-- The store covers the buffer. -/
theorem cover4 (p0 : Vec F S5000x64 .f32) (y : S5000x64.Idx) :
    ∃ pc ∈ ([⟨whole4_S5000x64, p0⟩] : List (View.Piece (Elt F) S5000x64 .f32)), y ∈ pc.1.set :=
  View.cover_of_tiled [⟨whole4_S5000x64, p0⟩] S5000x64.size (by rfl) y

set_option maxHeartbeats 4000000 in
/-- The body's triple on whole staging memrefs: from the inputs at `x_j` and the output at anything, it ends with the
    inputs as they were and the output at `out4` of the inputs. -/
theorem sound_kernel4 (c : Dev nD) (E : Set ℕ) (i : grid4.Coords) (a0 : Memref sig .tc .vmem S5000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S5000x64 .f32) (ha5 : a5.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out4 x0 x1 x2 x3 x4)) -∗ K ⟨⟩))
      ⊢ wp frame (wpE (defs₀ (F := F)) Variants.none c none) E (cc4__bn_apply_kernel i a0 ha0 a1 ha1 a2 ha2 a3 ha3 a4 ha4 a5 ha5) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-! ## The pipeline's proof data -/

/-- The proof data of this pipeline on core `c`: the arrays as the region finds them; after the body at point `t` each
    input's buffer still at its block and the output's at `out4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.R5.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the kernel body `cc5__matmul_tanh_kernel` run once per grid point, its 2 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or the block index
    stood still since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether the point fetched it or the block index
    stood still since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store go through the whole buffer -/
abbrev whole5_S5000x64 : Rect S5000x64 := Rect.unit (s := S5000x64) ![0, 0] S5000x64.size inb_S5000x64_S5000x64_0_0
abbrev whole5_S64x64 : Rect S64x64 := Rect.unit (s := S64x64) ![0, 0] S64x64.size inb_S64x64_S64x64_0_0

/-- The output window's staging buffer after the body: the one store's payload, a function of the input blocks. -/
def out5 (x0 : Vec F S5000x64 .f32) (x1 : Vec F S64x64 .f32) : Vec F S5000x64 .f32 :=
  View.canon [⟨whole5_S5000x64, k5_pay1 (View.ld x0 whole5_S5000x64) (View.ld x1 whole5_S64x64)⟩]

/-- The store covers the buffer. -/
theorem cover5 (p0 : Vec F S5000x64 .f32) (y : S5000x64.Idx) :
    ∃ pc ∈ ([⟨whole5_S5000x64, p0⟩] : List (View.Piece (Elt F) S5000x64 .f32)), y ∈ pc.1.set :=
  View.cover_of_tiled [⟨whole5_S5000x64, p0⟩] S5000x64.size (by rfl) y

set_option maxHeartbeats 4000000 in
/-- The body's triple on whole staging memrefs: from the inputs at `x_j` and the output at anything, it ends with the
    inputs as they were and the output at `out5` of the inputs. -/
theorem sound_kernel5 (c : Dev nD) (E : Set ℕ) (i : grid5.Coords) (a0 : Memref sig .tc .vmem S5000x64 .f32) (ha0 : a0.IsWhole) (a1 : Memref sig .tc .vmem S64x64 .f32) (ha1 : a1.IsWhole) (a2 : Memref sig .tc .vmem S5000x64 .f32) (ha2 : a2.IsWhole)
    (x0 : Vec F S5000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out5 x0 x1)) -∗ K ⟨⟩))
      ⊢ wp frame (wpE (defs₀ (F := F)) Variants.none c none) E (cc5__matmul_tanh_kernel i a0 ha0 a1 ha1 a2 ha2) K := by
  simp only [cc5__matmul_tanh_kernel_eq_skeleton]; unfold cc5__matmul_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-! ## The pipeline's proof data -/

/-- The proof data of this pipeline on core `c`: the arrays as the region finds them; after the body at point `t` each
    input's buffer still at its block and the output's at `out5` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Regs.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import proofs.«120795_j24472723652943_2_alg».proof.Proof.K.R0
import proofs.«120795_j24472723652943_2_alg».proof.Proof.K.R1
import proofs.«120795_j24472723652943_2_alg».proof.Proof.K.R2
import proofs.«120795_j24472723652943_2_alg».proof.Proof.K.R3
import proofs.«120795_j24472723652943_2_alg».proof.Proof.K.R4
import proofs.«120795_j24472723652943_2_alg».proof.Proof.K.R5
import proofs.«120795_j24472723652943_2_alg».proof.Proof.Gen.Kernel.Regions
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: the six regions as segments between the host stretches.

    Between two items core `c` holds every unscoped buffer at the generated valuations `Gen.VJ m outs c`, where `outs` names
    what each region leaves in its output array.  Below `outs` is any family satisfying the six equations `OutsOk`: each
    region's output array ends at the fold of its write-backs (`Dat.arrAt … N`) from the contents the region was entered
    with; such a family exists (`exists_outs`). -/

variable (m : (ℓ : Loc nD τ sig) → Buf (Elt F) ℓ) (outs : Gen.Outs (F := F))

/-- The contents region 0 is entered with, read at the TensorCore's references. -/
abbrev Vin0 (c : Dev nD) (b : Ref sig .tc) : Buf (Elt F) ((c : Thread nD τ).loc b) := Gen.V3 m c b
/-- The contents region 1 is entered with, read at the TensorCore's references. -/
abbrev Vin1 (c : Dev nD) (b : Ref sig .tc) : Buf (Elt F) ((c : Thread nD τ).loc b) := Gen.V7 m outs c b
/-- The contents region 2 is entered with, read at the TensorCore's references. -/
abbrev Vin2 (c : Dev nD) (b : Ref sig .tc) : Buf (Elt F) ((c : Thread nD τ).loc b) := Gen.V11 m outs c b
/-- The contents region 3 is entered with, read at the TensorCore's references. -/
abbrev Vin3 (c : Dev nD) (b : Ref sig .tc) : Buf (Elt F) ((c : Thread nD τ).loc b) := Gen.V15 m outs c b
/-- The contents region 4 is entered with, read at the TensorCore's references. -/
abbrev Vin4 (c : Dev nD) (b : Ref sig .tc) : Buf (Elt F) ((c : Thread nD τ).loc b) := Gen.V19 m outs c b
/-- The contents region 5 is entered with, read at the TensorCore's references. -/
abbrev Vin5 (c : Dev nD) (b : Ref sig .tc) : Buf (Elt F) ((c : Thread nD τ).loc b) := Gen.V20 m outs c b

/-- Every pipeline's proof data, each at its region's entry contents. -/
def pdats : (p : Fin 6) → (c : Dev nD) → Dat τ (Elt F) Unit ℕ (UR sig nD τ) ℕ (cfgs p) c
  | ⟨0, _⟩ => fun c => dat0 (Vin0 m) c
  | ⟨1, _⟩ => fun c => dat1 (Vin1 m outs) c
  | ⟨2, _⟩ => fun c => dat2 (Vin2 m outs) c
  | ⟨3, _⟩ => fun c => dat3 (Vin3 m outs) c
  | ⟨4, _⟩ => fun c => dat4 (Vin4 m outs) c
  | ⟨5, _⟩ => fun c => dat5 (Vin5 m outs) c

/-- What the regions leave: each output array at the fold of its write-backs. -/
structure OutsOk : Prop where
  h0 : ∀ c : Dev nD, outs 4 main_v12 c = (dat0 (Vin0 m) c).arrAt 5 cfg0.N
  h1 : ∀ c : Dev nD, outs 8 main_v32 c = (dat1 (Vin1 m outs) c).arrAt 4 cfg1.N
  h2 : ∀ c : Dev nD, outs 12 main_v41 c = (dat2 (Vin2 m outs) c).arrAt 5 cfg2.N
  h3 : ∀ c : Dev nD, outs 16 main_v61 c = (dat3 (Vin3 m outs) c).arrAt 4 cfg3.N
  h4 : ∀ c : Dev nD, outs 20 main_v70 c = (dat4 (Vin4 m outs) c).arrAt 5 cfg4.N
  h5 : ∀ c : Dev nD, outs 21 main_v71 c = (dat5 (Vin5 m outs) c).arrAt 2 cfg5.N

variable {m outs}

/-- The exit contents at region 0's output array are what `outs` names. -/
theorem vout0_self (c : Dev nD) : Gen.V4 m outs c main_v12 = outs 4 main_v12 c :=
  Function.update_self (Proc.devRef .tc main_v12 : DevRef τ sig) (outs 4 main_v12 c) (Gen.V3 m c)

set_option maxHeartbeats 4000000 in
/-- At region 0's exit each of its arrays holds what the pipeline leaves: an input's array is untouched, the output's is
    what `outs` names. -/
theorem hF0 (ok : OutsOk m outs) (c : Dev nD) (w : Fin cfg0.W) :
    (dat0 (Vin0 m) c).arrAt w cfg0.N = Gen.V4 m outs c (Pipeline.arrRef spec0 w) := by
  match w with
  | ⟨0, _⟩ => exact (((dat0 (Vin0 m) c).arrAt_in 0 rfl _).trans (A_eq0 (Vin0 m) c 0)).trans (Gen.V4_of m outs c _ (by decide)).symm
  | ⟨1, _⟩ => exact (((dat0 (Vin0 m) c).arrAt_in 1 rfl _).trans (A_eq0 (Vin0 m) c 1)).trans (Gen.V4_of m outs c _ (by decide)).symm
  | ⟨2, _⟩ => exact (((dat0 (Vin0 m) c).arrAt_in 2 rfl _).trans (A_eq0 (Vin0 m) c 2)).trans (Gen.V4_of m outs c _ (by decide)).symm
  | ⟨3, _⟩ => exact (((dat0 (Vin0 m) c).arrAt_in 3 rfl _).trans (A_eq0 (Vin0 m) c 3)).trans (Gen.V4_of m outs c _ (by decide)).symm
  | ⟨4, _⟩ => exact (((dat0 (Vin0 m) c).arrAt_in 4 rfl _).trans (A_eq0 (Vin0 m) c 4)).trans (Gen.V4_of m outs c _ (by decide)).symm
  | ⟨5, _⟩ =>
    show _ = Gen.V4 m outs c main_v12
    exact (ok.h0 c).symm.trans (vout0_self c).symm
/-- and every other buffer what it held at entry. -/
theorem hrest0 (c : Dev nD) : ∀ b, b ∉ Finset.univ.image (Pipeline.arrRef spec0) → Gen.V4 m outs c b = Vin0 m c b :=
  fun b hb => Gen.V4_of m outs c b (fun h => hb (by
    rw [List.mem_singleton] at h; subst h
    exact Finset.mem_image.mpr ⟨5, Finset.mem_univ _, rfl⟩))

/-- The exit contents at region 1's output array are what `outs` names. -/
theorem vout1_self (c : Dev nD) : Gen.V8 m outs c main_v32 = outs 8 main_v32 c :=
  Function.update_self (Proc.devRef .tc main_v32 : DevRef τ sig) (outs 8 main_v32 c) (Gen.V7 m outs c)

set_option maxHeartbeats 4000000 in
/-- At region 1's exit each of its arrays holds what the pipeline leaves: an input's array is untouched, the output's is
    what `outs` names. -/
theorem hF1 (ok : OutsOk m outs) (c : Dev nD) (w : Fin cfg1.W) :
    (dat1 (Vin1 m outs) c).arrAt w cfg1.N = Gen.V8 m outs c (Pipeline.arrRef spec1 w) := by
  match w with
  | ⟨0, _⟩ => exact (((dat1 (Vin1 m outs) c).arrAt_in 0 rfl _).trans (A_eq1 (Vin1 m outs) c 0)).trans (Gen.V8_of m outs c _ (by decide)).symm
  | ⟨1, _⟩ => exact (((dat1 (Vin1 m outs) c).arrAt_in 1 rfl _).trans (A_eq1 (Vin1 m outs) c 1)).trans (Gen.V8_of m outs c _ (by decide)).symm
  | ⟨2, _⟩ => exact (((dat1 (Vin1 m outs) c).arrAt_in 2 rfl _).trans (A_eq1 (Vin1 m outs) c 2)).trans (Gen.V8_of m outs c _ (by decide)).symm
  | ⟨3, _⟩ => exact (((dat1 (Vin1 m outs) c).arrAt_in 3 rfl _).trans (A_eq1 (Vin1 m outs) c 3)).trans (Gen.V8_of m outs c _ (by decide)).symm
  | ⟨4, _⟩ =>
    show _ = Gen.V8 m outs c main_v32
    exact (ok.h1 c).symm.trans (vout1_self c).symm
/-- and every other buffer what it held at entry. -/
theorem hrest1 (c : Dev nD) : ∀ b, b ∉ Finset.univ.image (Pipeline.arrRef spec1) → Gen.V8 m outs c b = Vin1 m outs c b :=
  fun b hb => Gen.V8_of m outs c b (fun h => hb (by
    rw [List.mem_singleton] at h; subst h
    exact Finset.mem_image.mpr ⟨4, Finset.mem_univ _, rfl⟩))

/-- The exit contents at region 2's output array are what `outs` names. -/
theorem vout2_self (c : Dev nD) : Gen.V12 m outs c main_v41 = outs 12 main_v41 c :=
  Function.update_self (Proc.devRef .tc main_v41 : DevRef τ sig) (outs 12 main_v41 c) (Gen.V11 m outs c)

set_option maxHeartbeats 4000000 in
/-- At region 2's exit each of its arrays holds what the pipeline leaves: an input's array is untouched, the output's is
    what `outs` names. -/
theorem hF2 (ok : OutsOk m outs) (c : Dev nD) (w : Fin cfg2.W) :
    (dat2 (Vin2 m outs) c).arrAt w cfg2.N = Gen.V12 m outs c (Pipeline.arrRef spec2 w) := by
  match w with
  | ⟨0, _⟩ => exact (((dat2 (Vin2 m outs) c).arrAt_in 0 rfl _).trans (A_eq2 (Vin2 m outs) c 0)).trans (Gen.V12_of m outs c _ (by decide)).symm
  | ⟨1, _⟩ => exact (((dat2 (Vin2 m outs) c).arrAt_in 1 rfl _).trans (A_eq2 (Vin2 m outs) c 1)).trans (Gen.V12_of m outs c _ (by decide)).symm
  | ⟨2, _⟩ => exact (((dat2 (Vin2 m outs) c).arrAt_in 2 rfl _).trans (A_eq2 (Vin2 m outs) c 2)).trans (Gen.V12_of m outs c _ (by decide)).symm
  | ⟨3, _⟩ => exact (((dat2 (Vin2 m outs) c).arrAt_in 3 rfl _).trans (A_eq2 (Vin2 m outs) c 3)).trans (Gen.V12_of m outs c _ (by decide)).symm
  | ⟨4, _⟩ => exact (((dat2 (Vin2 m outs) c).arrAt_in 4 rfl _).trans (A_eq2 (Vin2 m outs) c 4)).trans (Gen.V12_of m outs c _ (by decide)).symm
  | ⟨5, _⟩ =>
    show _ = Gen.V12 m outs c main_v41
    exact (ok.h2 c).symm.trans (vout2_self c).symm
/-- and every other buffer what it held at entry. -/
theorem hrest2 (c : Dev nD) : ∀ b, b ∉ Finset.univ.image (Pipeline.arrRef spec2) → Gen.V12 m outs c b = Vin2 m outs c b :=
  fun b hb => Gen.V12_of m outs c b (fun h => hb (by
    rw [List.mem_singleton] at h; subst h
    exact Finset.mem_image.mpr ⟨5, Finset.mem_univ _, rfl⟩))

/-- The exit contents at region 3's output array are what `outs` names. -/
theorem vout3_self (c : Dev nD) : Gen.V16 m outs c main_v61 = outs 16 main_v61 c :=
  Function.update_self (Proc.devRef .tc main_v61 : DevRef τ sig) (outs 16 main_v61 c) (Gen.V15 m outs c)

set_option maxHeartbeats 4000000 in
/-- At region 3's exit each of its arrays holds what the pipeline leaves: an input's array is untouched, the output's is
    what `outs` names. -/
theorem hF3 (ok : OutsOk m outs) (c : Dev nD) (w : Fin cfg3.W) :
    (dat3 (Vin3 m outs) c).arrAt w cfg3.N = Gen.V16 m outs c (Pipeline.arrRef spec3 w) := by
  match w with
  | ⟨0, _⟩ => exact (((dat3 (Vin3 m outs) c).arrAt_in 0 rfl _).trans (A_eq3 (Vin3 m outs) c 0)).trans (Gen.V16_of m outs c _ (by decide)).symm
  | ⟨1, _⟩ => exact (((dat3 (Vin3 m outs) c).arrAt_in 1 rfl _).trans (A_eq3 (Vin3 m outs) c 1)).trans (Gen.V16_of m outs c _ (by decide)).symm
  | ⟨2, _⟩ => exact (((dat3 (Vin3 m outs) c).arrAt_in 2 rfl _).trans (A_eq3 (Vin3 m outs) c 2)).trans (Gen.V16_of m outs c _ (by decide)).symm
  | ⟨3, _⟩ => exact (((dat3 (Vin3 m outs) c).arrAt_in 3 rfl _).trans (A_eq3 (Vin3 m outs) c 3)).trans (Gen.V16_of m outs c _ (by decide)).symm
  | ⟨4, _⟩ =>
    show _ = Gen.V16 m outs c main_v61
    exact (ok.h3 c).symm.trans (vout3_self c).symm
/-- and every other buffer what it held at entry. -/
theorem hrest3 (c : Dev nD) : ∀ b, b ∉ Finset.univ.image (Pipeline.arrRef spec3) → Gen.V16 m outs c b = Vin3 m outs c b :=
  fun b hb => Gen.V16_of m outs c b (fun h => hb (by
    rw [List.mem_singleton] at h; subst h
    exact Finset.mem_image.mpr ⟨4, Finset.mem_univ _, rfl⟩))

/-- The exit contents at region 4's output array are what `outs` names. -/
theorem vout4_self (c : Dev nD) : Gen.V20 m outs c main_v70 = outs 20 main_v70 c :=
  Function.update_self (Proc.devRef .tc main_v70 : DevRef τ sig) (outs 20 main_v70 c) (Gen.V19 m outs c)

set_option maxHeartbeats 4000000 in
/-- At region 4's exit each of its arrays holds what the pipeline leaves: an input's array is untouched, the output's is
    what `outs` names. -/
theorem hF4 (ok : OutsOk m outs) (c : Dev nD) (w : Fin cfg4.W) :
    (dat4 (Vin4 m outs) c).arrAt w cfg4.N = Gen.V20 m outs c (Pipeline.arrRef spec4 w) := by
  match w with
  | ⟨0, _⟩ => exact (((dat4 (Vin4 m outs) c).arrAt_in 0 rfl _).trans (A_eq4 (Vin4 m outs) c 0)).trans (Gen.V20_of m outs c _ (by decide)).symm
  | ⟨1, _⟩ => exact (((dat4 (Vin4 m outs) c).arrAt_in 1 rfl _).trans (A_eq4 (Vin4 m outs) c 1)).trans (Gen.V20_of m outs c _ (by decide)).symm
  | ⟨2, _⟩ => exact (((dat4 (Vin4 m outs) c).arrAt_in 2 rfl _).trans (A_eq4 (Vin4 m outs) c 2)).trans (Gen.V20_of m outs c _ (by decide)).symm
  | ⟨3, _⟩ => exact (((dat4 (Vin4 m outs) c).arrAt_in 3 rfl _).trans (A_eq4 (Vin4 m outs) c 3)).trans (Gen.V20_of m outs c _ (by decide)).symm
  | ⟨4, _⟩ => exact (((dat4 (Vin4 m outs) c).arrAt_in 4 rfl _).trans (A_eq4 (Vin4 m outs) c 4)).trans (Gen.V20_of m outs c _ (by decide)).symm
  | ⟨5, _⟩ =>
    show _ = Gen.V20 m outs c main_v70
    exact (ok.h4 c).symm.trans (vout4_self c).symm
/-- and every other buffer what it held at entry. -/
theorem hrest4 (c : Dev nD) : ∀ b, b ∉ Finset.univ.image (Pipeline.arrRef spec4) → Gen.V20 m outs c b = Vin4 m outs c b :=
  fun b hb => Gen.V20_of m outs c b (fun h => hb (by
    rw [List.mem_singleton] at h; subst h
    exact Finset.mem_image.mpr ⟨5, Finset.mem_univ _, rfl⟩))

/-- The exit contents at region 5's output array are what `outs` names. -/
theorem vout5_self (c : Dev nD) : Gen.V21 m outs c main_v71 = outs 21 main_v71 c :=
  Function.update_self (Proc.devRef .tc main_v71 : DevRef τ sig) (outs 21 main_v71 c) (Gen.V20 m outs c)

set_option maxHeartbeats 4000000 in
/-- At region 5's exit each of its arrays holds what the pipeline leaves: an input's array is untouched, the output's is
    what `outs` names. -/
theorem hF5 (ok : OutsOk m outs) (c : Dev nD) (w : Fin cfg5.W) :
    (dat5 (Vin5 m outs) c).arrAt w cfg5.N = Gen.V21 m outs c (Pipeline.arrRef spec5 w) := by
  match w with
  | ⟨0, _⟩ => exact (((dat5 (Vin5 m outs) c).arrAt_in 0 rfl _).trans (A_eq5 (Vin5 m outs) c 0)).trans (Gen.V21_of m outs c _ (by decide)).symm
  | ⟨1, _⟩ => exact (((dat5 (Vin5 m outs) c).arrAt_in 1 rfl _).trans (A_eq5 (Vin5 m outs) c 1)).trans (Gen.V21_of m outs c _ (by decide)).symm
  | ⟨2, _⟩ =>
    show _ = Gen.V21 m outs c main_v71
    exact (ok.h5 c).symm.trans (vout5_self c).symm
/-- and every other buffer what it held at entry. -/
theorem hrest5 (c : Dev nD) : ∀ b, b ∉ Finset.univ.image (Pipeline.arrRef spec5) → Gen.V21 m outs c b = Vin5 m outs c b :=
  fun b hb => Gen.V21_of m outs c b (fun h => hb (by
    rw [List.mem_singleton] at h; subst h
    exact Finset.mem_image.mpr ⟨2, Finset.mem_univ _, rfl⟩))

/-! ## The thread state beside the buffers, and the regions as segments -/

/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev EE : Fin 7 → Dev nD → sProp 𝕄 := fun _ c => Rr c
abbrev LL : GSem nD τ sig → Finset Unit := fun _ => ∅
abbrev lvv : GSem nD τ sig → Unit → ℕ := fun _ _ => 0

set_option backward.isDefEq.respectTransparency.types false in
/-- Region 0 over the thread state: its arrays are split out of the unscoped buffers at entry and put back at the exit
    contents; the generator register goes into the class invariant and comes back; nothing is owed. -/
def reg0 (ok : OutsOk m outs) : Pipeline.RegionSeg (pcfgs (F := F)) Gen.adm (pdats m outs) () defs₀ Variants.none LL lvv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LL lvv 0 fun _ _ => rfl
  pre c := iprop(StableHlo.held (c : Thread nD τ) (Pipeline.ucRefs τ sig) (Gen.V3 m c) ∗ Rr c)
  post c := iprop(StableHlo.held (c : Thread nD τ) (Pipeline.ucRefs τ sig) (Gen.V4 m outs c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (Vin0 m c) (fun b => Gen.V4 m outs c b) ((pdats m outs 0 c).arrAt · cfg0.N) (hF0 ok c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at the exit
    contents; the generator register goes into the class invariant and comes back; nothing is owed. -/
def reg1 (ok : OutsOk m outs) : Pipeline.RegionSeg (pcfgs (F := F)) Gen.adm (pdats m outs) () defs₀ Variants.none LL lvv 1 where
  win := launch1.win.to₀
  block_pos := launch1.block_pos
  stage_whole := launch1.stage_whole
  K := PEmpty
  osem k := k.elim
  ho := Pipeline.OwnSemFacts.none _
  hbody c := (body_obligation1 (Vin1 m outs) c).loose
  hwaits := Pipeline.hwaits_of_owed_zero _ _ _ _ LL lvv 1 fun _ _ => rfl
  pre c := iprop(StableHlo.held (c : Thread nD τ) (Pipeline.ucRefs τ sig) (Gen.V7 m outs c) ∗ Rr c)
  post c := iprop(StableHlo.held (c : Thread nD τ) (Pipeline.ucRefs τ sig) (Gen.V8 m outs c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m outs c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) (Vin1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      (Vin1 m outs c) (fun b => Gen.V8 m outs c b) ((pdats m outs 1 c).arrAt · cfg1.N) (hF1 ok c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at entry and put back at the exit
    contents; the generator register goes into the class invariant and comes back; nothing is owed. -/
def reg2 (ok : OutsOk m outs) : Pipeline.RegionSeg (pcfgs (F := F)) Gen.adm (pdats m outs) () defs₀ Variants.none LL lvv 2 where
  win := launch2.win.to₀
  block_pos := launch2.block_pos
  stage_whole := launch2.stage_whole
  K := PEmpty
  osem k := k.elim
  ho := Pipeline.OwnSemFacts.none _
  hbody c := (body_obligation2 (Vin2 m outs) c).loose
  hwaits := Pipeline.hwaits_of_owed_zero _ _ _ _ LL lvv 2 fun _ _ => rfl
  pre c := iprop(StableHlo.held (c : Thread nD τ) (Pipeline.ucRefs τ sig) (Gen.V11 m outs c) ∗ Rr c)
  post c := iprop(StableHlo.held (c : Thread nD τ) (Pipeline.ucRefs τ sig) (Gen.V12 m outs c) ∗ Rr c)
  X c := iprop(∃ r, prngReg c r)
  Y c := iprop(∃ r, prngReg c r)
  Z c := Pipeline.unscopedRest (Ix := Unit) (Name := ℕ) (U := UR sig nD τ) (Lvl := ℕ) spec2 c (Vin2 m outs c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) (Vin2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      (Vin2 m outs c) (fun b => Gen.V12 m outs c b) ((pdats m outs 2 c).arrAt · cfg2.N) (hF2 ok c) (hrest2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays are split out of the unscoped buffers at entry and put back at the exit
    contents; the generator register goes into the class invariant and comes back; nothing is owed. -/
def reg3 (ok : OutsOk m outs) : Pipeline.RegionSeg (pcfgs (F := F)) Gen.adm (pdats m outs) () defs₀ Variants.none LL lvv 3 where
  win := launch3.win.to₀
  block_pos := launch3.block_pos
  stage_whole := launch3.stage_whole
  K := PEmpty
  osem k := k.elim
  ho := Pipeline.OwnSemFacts.none _
  hbody c := (body_obligation3 (Vin3 m outs) c).loose
  hwaits := Pipeline.hwaits_of_owed_zero _ _ _ _ LL lvv 3 fun _ _ => rfl
  pre c := iprop(StableHlo.held (c : Thread nD τ) (Pipeline.ucRefs τ sig) (Gen.V15 m outs c) ∗ Rr c)
  post c := iprop(StableHlo.held (c : Thread nD τ) (Pipeline.ucRefs τ sig) (Gen.V16 m outs c) ∗ Rr c)
  X c := iprop(∃ r, prngReg c r)
  Y c := iprop(∃ r, prngReg c r)
  Z c := Pipeline.unscopedRest (Ix := Unit) (Name := ℕ) (U := UR sig nD τ) (Lvl := ℕ) spec3 c (Vin3 m outs c)
  hentry c := by
    rw [Pipeline.ownSems0_none]
    have hsplit := Pipeline.arrays_of_unscopedBufs (p := 3) (pcfgs (F := F)) Gen.adm (pdats m outs) launch3.win launch3.arr_whole c
      ((pdats m outs 3 c).share_full fun _ => rfl) (Vin3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m outs) ((pdats m outs 3 c).share_full fun _ => rfl)
      (Vin3 m outs c) (fun b => Gen.V16 m outs c b) ((pdats m outs 3 c).arrAt · cfg3.N) (hF3 ok c) (hrest3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays are split out of the unscoped buffers at entry and put back at the exit
    contents; the generator register goes into the class invariant and comes back; nothing is owed. -/
def reg4 (ok : OutsOk m outs) : Pipeline.RegionSeg (pcfgs (F := F)) Gen.adm (pdats m outs) () defs₀ Variants.none LL lvv 4 where
  win := launch4.win.to₀
  block_pos := launch4.block_pos
  stage_whole := launch4.stage_whole
  K := PEmpty
  osem k := k.elim
  ho := Pipeline.OwnSemFacts.none _
  hbody c := (body_obligation4 (Vin4 m outs) c).loose
  hwaits := Pipeline.hwaits_of_owed_zero _ _ _ _ LL lvv 4 fun _ _ => rfl
  pre c := iprop(StableHlo.held (c : Thread nD τ) (Pipeline.ucRefs τ sig) (Gen.V19 m outs c) ∗ Rr c)
  post c := iprop(StableHlo.held (c : Thread nD τ) (Pipeline.ucRefs τ sig) (Gen.V20 m outs c) ∗ Rr c)
  X c := iprop(∃ r, prngReg c r)
  Y c := iprop(∃ r, prngReg c r)
  Z c := Pipeline.unscopedRest (Ix := Unit) (Name := ℕ) (U := UR sig nD τ) (Lvl := ℕ) spec4 c (Vin4 m outs c)
  hentry c := by
    rw [Pipeline.ownSems0_none]
    have hsplit := Pipeline.arrays_of_unscopedBufs (p := 4) (pcfgs (F := F)) Gen.adm (pdats m outs) launch4.win launch4.arr_whole c
      ((pdats m outs 4 c).share_full fun _ => rfl) (Vin4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m outs) ((pdats m outs 4 c).share_full fun _ => rfl)
      (Vin4 m outs c) (fun b => Gen.V20 m outs c b) ((pdats m outs 4 c).arrAt · cfg4.N) (hF4 ok c) (hrest4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays are split out of the unscoped buffers at entry and put back at the exit
    contents; the generator register goes into the class invariant and comes back; nothing is owed. -/
def reg5 (ok : OutsOk m outs) : Pipeline.RegionSeg (pcfgs (F := F)) Gen.adm (pdats m outs) () defs₀ Variants.none LL lvv 5 where
  win := launch5.win.to₀
  block_pos := launch5.block_pos
  stage_whole := launch5.stage_whole
  K := PEmpty
  osem k := k.elim
  ho := Pipeline.OwnSemFacts.none _
  hbody c := (body_obligation5 (Vin5 m outs) c).loose
  hwaits := Pipeline.hwaits_of_owed_zero _ _ _ _ LL lvv 5 fun _ _ => rfl
  pre c := iprop(StableHlo.held (c : Thread nD τ) (Pipeline.ucRefs τ sig) (Gen.V20 m outs c) ∗ Rr c)
  post c := iprop(StableHlo.held (c : Thread nD τ) (Pipeline.ucRefs τ sig) (Gen.V21 m outs c) ∗ Rr c)
  X c := iprop(∃ r, prngReg c r)
  Y c := iprop(∃ r, prngReg c r)
  Z c := Pipeline.unscopedRest (Ix := Unit) (Name := ℕ) (U := UR sig nD τ) (Lvl := ℕ) spec5 c (Vin5 m outs c)
  hentry c := by
    rw [Pipeline.ownSems0_none]
    have hsplit := Pipeline.arrays_of_unscopedBufs (p := 5) (pcfgs (F := F)) Gen.adm (pdats m outs) launch5.win launch5.arr_whole c
      ((pdats m outs 5 c).share_full fun _ => rfl) (Vin5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m outs) ((pdats m outs 5 c).share_full fun _ => rfl)
      (Vin5 m outs c) (fun b => Gen.V21 m outs c b) ((pdats m outs 5 c).arrAt · cfg5.N) (hF5 ok c) (hrest5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import proofs.«120795_j24472723652943_2_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run of @main: every weakly fair execution terminates, the result buffer ends at the last valuation's contents
    and every argument array as launched. -/

variable {m : (ℓ : Loc nD τ sig) → Buf (Elt F) ℓ} {outs : Gen.Outs (F := F)}

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run, for any family `outs` naming what the regions leave (`OutsOk`): the library's launch over @main's segments — a
    host segment per stretch, a region per pallas_call —, the last thread state read against the final memory. -/
theorem run_cond (ρ : Dev nD → PrngReg) (ok : OutsOk m outs) :
    θ_run defs (onTc (τ := τ) (main (F := F))) ⟨m, fun _ => 0, ρ⟩ (fun r => ∀ c : Dev nD,
      r.2.mem ((c.tc : Thread nD τ).loc main_v72) = Gen.V22 m outs c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) Gen.adm (pdats m outs) () cellOf_inj emb₁ defs₀ Variants.none LL lvv m ρ main
    (Gen.segs m outs Variants.none LL lvv EE () (pdats m outs) (reg0 ok) (reg1 ok) (reg2 ok) (reg3 ok) (reg4 ok) (reg5 ok))
    (fun c Q => by
      rewrite [main_chain c, Seg.run_eq_chain,
        show (Gen.segs m outs Variants.none LL lvv EE () (pdats m outs) (reg0 ok) (reg1 ok) (reg2 ok) (reg3 ok) (reg4 ok) (reg5 ok) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6 ] from rfl]
      exact .rfl)
    (fun c => by simp only [Gen.segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V22 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach LL lvv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V22 m outs c b)
    (hfin := fun c s' => by
      iintro ⟨Hh, HSI⟩
      unfold StableHlo.held
      imodintro
      iapply (pointsTo_read_all (Pipeline.ucRefs τ sig) (fun b => (((c : Thread nD τ)).1, b)) (Gen.V22 m outs c) s')
      isplitl [Hh] <;> iassumption)
    (hQ := fun s h c =>
      ⟨h c _ (mem_uc main_v72 (by decide)),
       (h c _ (mem_uc main_arg0 (by decide))).trans (Gen.V22_main_arg0 m outs c),
       (h c _ (mem_uc main_arg1 (by decide))).trans (Gen.V22_main_arg1 m outs c),
       (h c _ (mem_uc main_arg2 (by decide))).trans (Gen.V22_main_arg2 m outs c),
       (h c _ (mem_uc main_arg3 (by decide))).trans (Gen.V22_main_arg3 m outs c),
       (h c _ (mem_uc main_arg4 (by decide))).trans (Gen.V22_main_arg4 m outs c),
       (h c _ (mem_uc main_arg5 (by decide))).trans (Gen.V22_main_arg5 m outs c),
       (h c _ (mem_uc main_arg6 (by decide))).trans (Gen.V22_main_arg6 m outs c),
       (h c _ (mem_uc main_arg7 (by decide))).trans (Gen.V22_main_arg7 m outs c),
       (h c _ (mem_uc main_arg8 (by decide))).trans (Gen.V22_main_arg8 m outs c),
       (h c _ (mem_uc main_arg9 (by decide))).trans (Gen.V22_main_arg9 m outs c),
       (h c _ (mem_uc main_arg10 (by decide))).trans (Gen.V22_main_arg10 m outs c),
       (h c _ (mem_uc main_arg11 (by decide))).trans (Gen.V22_main_arg11 m outs c),
       (h c _ (mem_uc main_arg12 (by decide))).trans (Gen.V22_main_arg12 m outs c),
       (h c _ (mem_uc main_arg13 (by decide))).trans (Gen.V22_main_arg13 m outs c),
       (h c _ (mem_uc main_arg14 (by decide))).trans (Gen.V22_main_arg14 m outs c),
       (h c _ (mem_uc main_arg15 (by decide))).trans (Gen.V22_main_arg15 m outs c),
       (h c _ (mem_uc main_arg16 (by decide))).trans (Gen.V22_main_arg16 m outs c),
       (h c _ (mem_uc main_arg17 (by decide))).trans (Gen.V22_main_arg17 m outs c)⟩)

end Cert.Kernel.Hand

end
-- ==== Proof.K.Outs.lean ====
import proofs.«120795_j24472723652943_2_alg».proof.Proof.Gen.Kernel.Launch
import proofs.«120795_j24472723652943_2_alg».proof.Proof.Gen.Kernel.Skeleton
import proofs.«120795_j24472723652943_2_alg».proof.Proof.Gen.Kernel.Points
import proofs.«120795_j24472723652943_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A family `outs` naming what the regions leave, built stage by stage, and the run without hypotheses -/

variable (m : (ℓ : Loc nD τ sig) → Buf (Elt F) ℓ)

/-- Two families agree on every item up to `n`. -/
def Agree (n : ℕ) (o o' : Gen.Outs (F := F)) : Prop := ∀ J, J ≤ n → ∀ r c, o J r c = o' J r c

theorem Agree.mono {n n' : ℕ} {o o' : Gen.Outs (F := F)} (h : Agree n' o o') (hn : n ≤ n') : Agree n o o' :=
  fun J hJ => h J (hJ.trans hn)

/-! ## The valuations between items depend only on the items before them -/

variable {m}
theorem V4c {o o' : Gen.Outs (F := F)} (h : Agree 4 o o') (c : Dev nD) : Gen.V4 m o c = Gen.V4 m o' c := by
  show Function.update (Gen.V3 m c) (Proc.devRef .tc main_v12) (o 4 main_v12 c) = Function.update (Gen.V3 m c) (Proc.devRef .tc main_v12) (o' 4 main_v12 c)
  rw [h 4 le_rfl]
theorem V7c {o o' : Gen.Outs (F := F)} (h : Agree 4 o o') (c : Dev nD) : Gen.V7 m o c = Gen.V7 m o' c := by
  show StableHlo.after hostOps1_2 (StableHlo.after hostOps1_1 (StableHlo.after hostOps1 (Gen.V4 m o c))) = StableHlo.after hostOps1_2 (StableHlo.after hostOps1_1 (StableHlo.after hostOps1 (Gen.V4 m o' c)))
  rw [V4c h c]
theorem V8c {o o' : Gen.Outs (F := F)} (h : Agree 8 o o') (c : Dev nD) : Gen.V8 m o c = Gen.V8 m o' c := by
  show Function.update (Gen.V7 m o c) (Proc.devRef .tc main_v32) (o 8 main_v32 c) = Function.update (Gen.V7 m o' c) (Proc.devRef .tc main_v32) (o' 8 main_v32 c)
  rw [V7c (h.mono (by decide)) c, h 8 le_rfl]
theorem V11c {o o' : Gen.Outs (F := F)} (h : Agree 8 o o') (c : Dev nD) : Gen.V11 m o c = Gen.V11 m o' c := by
  show StableHlo.after hostOps2_2 (StableHlo.after hostOps2_1 (StableHlo.after hostOps2 (Gen.V8 m o c))) = StableHlo.after hostOps2_2 (StableHlo.after hostOps2_1 (StableHlo.after hostOps2 (Gen.V8 m o' c)))
  rw [V8c h c]
theorem V12c {o o' : Gen.Outs (F := F)} (h : Agree 12 o o') (c : Dev nD) : Gen.V12 m o c = Gen.V12 m o' c := by
  show Function.update (Gen.V11 m o c) (Proc.devRef .tc main_v41) (o 12 main_v41 c) = Function.update (Gen.V11 m o' c) (Proc.devRef .tc main_v41) (o' 12 main_v41 c)
  rw [V11c (h.mono (by decide)) c, h 12 le_rfl]
theorem V15c {o o' : Gen.Outs (F := F)} (h : Agree 12 o o') (c : Dev nD) : Gen.V15 m o c = Gen.V15 m o' c := by
  show StableHlo.after hostOps3_2 (StableHlo.after hostOps3_1 (StableHlo.after hostOps3 (Gen.V12 m o c))) = StableHlo.after hostOps3_2 (StableHlo.after hostOps3_1 (StableHlo.after hostOps3 (Gen.V12 m o' c)))
  rw [V12c h c]
theorem V16c {o o' : Gen.Outs (F := F)} (h : Agree 16 o o') (c : Dev nD) : Gen.V16 m o c = Gen.V16 m o' c := by
  show Function.update (Gen.V15 m o c) (Proc.devRef .tc main_v61) (o 16 main_v61 c) = Function.update (Gen.V15 m o' c) (Proc.devRef .tc main_v61) (o' 16 main_v61 c)
  rw [V15c (h.mono (by decide)) c, h 16 le_rfl]
theorem V19c {o o' : Gen.Outs (F := F)} (h : Agree 16 o o') (c : Dev nD) : Gen.V19 m o c = Gen.V19 m o' c := by
  show StableHlo.after hostOps4_2 (StableHlo.after hostOps4_1 (StableHlo.after hostOps4 (Gen.V16 m o c))) = StableHlo.after hostOps4_2 (StableHlo.after hostOps4_1 (StableHlo.after hostOps4 (Gen.V16 m o' c)))
  rw [V16c h c]
theorem V20c {o o' : Gen.Outs (F := F)} (h : Agree 20 o o') (c : Dev nD) : Gen.V20 m o c = Gen.V20 m o' c := by
  show Function.update (Gen.V19 m o c) (Proc.devRef .tc main_v70) (o 20 main_v70 c) = Function.update (Gen.V19 m o' c) (Proc.devRef .tc main_v70) (o' 20 main_v70 c)
  rw [V19c (h.mono (by decide)) c, h 20 le_rfl]
variable (m)

/-! ## The family, one stage at a time: item J's contents are read off the valuation after region (J's) exit -/

/-- What region 0 leaves in its output array. -/
def o0 (c : Dev nD) : Buf (Elt F) ((c : Thread nD τ).loc main_v12) := (dat0 (Vin0 m) c).arrAt 5 cfg0.N
/-- The family through region 0. -/
def outsA : Gen.Outs (F := F) := fun J r c =>
  Function.update (Gen.V3 m c) (Proc.devRef .tc main_v12) (o0 m c) (Proc.devRef .tc r)

/-- What region 1 leaves in its output array. -/
def o1 (c : Dev nD) : Buf (Elt F) ((c : Thread nD τ).loc main_v32) := (dat1 (Vin1 m (outsA m)) c).arrAt 4 cfg1.N
/-- The family through region 1. -/
def outsB : Gen.Outs (F := F) := fun J r c =>
  if J ≤ 4 then outsA m J r c else Function.update (Gen.V7 m (outsA m) c) (Proc.devRef .tc main_v32) (o1 m c) (Proc.devRef .tc r)

/-- What region 2 leaves in its output array. -/
def o2 (c : Dev nD) : Buf (Elt F) ((c : Thread nD τ).loc main_v41) := (dat2 (Vin2 m (outsB m)) c).arrAt 5 cfg2.N
/-- The family through region 2. -/
def outsC : Gen.Outs (F := F) := fun J r c =>
  if J ≤ 8 then outsB m J r c else Function.update (Gen.V11 m (outsB m) c) (Proc.devRef .tc main_v41) (o2 m c) (Proc.devRef .tc r)

/-- What region 3 leaves in its output array. -/
def o3 (c : Dev nD) : Buf (Elt F) ((c : Thread nD τ).loc main_v61) := (dat3 (Vin3 m (outsC m)) c).arrAt 4 cfg3.N
/-- The family through region 3. -/
def outsD : Gen.Outs (F := F) := fun J r c =>
  if J ≤ 12 then outsC m J r c else Function.update (Gen.V15 m (outsC m) c) (Proc.devRef .tc main_v61) (o3 m c) (Proc.devRef .tc r)

/-- What region 4 leaves in its output array. -/
def o4 (c : Dev nD) : Buf (Elt F) ((c : Thread nD τ).loc main_v70) := (dat4 (Vin4 m (outsD m)) c).arrAt 5 cfg4.N
/-- The family through region 4. -/
def outsE : Gen.Outs (F := F) := fun J r c =>
  if J ≤ 16 then outsD m J r c else Function.update (Gen.V19 m (outsD m) c) (Proc.devRef .tc main_v70) (o4 m c) (Proc.devRef .tc r)

/-- What region 5 leaves in its output array. -/
def o5 (c : Dev nD) : Buf (Elt F) ((c : Thread nD τ).loc main_v71) := (dat5 (Vin5 m (outsE m)) c).arrAt 2 cfg5.N
/-- The family through region 5. -/
def outsF : Gen.Outs (F := F) := fun J r c =>
  if J ≤ 20 then outsE m J r c else Function.update (Gen.V20 m (outsE m) c) (Proc.devRef .tc main_v71) (o5 m c) (Proc.devRef .tc r)

/-! ## The final family agrees with each stage's on the items that stage knows -/
theorem agree_outsA : Agree 4 (outsF m) (outsA m) := by
  intro J hJ r c
  unfold outsF; rw [if_pos (show J ≤ 20 by omega)]
  unfold outsE; rw [if_pos (show J ≤ 16 by omega)]
  unfold outsD; rw [if_pos (show J ≤ 12 by omega)]
  unfold outsC; rw [if_pos (show J ≤ 8 by omega)]
  unfold outsB; rw [if_pos (show J ≤ 4 by omega)]

theorem agree_outsB : Agree 8 (outsF m) (outsB m) := by
  intro J hJ r c
  unfold outsF; rw [if_pos (show J ≤ 20 by omega)]
  unfold outsE; rw [if_pos (show J ≤ 16 by omega)]
  unfold outsD; rw [if_pos (show J ≤ 12 by omega)]
  unfold outsC; rw [if_pos (show J ≤ 8 by omega)]

theorem agree_outsC : Agree 12 (outsF m) (outsC m) := by
  intro J hJ r c
  unfold outsF; rw [if_pos (show J ≤ 20 by omega)]
  unfold outsE; rw [if_pos (show J ≤ 16 by omega)]
  unfold outsD; rw [if_pos (show J ≤ 12 by omega)]

theorem agree_outsD : Agree 16 (outsF m) (outsD m) := by
  intro J hJ r c
  unfold outsF; rw [if_pos (show J ≤ 20 by omega)]
  unfold outsE; rw [if_pos (show J ≤ 16 by omega)]

theorem agree_outsE : Agree 20 (outsF m) (outsE m) := by
  intro J hJ r c
  unfold outsF; rw [if_pos (show J ≤ 20 by omega)]

/-! ## The family's values at the six items -/
theorem outsF_at4 (c : Dev nD) : outsF m 4 main_v12 c = o0 m c := by
  unfold outsF; rw [if_pos (show (4 : ℕ) ≤ 20 by decide)]
  unfold outsE; rw [if_pos (show (4 : ℕ) ≤ 16 by decide)]
  unfold outsD; rw [if_pos (show (4 : ℕ) ≤ 12 by decide)]
  unfold outsC; rw [if_pos (show (4 : ℕ) ≤ 8 by decide)]
  unfold outsB; rw [if_pos (show (4 : ℕ) ≤ 4 by decide)]
  unfold outsA
  exact Function.update_self _ _ _
theorem outsF_at8 (c : Dev nD) : outsF m 8 main_v32 c = o1 m c := by
  unfold outsF; rw [if_pos (show (8 : ℕ) ≤ 20 by decide)]
  unfold outsE; rw [if_pos (show (8 : ℕ) ≤ 16 by decide)]
  unfold outsD; rw [if_pos (show (8 : ℕ) ≤ 12 by decide)]
  unfold outsC; rw [if_pos (show (8 : ℕ) ≤ 8 by decide)]
  unfold outsB; rw [if_neg (show ¬ (8 : ℕ) ≤ 4 by decide)]
  exact Function.update_self _ _ _
theorem outsF_at12 (c : Dev nD) : outsF m 12 main_v41 c = o2 m c := by
  unfold outsF; rw [if_pos (show (12 : ℕ) ≤ 20 by decide)]
  unfold outsE; rw [if_pos (show (12 : ℕ) ≤ 16 by decide)]
  unfold outsD; rw [if_pos (show (12 : ℕ) ≤ 12 by decide)]
  unfold outsC; rw [if_neg (show ¬ (12 : ℕ) ≤ 8 by decide)]
  exact Function.update_self _ _ _
theorem outsF_at16 (c : Dev nD) : outsF m 16 main_v61 c = o3 m c := by
  unfold outsF; rw [if_pos (show (16 : ℕ) ≤ 20 by decide)]
  unfold outsE; rw [if_pos (show (16 : ℕ) ≤ 16 by decide)]
  unfold outsD; rw [if_neg (show ¬ (16 : ℕ) ≤ 12 by decide)]
  exact Function.update_self _ _ _
theorem outsF_at20 (c : Dev nD) : outsF m 20 main_v70 c = o4 m c := by
  unfold outsF; rw [if_pos (show (20 : ℕ) ≤ 20 by decide)]
  unfold outsE; rw [if_neg (show ¬ (20 : ℕ) ≤ 16 by decide)]
  exact Function.update_self _ _ _
theorem outsF_at21 (c : Dev nD) : outsF m 21 main_v71 c = o5 m c := by
  unfold outsF; rw [if_neg (show ¬ (21 : ℕ) ≤ 20 by decide)]
  exact Function.update_self _ _ _

/-- The family satisfies the six equations. -/
theorem outs_ok : OutsOk m (outsF m) where
  h0 c := outsF_at4 m c
  h1 c := (outsF_at8 m c).trans (by
    unfold o1
    rw [show Vin1 m (outsF m) = Vin1 m (outsA m) from funext fun c => funext fun b => congrFun (V7c (agree_outsA m) c) _])
  h2 c := (outsF_at12 m c).trans (by
    unfold o2
    rw [show Vin2 m (outsF m) = Vin2 m (outsB m) from funext fun c => funext fun b => congrFun (V11c (agree_outsB m) c) _])
  h3 c := (outsF_at16 m c).trans (by
    unfold o3
    rw [show Vin3 m (outsF m) = Vin3 m (outsC m) from funext fun c => funext fun b => congrFun (V15c (agree_outsC m) c) _])
  h4 c := (outsF_at20 m c).trans (by
    unfold o4
    rw [show Vin4 m (outsF m) = Vin4 m (outsD m) from funext fun c => funext fun b => congrFun (V19c (agree_outsD m) c) _])
  h5 c := (outsF_at21 m c).trans (by
    unfold o5
    rw [show Vin5 m (outsF m) = Vin5 m (outsE m) from funext fun c => funext fun b => congrFun (V20c (agree_outsE m) c) _])

/-- THE RUN: every weakly fair execution of @main terminates, the result buffer ends at the last valuation's contents and
    every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v72) = Gen.V22 m (outsF m) c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_cond ρ (outs_ok m)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.Kernel.Hand

end
-- ==== Proof.KI.R0.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the kernel body `cc0__bn_apply_kernel` run once per grid point, its 5 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetched it or the block index
    stood still since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- An input window's staging buffer holds its block at every point, whether the point fetched it or the block index
    stood still since the last fetch. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store go through the whole buffer -/
abbrev whole0_S5000x128 : Rect S5000x128 := Rect.unit (s := S5000x128) ![0, 0] S5000x128.size inb_S5000x128_S5000x128_0_0
abbrev whole0_S1x128 : Rect S1x128 := Rect.unit (s := S1x128) ![0, 0] S1x128.size inb_S1x128_S1x128_0_0

/-- The output window's staging buffer after the body: the one store's payload, a function of the input blocks. -/
def out0 (x0 : Vec F S5000x128 .f32) (x1 : Vec F S1x128 .f32) (x2 : Vec F S1x128 .f32) (x3 : Vec F S1x128 .f32) (x4 : Vec F S1x128 .f32) : Vec F S5000x128 .f32 :=
  View.canon [⟨whole0_S5000x128, k0_pay1 (View.ld x0 whole0_S5000x128) (View.ld x1 whole0_S1x128) (View.ld x2 whole0_S1x128) (View.ld x3 whole0_S1x128) (View.ld x4 whole0_S1x128)⟩]

/-- The store covers the buffer. -/
theorem cover0 (p0 : Vec F S5000x128 .f32) (y : S5000x128.Idx) :
    ∃ pc ∈ ([⟨whole0_S5000x128, p0⟩] : List (View.Piece (Elt F) S5000x128 .f32)), y ∈ pc.1.set :=
  View.cover_of_tiled [⟨whole0_S5000x128, p0⟩] S5000x128.size (by rfl) y

set_option maxHeartbeats 4000000 in
/-- The body's triple on whole staging memrefs: from the inputs at `x_j` and the output at anything, it ends with the
    inputs as they were and the output at `out0` of the inputs. -/
theorem sound_kernel0 (c : Dev nD) (E : Set ℕ) (i : grid0.Coords) (a0 : Memref sig .tc .vmem S5000x128 .f32) (ha0 : a0.IsWhole) (a1 : Memref sig .tc .vmem S1x128 .f32) (ha1 : a1.IsWhole) (a2 : Memref sig .tc .vmem S1x128 .f32) (ha2 : a2.IsWhole) (a3 : Memref sig .tc .vmem S1x128 .f32) (ha3 : a3.IsWhole) (a4 : Memref sig .tc .vmem S1x128 .f32) (ha4 : a4.IsWhole) (a5 : Memref sig .tc .vmem S5000x128 .f32) (ha5 : a5.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out0 x0 x1 x2 x3 x4)) -∗ K ⟨⟩))
      ⊢ wp frame (wpE (defs₀ (F := F)) Variants.none c none) E (cc0__bn_apply_kernel i a0 ha0 a1 ha1 a2 ha2 a3 ha3 a4 ha4 a5 ha5) K := by
  simp only [cc0__bn_apply_kernel_eq_skeleton]; unfold cc0__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-! ## The pipeline's proof data -/

/-- The proof data of this pipeline on core `c`: the arrays as the region finds them; after the body at point `t` each
    input's buffer still at its block and the output's at `out0` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the kernel body `cc1__node_update_kernel` run once per grid point, its 4 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetched it or the block index
    stood still since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or the block index
    stood still since the last fetch. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or the block index
    stood still since the last fetch. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's staging buffer holds its block at every point, whether the point fetched it or the block index
    stood still since the last fetch. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole buffer -/
abbrev whole1_S5000x128 : Rect S5000x128 := Rect.unit (s := S5000x128) ![0, 0] S5000x128.size inb_S5000x128_S5000x128_0_0
abbrev whole1_S128x64 : Rect S128x64 := Rect.unit (s := S128x64) ![0, 0] S128x64.size inb_S128x64_S128x64_0_0
abbrev whole1_S1x64 : Rect S1x64 := Rect.unit (s := S1x64) ![0, 0] S1x64.size inb_S1x64_S1x64_0_0
abbrev whole1_S5000x64 : Rect S5000x64 := Rect.unit (s := S5000x64) ![0, 0] S5000x64.size inb_S5000x64_S5000x64_0_0

/-- The output window's staging buffer after the body: the one store's payload, a function of the input blocks. -/
def out1 (x0 : Vec F S5000x128 .f32) (x1 : Vec F S5000x128 .f32) (x2 : Vec F S128x64 .f32) (x3 : Vec F S1x64 .f32) : Vec F S5000x64 .f32 :=
  View.canon [⟨whole1_S5000x64, k1_pay1 (View.ld x0 whole1_S5000x128) (View.ld x1 whole1_S5000x128) (View.ld x2 whole1_S128x64) (View.ld x3 whole1_S1x64)⟩]

/-- The store covers the buffer. -/
theorem cover1 (p0 : Vec F S5000x64 .f32) (y : S5000x64.Idx) :
    ∃ pc ∈ ([⟨whole1_S5000x64, p0⟩] : List (View.Piece (Elt F) S5000x64 .f32)), y ∈ pc.1.set :=
  View.cover_of_tiled [⟨whole1_S5000x64, p0⟩] S5000x64.size (by rfl) y

set_option maxHeartbeats 4000000 in
/-- The body's triple on whole staging memrefs: from the inputs at `x_j` and the output at anything, it ends with the
    inputs as they were and the output at `out1` of the inputs. -/
theorem sound_kernel1 (c : Dev nD) (E : Set ℕ) (i : grid1.Coords) (a0 : Memref sig .tc .vmem S5000x128 .f32) (ha0 : a0.IsWhole) (a1 : Memref sig .tc .vmem S5000x128 .f32) (ha1 : a1.IsWhole) (a2 : Memref sig .tc .vmem S128x64 .f32) (ha2 : a2.IsWhole) (a3 : Memref sig .tc .vmem S1x64 .f32) (ha3 : a3.IsWhole) (a4 : Memref sig .tc .vmem S5000x64 .f32) (ha4 : a4.IsWhole)
    (x0 : Vec F S5000x128 .f32) (x1 : Vec F S5000x128 .f32) (x2 : Vec F S128x64 .f32) (x3 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out1 x0 x1 x2 x3)) -∗ K ⟨⟩))
      ⊢ wp frame (wpE (defs₀ (F := F)) Variants.none c none) E (cc1__node_update_kernel i a0 ha0 a1 ha1 a2 ha2 a3 ha3 a4 ha4) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1 _)

/-! ## The pipeline's proof data -/

/-- The proof data of this pipeline on core `c`: the arrays as the region finds them; after the body at point `t` each
    input's buffer still at its block and the output's at `out1` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the kernel body `cc2__bn_apply_kernel` run once per grid point, its 5 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, whether the point fetched it or the block index
    stood still since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- An input window's staging buffer holds its block at every point, whether the point fetched it or the block index
    stood still since the last fetch. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store go through the whole buffer -/
abbrev whole2_S5000x64 : Rect S5000x64 := Rect.unit (s := S5000x64) ![0, 0] S5000x64.size inb_S5000x64_S5000x64_0_0
abbrev whole2_S1x64 : Rect S1x64 := Rect.unit (s := S1x64) ![0, 0] S1x64.size inb_S1x64_S1x64_0_0

/-- The output window's staging buffer after the body: the one store's payload, a function of the input blocks. -/
def out2 (x0 : Vec F S5000x64 .f32) (x1 : Vec F S1x64 .f32) (x2 : Vec F S1x64 .f32) (x3 : Vec F S1x64 .f32) (x4 : Vec F S1x64 .f32) : Vec F S5000x64 .f32 :=
  View.canon [⟨whole2_S5000x64, k2_pay1 (View.ld x0 whole2_S5000x64) (View.ld x1 whole2_S1x64) (View.ld x2 whole2_S1x64) (View.ld x3 whole2_S1x64) (View.ld x4 whole2_S1x64)⟩]

/-- The store covers the buffer. -/
theorem cover2 (p0 : Vec F S5000x64 .f32) (y : S5000x64.Idx) :
    ∃ pc ∈ ([⟨whole2_S5000x64, p0⟩] : List (View.Piece (Elt F) S5000x64 .f32)), y ∈ pc.1.set :=
  View.cover_of_tiled [⟨whole2_S5000x64, p0⟩] S5000x64.size (by rfl) y

set_option maxHeartbeats 4000000 in
/-- The body's triple on whole staging memrefs: from the inputs at `x_j` and the output at anything, it ends with the
    inputs as they were and the output at `out2` of the inputs. -/
theorem sound_kernel2 (c : Dev nD) (E : Set ℕ) (i : grid2.Coords) (a0 : Memref sig .tc .vmem S5000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S5000x64 .f32) (ha5 : a5.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out2 x0 x1 x2 x3 x4)) -∗ K ⟨⟩))
      ⊢ wp frame (wpE (defs₀ (F := F)) Variants.none c none) E (cc2__bn_apply_kernel i a0 ha0 a1 ha1 a2 ha2 a3 ha3 a4 ha4 a5 ha5) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

/-! ## The pipeline's proof data -/

/-- The proof data of this pipeline on core `c`: the arrays as the region finds them; after the body at point `t` each
    input's buffer still at its block and the output's at `out2` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the kernel body `cc3__node_update_kernel` run once per grid point, its 4 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, whether the point fetched it or the block index
    stood still since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or the block index
    stood still since the last fetch. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or the block index
    stood still since the last fetch. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's staging buffer holds its block at every point, whether the point fetched it or the block index
    stood still since the last fetch. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the store go through the whole buffer -/
abbrev whole3_S5000x64 : Rect S5000x64 := Rect.unit (s := S5000x64) ![0, 0] S5000x64.size inb_S5000x64_S5000x64_0_0
abbrev whole3_S64x64 : Rect S64x64 := Rect.unit (s := S64x64) ![0, 0] S64x64.size inb_S64x64_S64x64_0_0
abbrev whole3_S1x64 : Rect S1x64 := Rect.unit (s := S1x64) ![0, 0] S1x64.size inb_S1x64_S1x64_0_0

/-- The output window's staging buffer after the body: the one store's payload, a function of the input blocks. -/
def out3 (x0 : Vec F S5000x64 .f32) (x1 : Vec F S5000x64 .f32) (x2 : Vec F S64x64 .f32) (x3 : Vec F S1x64 .f32) : Vec F S5000x64 .f32 :=
  View.canon [⟨whole3_S5000x64, k3_pay1 (View.ld x0 whole3_S5000x64) (View.ld x1 whole3_S5000x64) (View.ld x2 whole3_S64x64) (View.ld x3 whole3_S1x64)⟩]

/-- The store covers the buffer. -/
theorem cover3 (p0 : Vec F S5000x64 .f32) (y : S5000x64.Idx) :
    ∃ pc ∈ ([⟨whole3_S5000x64, p0⟩] : List (View.Piece (Elt F) S5000x64 .f32)), y ∈ pc.1.set :=
  View.cover_of_tiled [⟨whole3_S5000x64, p0⟩] S5000x64.size (by rfl) y

set_option maxHeartbeats 4000000 in
/-- The body's triple on whole staging memrefs: from the inputs at `x_j` and the output at anything, it ends with the
    inputs as they were and the output at `out3` of the inputs. -/
theorem sound_kernel3 (c : Dev nD) (E : Set ℕ) (i : grid3.Coords) (a0 : Memref sig .tc .vmem S5000x64 .f32) (ha0 : a0.IsWhole) (a1 : Memref sig .tc .vmem S5000x64 .f32) (ha1 : a1.IsWhole) (a2 : Memref sig .tc .vmem S64x64 .f32) (ha2 : a2.IsWhole) (a3 : Memref sig .tc .vmem S1x64 .f32) (ha3 : a3.IsWhole) (a4 : Memref sig .tc .vmem S5000x64 .f32) (ha4 : a4.IsWhole)
    (x0 : Vec F S5000x64 .f32) (x1 : Vec F S5000x64 .f32) (x2 : Vec F S64x64 .f32) (x3 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare (out3 x0 x1 x2 x3)) -∗ K ⟨⟩))
      ⊢ wp frame (wpE (defs₀ (F := F)) Variants.none c none) E (cc3__node_update_kernel i a0 ha0 a1 ha1 a2 ha2 a3 ha3 a4 ha4) K := by
  simp only [cc3__node_update_kernel_eq_skeleton]; unfold cc3__node_update_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-! ## The pipeline's proof data -/

/-- The proof data of this pipeline on core `c`: the arrays as the region finds them; after the body at point `t` each
    input's buffer still at its block and the output's at `out3` of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks, so the triple applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.R4.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: the kernel body `cc4__bn_apply_kernel` run once per grid point, its 5 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, whether the point fetched it or the block index
    stood still since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- An input window's staging buffer holds its block at every point, whether the point fetched it or the block index
    stood still since the last fetch. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store go through the whole buffer -/
abbrev whole4_S5000x64 : Rect S5000x64 := Rect.unit (s := S5000x64) ![0, 0] S5000x64.size inb_S5000x64_S5000x64_0_0
abbrev whole4_S1x64 : Rect S1x64 := Rect.unit (s := S1x64) ![0, 0] S1x64.size inb_S1x64_S1x64_0_0

/-- The output window's staging buffer after the body: the one store's payload, a function of the input blocks. -/
def out4 (x0 : Vec F S5000x64 .f32) (x1 : Vec F S1x64 .f32) (x2 : Vec F S1x64 .f32) (x3 : Vec F S1x64 .f32) (x4 : Vec F S1x64 .f32) : Vec F S5000x64 .f32 :=
  View.canon [⟨whole4_S5000x64, k4_pay1 (View.ld x0 whole4_S5000x64) (View.ld x1 whole4_S1x64) (View.ld x2 whole4_S1x64) (View.ld x3 whole4_S1x64) (View.ld x4 whole4_S1x64)⟩]

/-- The store covers the buffer. -/
theorem cover4 (p0 : Vec F S5000x64 .f32) (y : S5000x64.Idx) :
    ∃ pc ∈ ([⟨whole4_S5000x64, p0⟩] : List (View.Piece (Elt F) S5000x64 .f32)), y ∈ pc.1.set :=
  View.cover_of_tiled [⟨whole4_S5000x64, p0⟩] S5000x64.size (by rfl) y

set_option maxHeartbeats 4000000 in
/-- The body's triple on whole staging memrefs: from the inputs at `x_j` and the output at anything, it ends with the
    inputs as they were and the output at `out4` of the inputs. -/
theorem sound_kernel4 (c : Dev nD) (E : Set ℕ) (i : grid4.Coords) (a0 : Memref sig .tc .vmem S5000x64 .f32) (ha0 : a0.IsWhole) (a1 : Memref sig .tc .vmem S1x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S5000x64 .f32) (ha5 : a5.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (out4 x0 x1 x2 x3 x4)) -∗ K ⟨⟩))
      ⊢ wp frame (wpE (defs₀ (F := F)) Variants.none c none) E (cc4__bn_apply_kernel i a0 ha0 a1 ha1 a2 ha2 a3 ha3 a4 ha4 a5 ha5) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4 _)

/-! ## The pipeline's proof data -/

/-- The proof data of this pipeline on core `c`: the arrays as the region finds them; after the body at point `t` each
    input's buffer still at its block and the output's at `out4` of the input blocks; nothing owed, full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so the triple applies; the invariant and what the core
    owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.R5.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: the kernel body `cc5__matmul_tanh_kernel` run once per grid point, its 2 input windows read-only and
    its one output window stored whole.  Everything is stated at the contents `V` the core's buffers have when the
    region is entered. -/

variable (V : (c : Dev nD) → (b : Ref sig .tc) → Buf (Elt F) ((c : Thread nD τ).loc b))

/-- Block `t` of window `w`, read off the window's array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or the block index
    stood still since the last fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's staging buffer holds its block at every point, whether the point fetched it or the block index
    stood still since the last fetch. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the store go through the whole buffer -/
abbrev whole5_S5000x64 : Rect S5000x64 := Rect.unit (s := S5000x64) ![0, 0] S5000x64.size inb_S5000x64_S5000x64_0_0
abbrev whole5_S64x64 : Rect S64x64 := Rect.unit (s := S64x64) ![0, 0] S64x64.size inb_S64x64_S64x64_0_0

/-- The output window's staging buffer after the body: the one store's payload, a function of the input blocks. -/
def out5 (x0 : Vec F S5000x64 .f32) (x1 : Vec F S64x64 .f32) : Vec F S5000x64 .f32 :=
  View.canon [⟨whole5_S5000x64, k5_pay1 (View.ld x0 whole5_S5000x64) (View.ld x1 whole5_S64x64)⟩]

/-- The store covers the buffer. -/
theorem cover5 (p0 : Vec F S5000x64 .f32) (y : S5000x64.Idx) :
    ∃ pc ∈ ([⟨whole5_S5000x64, p0⟩] : List (View.Piece (Elt F) S5000x64 .f32)), y ∈ pc.1.set :=
  View.cover_of_tiled [⟨whole5_S5000x64, p0⟩] S5000x64.size (by rfl) y

set_option maxHeartbeats 4000000 in
/-- The body's triple on whole staging memrefs: from the inputs at `x_j` and the output at anything, it ends with the
    inputs as they were and the output at `out5` of the inputs. -/
theorem sound_kernel5 (c : Dev nD) (E : Set ℕ) (i : grid5.Coords) (a0 : Memref sig .tc .vmem S5000x64 .f32) (ha0 : a0.IsWhole) (a1 : Memref sig .tc .vmem S64x64 .f32) (ha1 : a1.IsWhole) (a2 : Memref sig .tc .vmem S5000x64 .f32) (ha2 : a2.IsWhole)
    (x0 : Vec F S5000x64 .f32) (x1 : Vec F S64x64 .f32) (K : PUnit → sProp 𝕄) :
    iprop(owns (c : Thread nD τ) a0 fullShare x0 ∗ owns (c : Thread nD τ) a1 fullShare x1 ∗ (∃ d, owns (c : Thread nD τ) a2 fullShare d)
        ∗ (iprop(owns (c : Thread nD τ) a0 fullShare x0 ∗ owns (c : Thread nD τ) a1 fullShare x1 ∗ owns (c : Thread nD τ) a2 fullShare (out5 x0 x1)) -∗ K ⟨⟩))
      ⊢ wp frame (wpE (defs₀ (F := F)) Variants.none c none) E (cc5__matmul_tanh_kernel i a0 ha0 a1 ha1 a2 ha2) K := by
  simp only [cc5__matmul_tanh_kernel_eq_skeleton]; unfold cc5__matmul_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5 _)

/-! ## The pipeline's proof data -/

/-- The proof data of this pipeline on core `c`: the arrays as the region finds them; after the body at point `t` each
    input's buffer still at its block and the output's at `out5` of the input blocks; nothing owed, full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' memrefs hold their blocks, so the triple applies; the invariant and what the core
    owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Regs.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import proofs.«120795_j24472723652943_2_alg».proof.Proof.KI.R0
import proofs.«120795_j24472723652943_2_alg».proof.Proof.KI.R1
import proofs.«120795_j24472723652943_2_alg».proof.Proof.KI.R2
import proofs.«120795_j24472723652943_2_alg».proof.Proof.KI.R3
import proofs.«120795_j24472723652943_2_alg».proof.Proof.KI.R4
import proofs.«120795_j24472723652943_2_alg».proof.Proof.KI.R5
import proofs.«120795_j24472723652943_2_alg».proof.Proof.Gen.KernelIdeal.Regions
import Idealize.ShloMosaic.Lib.Pipeline.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The whole run: the six regions as segments between the host stretches.

    Between two items core `c` holds every unscoped buffer at the generated valuations `Gen.VJ m outs c`, where `outs` names
    what each region leaves in its output array.  Below `outs` is any family satisfying the six equations `OutsOk`: each
    region's output array ends at the fold of its write-backs (`Dat.arrAt … N`) from the contents the region was entered
    with; such a family exists (`exists_outs`). -/

variable (m : (ℓ : Loc nD τ sig) → Buf (Elt F) ℓ) (outs : Gen.Outs (F := F))

/-- The contents region 0 is entered with, read at the TensorCore's references. -/
abbrev Vin0 (c : Dev nD) (b : Ref sig .tc) : Buf (Elt F) ((c : Thread nD τ).loc b) := Gen.V3 m c b
/-- The contents region 1 is entered with, read at the TensorCore's references. -/
abbrev Vin1 (c : Dev nD) (b : Ref sig .tc) : Buf (Elt F) ((c : Thread nD τ).loc b) := Gen.V7 m outs c b
/-- The contents region 2 is entered with, read at the TensorCore's references. -/
abbrev Vin2 (c : Dev nD) (b : Ref sig .tc) : Buf (Elt F) ((c : Thread nD τ).loc b) := Gen.V11 m outs c b
/-- The contents region 3 is entered with, read at the TensorCore's references. -/
abbrev Vin3 (c : Dev nD) (b : Ref sig .tc) : Buf (Elt F) ((c : Thread nD τ).loc b) := Gen.V15 m outs c b
/-- The contents region 4 is entered with, read at the TensorCore's references. -/
abbrev Vin4 (c : Dev nD) (b : Ref sig .tc) : Buf (Elt F) ((c : Thread nD τ).loc b) := Gen.V19 m outs c b
/-- The contents region 5 is entered with, read at the TensorCore's references. -/
abbrev Vin5 (c : Dev nD) (b : Ref sig .tc) : Buf (Elt F) ((c : Thread nD τ).loc b) := Gen.V20 m outs c b

/-- Every pipeline's proof data, each at its region's entry contents. -/
def pdats : (p : Fin 6) → (c : Dev nD) → Dat τ (Elt F) Unit ℕ (UR sig nD τ) ℕ (cfgs p) c
  | ⟨0, _⟩ => fun c => dat0 (Vin0 m) c
  | ⟨1, _⟩ => fun c => dat1 (Vin1 m outs) c
  | ⟨2, _⟩ => fun c => dat2 (Vin2 m outs) c
  | ⟨3, _⟩ => fun c => dat3 (Vin3 m outs) c
  | ⟨4, _⟩ => fun c => dat4 (Vin4 m outs) c
  | ⟨5, _⟩ => fun c => dat5 (Vin5 m outs) c

/-- What the regions leave: each output array at the fold of its write-backs. -/
structure OutsOk : Prop where
  h0 : ∀ c : Dev nD, outs 4 main_v12 c = (dat0 (Vin0 m) c).arrAt 5 cfg0.N
  h1 : ∀ c : Dev nD, outs 8 main_v32 c = (dat1 (Vin1 m outs) c).arrAt 4 cfg1.N
  h2 : ∀ c : Dev nD, outs 12 main_v41 c = (dat2 (Vin2 m outs) c).arrAt 5 cfg2.N
  h3 : ∀ c : Dev nD, outs 16 main_v61 c = (dat3 (Vin3 m outs) c).arrAt 4 cfg3.N
  h4 : ∀ c : Dev nD, outs 20 main_v70 c = (dat4 (Vin4 m outs) c).arrAt 5 cfg4.N
  h5 : ∀ c : Dev nD, outs 21 main_v71 c = (dat5 (Vin5 m outs) c).arrAt 2 cfg5.N

variable {m outs}

/-- The exit contents at region 0's output array are what `outs` names. -/
theorem vout0_self (c : Dev nD) : Gen.V4 m outs c main_v12 = outs 4 main_v12 c :=
  Function.update_self (Proc.devRef .tc main_v12 : DevRef τ sig) (outs 4 main_v12 c) (Gen.V3 m c)

set_option maxHeartbeats 4000000 in
/-- At region 0's exit each of its arrays holds what the pipeline leaves: an input's array is untouched, the output's is
    what `outs` names. -/
theorem hF0 (ok : OutsOk m outs) (c : Dev nD) (w : Fin cfg0.W) :
    (dat0 (Vin0 m) c).arrAt w cfg0.N = Gen.V4 m outs c (Pipeline.arrRef spec0 w) := by
  match w with
  | ⟨0, _⟩ => exact (((dat0 (Vin0 m) c).arrAt_in 0 rfl _).trans (A_eq0 (Vin0 m) c 0)).trans (Gen.V4_of m outs c _ (by decide)).symm
  | ⟨1, _⟩ => exact (((dat0 (Vin0 m) c).arrAt_in 1 rfl _).trans (A_eq0 (Vin0 m) c 1)).trans (Gen.V4_of m outs c _ (by decide)).symm
  | ⟨2, _⟩ => exact (((dat0 (Vin0 m) c).arrAt_in 2 rfl _).trans (A_eq0 (Vin0 m) c 2)).trans (Gen.V4_of m outs c _ (by decide)).symm
  | ⟨3, _⟩ => exact (((dat0 (Vin0 m) c).arrAt_in 3 rfl _).trans (A_eq0 (Vin0 m) c 3)).trans (Gen.V4_of m outs c _ (by decide)).symm
  | ⟨4, _⟩ => exact (((dat0 (Vin0 m) c).arrAt_in 4 rfl _).trans (A_eq0 (Vin0 m) c 4)).trans (Gen.V4_of m outs c _ (by decide)).symm
  | ⟨5, _⟩ =>
    show _ = Gen.V4 m outs c main_v12
    exact (ok.h0 c).symm.trans (vout0_self c).symm
/-- and every other buffer what it held at entry. -/
theorem hrest0 (c : Dev nD) : ∀ b, b ∉ Finset.univ.image (Pipeline.arrRef spec0) → Gen.V4 m outs c b = Vin0 m c b :=
  fun b hb => Gen.V4_of m outs c b (fun h => hb (by
    rw [List.mem_singleton] at h; subst h
    exact Finset.mem_image.mpr ⟨5, Finset.mem_univ _, rfl⟩))

/-- The exit contents at region 1's output array are what `outs` names. -/
theorem vout1_self (c : Dev nD) : Gen.V8 m outs c main_v32 = outs 8 main_v32 c :=
  Function.update_self (Proc.devRef .tc main_v32 : DevRef τ sig) (outs 8 main_v32 c) (Gen.V7 m outs c)

set_option maxHeartbeats 4000000 in
/-- At region 1's exit each of its arrays holds what the pipeline leaves: an input's array is untouched, the output's is
    what `outs` names. -/
theorem hF1 (ok : OutsOk m outs) (c : Dev nD) (w : Fin cfg1.W) :
    (dat1 (Vin1 m outs) c).arrAt w cfg1.N = Gen.V8 m outs c (Pipeline.arrRef spec1 w) := by
  match w with
  | ⟨0, _⟩ => exact (((dat1 (Vin1 m outs) c).arrAt_in 0 rfl _).trans (A_eq1 (Vin1 m outs) c 0)).trans (Gen.V8_of m outs c _ (by decide)).symm
  | ⟨1, _⟩ => exact (((dat1 (Vin1 m outs) c).arrAt_in 1 rfl _).trans (A_eq1 (Vin1 m outs) c 1)).trans (Gen.V8_of m outs c _ (by decide)).symm
  | ⟨2, _⟩ => exact (((dat1 (Vin1 m outs) c).arrAt_in 2 rfl _).trans (A_eq1 (Vin1 m outs) c 2)).trans (Gen.V8_of m outs c _ (by decide)).symm
  | ⟨3, _⟩ => exact (((dat1 (Vin1 m outs) c).arrAt_in 3 rfl _).trans (A_eq1 (Vin1 m outs) c 3)).trans (Gen.V8_of m outs c _ (by decide)).symm
  | ⟨4, _⟩ =>
    show _ = Gen.V8 m outs c main_v32
    exact (ok.h1 c).symm.trans (vout1_self c).symm
/-- and every other buffer what it held at entry. -/
theorem hrest1 (c : Dev nD) : ∀ b, b ∉ Finset.univ.image (Pipeline.arrRef spec1) → Gen.V8 m outs c b = Vin1 m outs c b :=
  fun b hb => Gen.V8_of m outs c b (fun h => hb (by
    rw [List.mem_singleton] at h; subst h
    exact Finset.mem_image.mpr ⟨4, Finset.mem_univ _, rfl⟩))

/-- The exit contents at region 2's output array are what `outs` names. -/
theorem vout2_self (c : Dev nD) : Gen.V12 m outs c main_v41 = outs 12 main_v41 c :=
  Function.update_self (Proc.devRef .tc main_v41 : DevRef τ sig) (outs 12 main_v41 c) (Gen.V11 m outs c)

set_option maxHeartbeats 4000000 in
/-- At region 2's exit each of its arrays holds what the pipeline leaves: an input's array is untouched, the output's is
    what `outs` names. -/
theorem hF2 (ok : OutsOk m outs) (c : Dev nD) (w : Fin cfg2.W) :
    (dat2 (Vin2 m outs) c).arrAt w cfg2.N = Gen.V12 m outs c (Pipeline.arrRef spec2 w) := by
  match w with
  | ⟨0, _⟩ => exact (((dat2 (Vin2 m outs) c).arrAt_in 0 rfl _).trans (A_eq2 (Vin2 m outs) c 0)).trans (Gen.V12_of m outs c _ (by decide)).symm
  | ⟨1, _⟩ => exact (((dat2 (Vin2 m outs) c).arrAt_in 1 rfl _).trans (A_eq2 (Vin2 m outs) c 1)).trans (Gen.V12_of m outs c _ (by decide)).symm
  | ⟨2, _⟩ => exact (((dat2 (Vin2 m outs) c).arrAt_in 2 rfl _).trans (A_eq2 (Vin2 m outs) c 2)).trans (Gen.V12_of m outs c _ (by decide)).symm
  | ⟨3, _⟩ => exact (((dat2 (Vin2 m outs) c).arrAt_in 3 rfl _).trans (A_eq2 (Vin2 m outs) c 3)).trans (Gen.V12_of m outs c _ (by decide)).symm
  | ⟨4, _⟩ => exact (((dat2 (Vin2 m outs) c).arrAt_in 4 rfl _).trans (A_eq2 (Vin2 m outs) c 4)).trans (Gen.V12_of m outs c _ (by decide)).symm
  | ⟨5, _⟩ =>
    show _ = Gen.V12 m outs c main_v41
    exact (ok.h2 c).symm.trans (vout2_self c).symm
/-- and every other buffer what it held at entry. -/
theorem hrest2 (c : Dev nD) : ∀ b, b ∉ Finset.univ.image (Pipeline.arrRef spec2) → Gen.V12 m outs c b = Vin2 m outs c b :=
  fun b hb => Gen.V12_of m outs c b (fun h => hb (by
    rw [List.mem_singleton] at h; subst h
    exact Finset.mem_image.mpr ⟨5, Finset.mem_univ _, rfl⟩))

/-- The exit contents at region 3's output array are what `outs` names. -/
theorem vout3_self (c : Dev nD) : Gen.V16 m outs c main_v61 = outs 16 main_v61 c :=
  Function.update_self (Proc.devRef .tc main_v61 : DevRef τ sig) (outs 16 main_v61 c) (Gen.V15 m outs c)

set_option maxHeartbeats 4000000 in
/-- At region 3's exit each of its arrays holds what the pipeline leaves: an input's array is untouched, the output's is
    what `outs` names. -/
theorem hF3 (ok : OutsOk m outs) (c : Dev nD) (w : Fin cfg3.W) :
    (dat3 (Vin3 m outs) c).arrAt w cfg3.N = Gen.V16 m outs c (Pipeline.arrRef spec3 w) := by
  match w with
  | ⟨0, _⟩ => exact (((dat3 (Vin3 m outs) c).arrAt_in 0 rfl _).trans (A_eq3 (Vin3 m outs) c 0)).trans (Gen.V16_of m outs c _ (by decide)).symm
  | ⟨1, _⟩ => exact (((dat3 (Vin3 m outs) c).arrAt_in 1 rfl _).trans (A_eq3 (Vin3 m outs) c 1)).trans (Gen.V16_of m outs c _ (by decide)).symm
  | ⟨2, _⟩ => exact (((dat3 (Vin3 m outs) c).arrAt_in 2 rfl _).trans (A_eq3 (Vin3 m outs) c 2)).trans (Gen.V16_of m outs c _ (by decide)).symm
  | ⟨3, _⟩ => exact (((dat3 (Vin3 m outs) c).arrAt_in 3 rfl _).trans (A_eq3 (Vin3 m outs) c 3)).trans (Gen.V16_of m outs c _ (by decide)).symm
  | ⟨4, _⟩ =>
    show _ = Gen.V16 m outs c main_v61
    exact (ok.h3 c).symm.trans (vout3_self c).symm
/-- and every other buffer what it held at entry. -/
theorem hrest3 (c : Dev nD) : ∀ b, b ∉ Finset.univ.image (Pipeline.arrRef spec3) → Gen.V16 m outs c b = Vin3 m outs c b :=
  fun b hb => Gen.V16_of m outs c b (fun h => hb (by
    rw [List.mem_singleton] at h; subst h
    exact Finset.mem_image.mpr ⟨4, Finset.mem_univ _, rfl⟩))

/-- The exit contents at region 4's output array are what `outs` names. -/
theorem vout4_self (c : Dev nD) : Gen.V20 m outs c main_v70 = outs 20 main_v70 c :=
  Function.update_self (Proc.devRef .tc main_v70 : DevRef τ sig) (outs 20 main_v70 c) (Gen.V19 m outs c)

set_option maxHeartbeats 4000000 in
/-- At region 4's exit each of its arrays holds what the pipeline leaves: an input's array is untouched, the output's is
    what `outs` names. -/
theorem hF4 (ok : OutsOk m outs) (c : Dev nD) (w : Fin cfg4.W) :
    (dat4 (Vin4 m outs) c).arrAt w cfg4.N = Gen.V20 m outs c (Pipeline.arrRef spec4 w) := by
  match w with
  | ⟨0, _⟩ => exact (((dat4 (Vin4 m outs) c).arrAt_in 0 rfl _).trans (A_eq4 (Vin4 m outs) c 0)).trans (Gen.V20_of m outs c _ (by decide)).symm
  | ⟨1, _⟩ => exact (((dat4 (Vin4 m outs) c).arrAt_in 1 rfl _).trans (A_eq4 (Vin4 m outs) c 1)).trans (Gen.V20_of m outs c _ (by decide)).symm
  | ⟨2, _⟩ => exact (((dat4 (Vin4 m outs) c).arrAt_in 2 rfl _).trans (A_eq4 (Vin4 m outs) c 2)).trans (Gen.V20_of m outs c _ (by decide)).symm
  | ⟨3, _⟩ => exact (((dat4 (Vin4 m outs) c).arrAt_in 3 rfl _).trans (A_eq4 (Vin4 m outs) c 3)).trans (Gen.V20_of m outs c _ (by decide)).symm
  | ⟨4, _⟩ => exact (((dat4 (Vin4 m outs) c).arrAt_in 4 rfl _).trans (A_eq4 (Vin4 m outs) c 4)).trans (Gen.V20_of m outs c _ (by decide)).symm
  | ⟨5, _⟩ =>
    show _ = Gen.V20 m outs c main_v70
    exact (ok.h4 c).symm.trans (vout4_self c).symm
/-- and every other buffer what it held at entry. -/
theorem hrest4 (c : Dev nD) : ∀ b, b ∉ Finset.univ.image (Pipeline.arrRef spec4) → Gen.V20 m outs c b = Vin4 m outs c b :=
  fun b hb => Gen.V20_of m outs c b (fun h => hb (by
    rw [List.mem_singleton] at h; subst h
    exact Finset.mem_image.mpr ⟨5, Finset.mem_univ _, rfl⟩))

/-- The exit contents at region 5's output array are what `outs` names. -/
theorem vout5_self (c : Dev nD) : Gen.V21 m outs c main_v71 = outs 21 main_v71 c :=
  Function.update_self (Proc.devRef .tc main_v71 : DevRef τ sig) (outs 21 main_v71 c) (Gen.V20 m outs c)

set_option maxHeartbeats 4000000 in
/-- At region 5's exit each of its arrays holds what the pipeline leaves: an input's array is untouched, the output's is
    what `outs` names. -/
theorem hF5 (ok : OutsOk m outs) (c : Dev nD) (w : Fin cfg5.W) :
    (dat5 (Vin5 m outs) c).arrAt w cfg5.N = Gen.V21 m outs c (Pipeline.arrRef spec5 w) := by
  match w with
  | ⟨0, _⟩ => exact (((dat5 (Vin5 m outs) c).arrAt_in 0 rfl _).trans (A_eq5 (Vin5 m outs) c 0)).trans (Gen.V21_of m outs c _ (by decide)).symm
  | ⟨1, _⟩ => exact (((dat5 (Vin5 m outs) c).arrAt_in 1 rfl _).trans (A_eq5 (Vin5 m outs) c 1)).trans (Gen.V21_of m outs c _ (by decide)).symm
  | ⟨2, _⟩ =>
    show _ = Gen.V21 m outs c main_v71
    exact (ok.h5 c).symm.trans (vout5_self c).symm
/-- and every other buffer what it held at entry. -/
theorem hrest5 (c : Dev nD) : ∀ b, b ∉ Finset.univ.image (Pipeline.arrRef spec5) → Gen.V21 m outs c b = Vin5 m outs c b :=
  fun b hb => Gen.V21_of m outs c b (fun h => hb (by
    rw [List.mem_singleton] at h; subst h
    exact Finset.mem_image.mpr ⟨2, Finset.mem_univ _, rfl⟩))

/-! ## The thread state beside the buffers, and the regions as segments -/

/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev EE : Fin 7 → Dev nD → sProp 𝕄 := fun _ c => Rr c
abbrev LL : GSem nD τ sig → Finset Unit := fun _ => ∅
abbrev lvv : GSem nD τ sig → Unit → ℕ := fun _ _ => 0

set_option backward.isDefEq.respectTransparency.types false in
/-- Region 0 over the thread state: its arrays are split out of the unscoped buffers at entry and put back at the exit
    contents; the generator register goes into the class invariant and comes back; nothing is owed. -/
def reg0 (ok : OutsOk m outs) : Pipeline.RegionSeg (pcfgs (F := F)) Gen.adm (pdats m outs) () defs₀ Variants.none LL lvv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LL lvv 0 fun _ _ => rfl
  pre c := iprop(StableHlo.held (c : Thread nD τ) (Pipeline.ucRefs τ sig) (Gen.V3 m c) ∗ Rr c)
  post c := iprop(StableHlo.held (c : Thread nD τ) (Pipeline.ucRefs τ sig) (Gen.V4 m outs c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      (Vin0 m c) (fun b => Gen.V4 m outs c b) ((pdats m outs 0 c).arrAt · cfg0.N) (hF0 ok c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at the exit
    contents; the generator register goes into the class invariant and comes back; nothing is owed. -/
def reg1 (ok : OutsOk m outs) : Pipeline.RegionSeg (pcfgs (F := F)) Gen.adm (pdats m outs) () defs₀ Variants.none LL lvv 1 where
  win := launch1.win.to₀
  block_pos := launch1.block_pos
  stage_whole := launch1.stage_whole
  K := PEmpty
  osem k := k.elim
  ho := Pipeline.OwnSemFacts.none _
  hbody c := (body_obligation1 (Vin1 m outs) c).loose
  hwaits := Pipeline.hwaits_of_owed_zero _ _ _ _ LL lvv 1 fun _ _ => rfl
  pre c := iprop(StableHlo.held (c : Thread nD τ) (Pipeline.ucRefs τ sig) (Gen.V7 m outs c) ∗ Rr c)
  post c := iprop(StableHlo.held (c : Thread nD τ) (Pipeline.ucRefs τ sig) (Gen.V8 m outs c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m outs c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) (Vin1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      (Vin1 m outs c) (fun b => Gen.V8 m outs c b) ((pdats m outs 1 c).arrAt · cfg1.N) (hF1 ok c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays are split out of the unscoped buffers at entry and put back at the exit
    contents; the generator register goes into the class invariant and comes back; nothing is owed. -/
def reg2 (ok : OutsOk m outs) : Pipeline.RegionSeg (pcfgs (F := F)) Gen.adm (pdats m outs) () defs₀ Variants.none LL lvv 2 where
  win := launch2.win.to₀
  block_pos := launch2.block_pos
  stage_whole := launch2.stage_whole
  K := PEmpty
  osem k := k.elim
  ho := Pipeline.OwnSemFacts.none _
  hbody c := (body_obligation2 (Vin2 m outs) c).loose
  hwaits := Pipeline.hwaits_of_owed_zero _ _ _ _ LL lvv 2 fun _ _ => rfl
  pre c := iprop(StableHlo.held (c : Thread nD τ) (Pipeline.ucRefs τ sig) (Gen.V11 m outs c) ∗ Rr c)
  post c := iprop(StableHlo.held (c : Thread nD τ) (Pipeline.ucRefs τ sig) (Gen.V12 m outs c) ∗ Rr c)
  X c := iprop(∃ r, prngReg c r)
  Y c := iprop(∃ r, prngReg c r)
  Z c := Pipeline.unscopedRest (Ix := Unit) (Name := ℕ) (U := UR sig nD τ) (Lvl := ℕ) spec2 c (Vin2 m outs c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) (Vin2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      (Vin2 m outs c) (fun b => Gen.V12 m outs c b) ((pdats m outs 2 c).arrAt · cfg2.N) (hF2 ok c) (hrest2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: its arrays are split out of the unscoped buffers at entry and put back at the exit
    contents; the generator register goes into the class invariant and comes back; nothing is owed. -/
def reg3 (ok : OutsOk m outs) : Pipeline.RegionSeg (pcfgs (F := F)) Gen.adm (pdats m outs) () defs₀ Variants.none LL lvv 3 where
  win := launch3.win.to₀
  block_pos := launch3.block_pos
  stage_whole := launch3.stage_whole
  K := PEmpty
  osem k := k.elim
  ho := Pipeline.OwnSemFacts.none _
  hbody c := (body_obligation3 (Vin3 m outs) c).loose
  hwaits := Pipeline.hwaits_of_owed_zero _ _ _ _ LL lvv 3 fun _ _ => rfl
  pre c := iprop(StableHlo.held (c : Thread nD τ) (Pipeline.ucRefs τ sig) (Gen.V15 m outs c) ∗ Rr c)
  post c := iprop(StableHlo.held (c : Thread nD τ) (Pipeline.ucRefs τ sig) (Gen.V16 m outs c) ∗ Rr c)
  X c := iprop(∃ r, prngReg c r)
  Y c := iprop(∃ r, prngReg c r)
  Z c := Pipeline.unscopedRest (Ix := Unit) (Name := ℕ) (U := UR sig nD τ) (Lvl := ℕ) spec3 c (Vin3 m outs c)
  hentry c := by
    rw [Pipeline.ownSems0_none]
    have hsplit := Pipeline.arrays_of_unscopedBufs (p := 3) (pcfgs (F := F)) Gen.adm (pdats m outs) launch3.win launch3.arr_whole c
      ((pdats m outs 3 c).share_full fun _ => rfl) (Vin3 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m outs) ((pdats m outs 3 c).share_full fun _ => rfl)
      (Vin3 m outs c) (fun b => Gen.V16 m outs c b) ((pdats m outs 3 c).arrAt · cfg3.N) (hF3 ok c) (hrest3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: its arrays are split out of the unscoped buffers at entry and put back at the exit
    contents; the generator register goes into the class invariant and comes back; nothing is owed. -/
def reg4 (ok : OutsOk m outs) : Pipeline.RegionSeg (pcfgs (F := F)) Gen.adm (pdats m outs) () defs₀ Variants.none LL lvv 4 where
  win := launch4.win.to₀
  block_pos := launch4.block_pos
  stage_whole := launch4.stage_whole
  K := PEmpty
  osem k := k.elim
  ho := Pipeline.OwnSemFacts.none _
  hbody c := (body_obligation4 (Vin4 m outs) c).loose
  hwaits := Pipeline.hwaits_of_owed_zero _ _ _ _ LL lvv 4 fun _ _ => rfl
  pre c := iprop(StableHlo.held (c : Thread nD τ) (Pipeline.ucRefs τ sig) (Gen.V19 m outs c) ∗ Rr c)
  post c := iprop(StableHlo.held (c : Thread nD τ) (Pipeline.ucRefs τ sig) (Gen.V20 m outs c) ∗ Rr c)
  X c := iprop(∃ r, prngReg c r)
  Y c := iprop(∃ r, prngReg c r)
  Z c := Pipeline.unscopedRest (Ix := Unit) (Name := ℕ) (U := UR sig nD τ) (Lvl := ℕ) spec4 c (Vin4 m outs c)
  hentry c := by
    rw [Pipeline.ownSems0_none]
    have hsplit := Pipeline.arrays_of_unscopedBufs (p := 4) (pcfgs (F := F)) Gen.adm (pdats m outs) launch4.win launch4.arr_whole c
      ((pdats m outs 4 c).share_full fun _ => rfl) (Vin4 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m outs) ((pdats m outs 4 c).share_full fun _ => rfl)
      (Vin4 m outs c) (fun b => Gen.V20 m outs c b) ((pdats m outs 4 c).arrAt · cfg4.N) (hF4 ok c) (hrest4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: its arrays are split out of the unscoped buffers at entry and put back at the exit
    contents; the generator register goes into the class invariant and comes back; nothing is owed. -/
def reg5 (ok : OutsOk m outs) : Pipeline.RegionSeg (pcfgs (F := F)) Gen.adm (pdats m outs) () defs₀ Variants.none LL lvv 5 where
  win := launch5.win.to₀
  block_pos := launch5.block_pos
  stage_whole := launch5.stage_whole
  K := PEmpty
  osem k := k.elim
  ho := Pipeline.OwnSemFacts.none _
  hbody c := (body_obligation5 (Vin5 m outs) c).loose
  hwaits := Pipeline.hwaits_of_owed_zero _ _ _ _ LL lvv 5 fun _ _ => rfl
  pre c := iprop(StableHlo.held (c : Thread nD τ) (Pipeline.ucRefs τ sig) (Gen.V20 m outs c) ∗ Rr c)
  post c := iprop(StableHlo.held (c : Thread nD τ) (Pipeline.ucRefs τ sig) (Gen.V21 m outs c) ∗ Rr c)
  X c := iprop(∃ r, prngReg c r)
  Y c := iprop(∃ r, prngReg c r)
  Z c := Pipeline.unscopedRest (Ix := Unit) (Name := ℕ) (U := UR sig nD τ) (Lvl := ℕ) spec5 c (Vin5 m outs c)
  hentry c := by
    rw [Pipeline.ownSems0_none]
    have hsplit := Pipeline.arrays_of_unscopedBufs (p := 5) (pcfgs (F := F)) Gen.adm (pdats m outs) launch5.win launch5.arr_whole c
      ((pdats m outs 5 c).share_full fun _ => rfl) (Vin5 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m outs 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m outs) ((pdats m outs 5 c).share_full fun _ => rfl)
      (Vin5 m outs c) (fun b => Gen.V21 m outs c b) ((pdats m outs 5 c).arrAt · cfg5.N) (hF5 ok c) (hrest5 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import proofs.«120795_j24472723652943_2_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run of @main: every weakly fair execution terminates, the result buffer ends at the last valuation's contents
    and every argument array as launched. -/

variable {m : (ℓ : Loc nD τ sig) → Buf (Elt F) ℓ} {outs : Gen.Outs (F := F)}

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The run, for any family `outs` naming what the regions leave (`OutsOk`): the library's launch over @main's segments — a
    host segment per stretch, a region per pallas_call —, the last thread state read against the final memory. -/
theorem run_cond (ρ : Dev nD → PrngReg) (ok : OutsOk m outs) :
    θ_run defs (onTc (τ := τ) (main (F := F))) ⟨m, fun _ => 0, ρ⟩ (fun r => ∀ c : Dev nD,
      r.2.mem ((c.tc : Thread nD τ).loc main_v72) = Gen.V22 m outs c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) Gen.adm (pdats m outs) () cellOf_inj emb₁ defs₀ Variants.none LL lvv m ρ main
    (Gen.segs m outs Variants.none LL lvv EE () (pdats m outs) (reg0 ok) (reg1 ok) (reg2 ok) (reg3 ok) (reg4 ok) (reg5 ok))
    (fun c Q => by
      rewrite [main_chain c, Seg.run_eq_chain,
        show (Gen.segs m outs Variants.none LL lvv EE () (pdats m outs) (reg0 ok) (reg1 ok) (reg2 ok) (reg3 ok) (reg4 ok) (reg5 ok) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          StableHlo.seq hostOps3_1,
          StableHlo.seq hostOps3_2,
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6 ] from rfl]
      exact .rfl)
    (fun c => by simp only [Gen.segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rr c))
    (Tₙ := fun c => StableHlo.held (c : Thread nD τ) (Pipeline.ucRefs τ sig) (Gen.V22 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, H⟩; iexact H)⟩)
    (hinit := by
      refine Pipeline.initEach LL lvv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V22 m outs c b)
    (hfin := fun c s' => by
      iintro ⟨Hh, HSI⟩
      unfold StableHlo.held
      imodintro
      iapply (pointsTo_read_all (Pipeline.ucRefs τ sig) (fun b => (((c : Thread nD τ)).1, b)) (Gen.V22 m outs c) s')
      isplitl [Hh] <;> iassumption)
    (hQ := fun s h c =>
      ⟨h c _ (mem_uc main_v72 (by decide)),
       (h c _ (mem_uc main_arg0 (by decide))).trans (Gen.V22_main_arg0 m outs c),
       (h c _ (mem_uc main_arg1 (by decide))).trans (Gen.V22_main_arg1 m outs c),
       (h c _ (mem_uc main_arg2 (by decide))).trans (Gen.V22_main_arg2 m outs c),
       (h c _ (mem_uc main_arg3 (by decide))).trans (Gen.V22_main_arg3 m outs c),
       (h c _ (mem_uc main_arg4 (by decide))).trans (Gen.V22_main_arg4 m outs c),
       (h c _ (mem_uc main_arg5 (by decide))).trans (Gen.V22_main_arg5 m outs c),
       (h c _ (mem_uc main_arg6 (by decide))).trans (Gen.V22_main_arg6 m outs c),
       (h c _ (mem_uc main_arg7 (by decide))).trans (Gen.V22_main_arg7 m outs c),
       (h c _ (mem_uc main_arg8 (by decide))).trans (Gen.V22_main_arg8 m outs c),
       (h c _ (mem_uc main_arg9 (by decide))).trans (Gen.V22_main_arg9 m outs c),
       (h c _ (mem_uc main_arg10 (by decide))).trans (Gen.V22_main_arg10 m outs c),
       (h c _ (mem_uc main_arg11 (by decide))).trans (Gen.V22_main_arg11 m outs c),
       (h c _ (mem_uc main_arg12 (by decide))).trans (Gen.V22_main_arg12 m outs c),
       (h c _ (mem_uc main_arg13 (by decide))).trans (Gen.V22_main_arg13 m outs c),
       (h c _ (mem_uc main_arg14 (by decide))).trans (Gen.V22_main_arg14 m outs c),
       (h c _ (mem_uc main_arg15 (by decide))).trans (Gen.V22_main_arg15 m outs c),
       (h c _ (mem_uc main_arg16 (by decide))).trans (Gen.V22_main_arg16 m outs c),
       (h c _ (mem_uc main_arg17 (by decide))).trans (Gen.V22_main_arg17 m outs c)⟩)

end Cert.KernelIdeal.Hand

end
-- ==== Proof.KI.Outs.lean ====
import proofs.«120795_j24472723652943_2_alg».proof.Proof.Gen.KernelIdeal.Launch
import proofs.«120795_j24472723652943_2_alg».proof.Proof.Gen.KernelIdeal.Skeleton
import proofs.«120795_j24472723652943_2_alg».proof.Proof.Gen.KernelIdeal.Points
import proofs.«120795_j24472723652943_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # A family `outs` naming what the regions leave, built stage by stage, and the run without hypotheses -/

variable (m : (ℓ : Loc nD τ sig) → Buf (Elt F) ℓ)

/-- Two families agree on every item up to `n`. -/
def Agree (n : ℕ) (o o' : Gen.Outs (F := F)) : Prop := ∀ J, J ≤ n → ∀ r c, o J r c = o' J r c

theorem Agree.mono {n n' : ℕ} {o o' : Gen.Outs (F := F)} (h : Agree n' o o') (hn : n ≤ n') : Agree n o o' :=
  fun J hJ => h J (hJ.trans hn)

/-! ## The valuations between items depend only on the items before them -/

variable {m}
theorem V4c {o o' : Gen.Outs (F := F)} (h : Agree 4 o o') (c : Dev nD) : Gen.V4 m o c = Gen.V4 m o' c := by
  show Function.update (Gen.V3 m c) (Proc.devRef .tc main_v12) (o 4 main_v12 c) = Function.update (Gen.V3 m c) (Proc.devRef .tc main_v12) (o' 4 main_v12 c)
  rw [h 4 le_rfl]
theorem V7c {o o' : Gen.Outs (F := F)} (h : Agree 4 o o') (c : Dev nD) : Gen.V7 m o c = Gen.V7 m o' c := by
  show StableHlo.after hostOps1_2 (StableHlo.after hostOps1_1 (StableHlo.after hostOps1 (Gen.V4 m o c))) = StableHlo.after hostOps1_2 (StableHlo.after hostOps1_1 (StableHlo.after hostOps1 (Gen.V4 m o' c)))
  rw [V4c h c]
theorem V8c {o o' : Gen.Outs (F := F)} (h : Agree 8 o o') (c : Dev nD) : Gen.V8 m o c = Gen.V8 m o' c := by
  show Function.update (Gen.V7 m o c) (Proc.devRef .tc main_v32) (o 8 main_v32 c) = Function.update (Gen.V7 m o' c) (Proc.devRef .tc main_v32) (o' 8 main_v32 c)
  rw [V7c (h.mono (by decide)) c, h 8 le_rfl]
theorem V11c {o o' : Gen.Outs (F := F)} (h : Agree 8 o o') (c : Dev nD) : Gen.V11 m o c = Gen.V11 m o' c := by
  show StableHlo.after hostOps2_2 (StableHlo.after hostOps2_1 (StableHlo.after hostOps2 (Gen.V8 m o c))) = StableHlo.after hostOps2_2 (StableHlo.after hostOps2_1 (StableHlo.after hostOps2 (Gen.V8 m o' c)))
  rw [V8c h c]
theorem V12c {o o' : Gen.Outs (F := F)} (h : Agree 12 o o') (c : Dev nD) : Gen.V12 m o c = Gen.V12 m o' c := by
  show Function.update (Gen.V11 m o c) (Proc.devRef .tc main_v41) (o 12 main_v41 c) = Function.update (Gen.V11 m o' c) (Proc.devRef .tc main_v41) (o' 12 main_v41 c)
  rw [V11c (h.mono (by decide)) c, h 12 le_rfl]
theorem V15c {o o' : Gen.Outs (F := F)} (h : Agree 12 o o') (c : Dev nD) : Gen.V15 m o c = Gen.V15 m o' c := by
  show StableHlo.after hostOps3_2 (StableHlo.after hostOps3_1 (StableHlo.after hostOps3 (Gen.V12 m o c))) = StableHlo.after hostOps3_2 (StableHlo.after hostOps3_1 (StableHlo.after hostOps3 (Gen.V12 m o' c)))
  rw [V12c h c]
theorem V16c {o o' : Gen.Outs (F := F)} (h : Agree 16 o o') (c : Dev nD) : Gen.V16 m o c = Gen.V16 m o' c := by
  show Function.update (Gen.V15 m o c) (Proc.devRef .tc main_v61) (o 16 main_v61 c) = Function.update (Gen.V15 m o' c) (Proc.devRef .tc main_v61) (o' 16 main_v61 c)
  rw [V15c (h.mono (by decide)) c, h 16 le_rfl]
theorem V19c {o o' : Gen.Outs (F := F)} (h : Agree 16 o o') (c : Dev nD) : Gen.V19 m o c = Gen.V19 m o' c := by
  show StableHlo.after hostOps4_2 (StableHlo.after hostOps4_1 (StableHlo.after hostOps4 (Gen.V16 m o c))) = StableHlo.after hostOps4_2 (StableHlo.after hostOps4_1 (StableHlo.after hostOps4 (Gen.V16 m o' c)))
  rw [V16c h c]
theorem V20c {o o' : Gen.Outs (F := F)} (h : Agree 20 o o') (c : Dev nD) : Gen.V20 m o c = Gen.V20 m o' c := by
  show Function.update (Gen.V19 m o c) (Proc.devRef .tc main_v70) (o 20 main_v70 c) = Function.update (Gen.V19 m o' c) (Proc.devRef .tc main_v70) (o' 20 main_v70 c)
  rw [V19c (h.mono (by decide)) c, h 20 le_rfl]
variable (m)

/-! ## The family, one stage at a time: item J's contents are read off the valuation after region (J's) exit -/

/-- What region 0 leaves in its output array. -/
def o0 (c : Dev nD) : Buf (Elt F) ((c : Thread nD τ).loc main_v12) := (dat0 (Vin0 m) c).arrAt 5 cfg0.N
/-- The family through region 0. -/
def outsA : Gen.Outs (F := F) := fun J r c =>
  Function.update (Gen.V3 m c) (Proc.devRef .tc main_v12) (o0 m c) (Proc.devRef .tc r)

/-- What region 1 leaves in its output array. -/
def o1 (c : Dev nD) : Buf (Elt F) ((c : Thread nD τ).loc main_v32) := (dat1 (Vin1 m (outsA m)) c).arrAt 4 cfg1.N
/-- The family through region 1. -/
def outsB : Gen.Outs (F := F) := fun J r c =>
  if J ≤ 4 then outsA m J r c else Function.update (Gen.V7 m (outsA m) c) (Proc.devRef .tc main_v32) (o1 m c) (Proc.devRef .tc r)

/-- What region 2 leaves in its output array. -/
def o2 (c : Dev nD) : Buf (Elt F) ((c : Thread nD τ).loc main_v41) := (dat2 (Vin2 m (outsB m)) c).arrAt 5 cfg2.N
/-- The family through region 2. -/
def outsC : Gen.Outs (F := F) := fun J r c =>
  if J ≤ 8 then outsB m J r c else Function.update (Gen.V11 m (outsB m) c) (Proc.devRef .tc main_v41) (o2 m c) (Proc.devRef .tc r)

/-- What region 3 leaves in its output array. -/
def o3 (c : Dev nD) : Buf (Elt F) ((c : Thread nD τ).loc main_v61) := (dat3 (Vin3 m (outsC m)) c).arrAt 4 cfg3.N
/-- The family through region 3. -/
def outsD : Gen.Outs (F := F) := fun J r c =>
  if J ≤ 12 then outsC m J r c else Function.update (Gen.V15 m (outsC m) c) (Proc.devRef .tc main_v61) (o3 m c) (Proc.devRef .tc r)

/-- What region 4 leaves in its output array. -/
def o4 (c : Dev nD) : Buf (Elt F) ((c : Thread nD τ).loc main_v70) := (dat4 (Vin4 m (outsD m)) c).arrAt 5 cfg4.N
/-- The family through region 4. -/
def outsE : Gen.Outs (F := F) := fun J r c =>
  if J ≤ 16 then outsD m J r c else Function.update (Gen.V19 m (outsD m) c) (Proc.devRef .tc main_v70) (o4 m c) (Proc.devRef .tc r)

/-- What region 5 leaves in its output array. -/
def o5 (c : Dev nD) : Buf (Elt F) ((c : Thread nD τ).loc main_v71) := (dat5 (Vin5 m (outsE m)) c).arrAt 2 cfg5.N
/-- The family through region 5. -/
def outsF : Gen.Outs (F := F) := fun J r c =>
  if J ≤ 20 then outsE m J r c else Function.update (Gen.V20 m (outsE m) c) (Proc.devRef .tc main_v71) (o5 m c) (Proc.devRef .tc r)

/-! ## The final family agrees with each stage's on the items that stage knows -/
theorem agree_outsA : Agree 4 (outsF m) (outsA m) := by
  intro J hJ r c
  unfold outsF; rw [if_pos (show J ≤ 20 by omega)]
  unfold outsE; rw [if_pos (show J ≤ 16 by omega)]
  unfold outsD; rw [if_pos (show J ≤ 12 by omega)]
  unfold outsC; rw [if_pos (show J ≤ 8 by omega)]
  unfold outsB; rw [if_pos (show J ≤ 4 by omega)]

theorem agree_outsB : Agree 8 (outsF m) (outsB m) := by
  intro J hJ r c
  unfold outsF; rw [if_pos (show J ≤ 20 by omega)]
  unfold outsE; rw [if_pos (show J ≤ 16 by omega)]
  unfold outsD; rw [if_pos (show J ≤ 12 by omega)]
  unfold outsC; rw [if_pos (show J ≤ 8 by omega)]

theorem agree_outsC : Agree 12 (outsF m) (outsC m) := by
  intro J hJ r c
  unfold outsF; rw [if_pos (show J ≤ 20 by omega)]
  unfold outsE; rw [if_pos (show J ≤ 16 by omega)]
  unfold outsD; rw [if_pos (show J ≤ 12 by omega)]

theorem agree_outsD : Agree 16 (outsF m) (outsD m) := by
  intro J hJ r c
  unfold outsF; rw [if_pos (show J ≤ 20 by omega)]
  unfold outsE; rw [if_pos (show J ≤ 16 by omega)]

theorem agree_outsE : Agree 20 (outsF m) (outsE m) := by
  intro J hJ r c
  unfold outsF; rw [if_pos (show J ≤ 20 by omega)]

/-! ## The family's values at the six items -/
theorem outsF_at4 (c : Dev nD) : outsF m 4 main_v12 c = o0 m c := by
  unfold outsF; rw [if_pos (show (4 : ℕ) ≤ 20 by decide)]
  unfold outsE; rw [if_pos (show (4 : ℕ) ≤ 16 by decide)]
  unfold outsD; rw [if_pos (show (4 : ℕ) ≤ 12 by decide)]
  unfold outsC; rw [if_pos (show (4 : ℕ) ≤ 8 by decide)]
  unfold outsB; rw [if_pos (show (4 : ℕ) ≤ 4 by decide)]
  unfold outsA
  exact Function.update_self _ _ _
theorem outsF_at8 (c : Dev nD) : outsF m 8 main_v32 c = o1 m c := by
  unfold outsF; rw [if_pos (show (8 : ℕ) ≤ 20 by decide)]
  unfold outsE; rw [if_pos (show (8 : ℕ) ≤ 16 by decide)]
  unfold outsD; rw [if_pos (show (8 : ℕ) ≤ 12 by decide)]
  unfold outsC; rw [if_pos (show (8 : ℕ) ≤ 8 by decide)]
  unfold outsB; rw [if_neg (show ¬ (8 : ℕ) ≤ 4 by decide)]
  exact Function.update_self _ _ _
theorem outsF_at12 (c : Dev nD) : outsF m 12 main_v41 c = o2 m c := by
  unfold outsF; rw [if_pos (show (12 : ℕ) ≤ 20 by decide)]
  unfold outsE; rw [if_pos (show (12 : ℕ) ≤ 16 by decide)]
  unfold outsD; rw [if_pos (show (12 : ℕ) ≤ 12 by decide)]
  unfold outsC; rw [if_neg (show ¬ (12 : ℕ) ≤ 8 by decide)]
  exact Function.update_self _ _ _
theorem outsF_at16 (c : Dev nD) : outsF m 16 main_v61 c = o3 m c := by
  unfold outsF; rw [if_pos (show (16 : ℕ) ≤ 20 by decide)]
  unfold outsE; rw [if_pos (show (16 : ℕ) ≤ 16 by decide)]
  unfold outsD; rw [if_neg (show ¬ (16 : ℕ) ≤ 12 by decide)]
  exact Function.update_self _ _ _
theorem outsF_at20 (c : Dev nD) : outsF m 20 main_v70 c = o4 m c := by
  unfold outsF; rw [if_pos (show (20 : ℕ) ≤ 20 by decide)]
  unfold outsE; rw [if_neg (show ¬ (20 : ℕ) ≤ 16 by decide)]
  exact Function.update_self _ _ _
theorem outsF_at21 (c : Dev nD) : outsF m 21 main_v71 c = o5 m c := by
  unfold outsF; rw [if_neg (show ¬ (21 : ℕ) ≤ 20 by decide)]
  exact Function.update_self _ _ _

/-- The family satisfies the six equations. -/
theorem outs_ok : OutsOk m (outsF m) where
  h0 c := outsF_at4 m c
  h1 c := (outsF_at8 m c).trans (by
    unfold o1
    rw [show Vin1 m (outsF m) = Vin1 m (outsA m) from funext fun c => funext fun b => congrFun (V7c (agree_outsA m) c) _])
  h2 c := (outsF_at12 m c).trans (by
    unfold o2
    rw [show Vin2 m (outsF m) = Vin2 m (outsB m) from funext fun c => funext fun b => congrFun (V11c (agree_outsB m) c) _])
  h3 c := (outsF_at16 m c).trans (by
    unfold o3
    rw [show Vin3 m (outsF m) = Vin3 m (outsC m) from funext fun c => funext fun b => congrFun (V15c (agree_outsC m) c) _])
  h4 c := (outsF_at20 m c).trans (by
    unfold o4
    rw [show Vin4 m (outsF m) = Vin4 m (outsD m) from funext fun c => funext fun b => congrFun (V19c (agree_outsD m) c) _])
  h5 c := (outsF_at21 m c).trans (by
    unfold o5
    rw [show Vin5 m (outsF m) = Vin5 m (outsE m) from funext fun c => funext fun b => congrFun (V20c (agree_outsE m) c) _])

/-- THE RUN: every weakly fair execution of @main terminates, the result buffer ends at the last valuation's contents and
    every argument array as launched. -/
theorem run (ρ : Dev nD → PrngReg) :
    θ_run defs (onTc (τ := τ) (main (F := F))) ⟨m, fun _ => 0, ρ⟩ (fun r => ∀ c : Dev nD,
      r.2.mem ((c.tc : Thread nD τ).loc main_v72) = Gen.V22 m (outsF m) c main_v72
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_cond ρ (outs_ok m)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.KernelIdeal.Hand

end
-- ==== Proof.KI.GDefs.lean ====
import proofs.«120795_j24472723652943_2_alg».proof.KernelIdeal
import Idealize.ShloMosaic.PureOps.Ideal
import Idealize.ShloMosaic.Lib.ValueIdx

noncomputable section

namespace Cert.KernelIdeal.Hand

open Cert.KernelIdeal
open Idealize.ShloMosaic Idealize.ShloMosaic.ValueIdx

/-! # What each kernel region computes, as one function of its operand arrays, entry by entry (extended reals)

    Rows are the 100000 nodes; `mu`, `va`, `ga`, `be`, `b` are one-row tables read at column `q`. -/

/-- Batch-norm apply on 128 columns: `(x r q - mu q) · rsqrt (va q + ε) · ga q + be q`. -/
def bnG128 (x : Vec Ideal S100000x128 .f32) (mu va ga be : Vec Ideal S1x128 .f32) : Vec Ideal S100000x128 .f32 :=
  fun i => ((x (ix2 (i 0) (i 1)) - mu (ix2 (0 : Fin 1) (i 1))) * Ideal.rsqrt (va (ix2 (0 : Fin 1) (i 1)) + Ideal.ofBits .f32 0x3727C5AC#32))
    * ga (ix2 (0 : Fin 1) (i 1)) + be (ix2 (0 : Fin 1) (i 1))

/-- The same on 64 columns. -/
def bnG64 (x : Vec Ideal S100000x64 .f32) (mu va ga be : Vec Ideal S1x64 .f32) : Vec Ideal S100000x64 .f32 :=
  fun i => ((x (ix2 (i 0) (i 1)) - mu (ix2 (0 : Fin 1) (i 1))) * Ideal.rsqrt (va (ix2 (0 : Fin 1) (i 1)) + Ideal.ofBits .f32 0x3727C5AC#32))
    * ga (ix2 (0 : Fin 1) (i 1)) + be (ix2 (0 : Fin 1) (i 1))

/-- Node update from 128 columns: `tanh (∑ₖ (x r k + agg r k) · W k q + b q)`. -/
def nodeG128 (x agg : Vec Ideal S100000x128 .f32) (W : Vec Ideal S128x64 .f32) (b : Vec Ideal S1x64 .f32) : Vec Ideal S100000x64 .f32 :=
  fun i => Ideal.tanh ((∑ k : Fin 128, (x (ix2 (i 0) k) + agg (ix2 (i 0) k)) * W (ix2 k (i 1))) + b (ix2 (0 : Fin 1) (i 1)))

/-- Node update from 64 columns. -/
def nodeG64 (x agg : Vec Ideal S100000x64 .f32) (W : Vec Ideal S64x64 .f32) (b : Vec Ideal S1x64 .f32) : Vec Ideal S100000x64 .f32 :=
  fun i => Ideal.tanh ((∑ k : Fin 64, (x (ix2 (i 0) k) + agg (ix2 (i 0) k)) * W (ix2 k (i 1))) + b (ix2 (0 : Fin 1) (i 1)))

/-- The last layer: `tanh (∑ₖ x r k · W k q)`. -/
def mtG (x : Vec Ideal S100000x64 .f32) (W : Vec Ideal S64x64 .f32) : Vec Ideal S100000x64 .f32 :=
  fun i => Ideal.tanh (∑ k : Fin 64, x (ix2 (i 0) k) * W (ix2 k (i 1)))

theorem bnG128_apply (x : Vec Ideal S100000x128 .f32) (mu va ga be : Vec Ideal S1x128 .f32) (r : Fin 100000) (q : Fin 128) :
    bnG128 x mu va ga be (ix2 r q) = ((x (ix2 r q) - mu (ix2 (0 : Fin 1) q)) * Ideal.rsqrt (va (ix2 (0 : Fin 1) q) + Ideal.ofBits .f32 0x3727C5AC#32))
      * ga (ix2 (0 : Fin 1) q) + be (ix2 (0 : Fin 1) q) := rfl
theorem bnG64_apply (x : Vec Ideal S100000x64 .f32) (mu va ga be : Vec Ideal S1x64 .f32) (r : Fin 100000) (q : Fin 64) :
    bnG64 x mu va ga be (ix2 r q) = ((x (ix2 r q) - mu (ix2 (0 : Fin 1) q)) * Ideal.rsqrt (va (ix2 (0 : Fin 1) q) + Ideal.ofBits .f32 0x3727C5AC#32))
      * ga (ix2 (0 : Fin 1) q) + be (ix2 (0 : Fin 1) q) := rfl
theorem nodeG128_apply (x agg : Vec Ideal S100000x128 .f32) (W : Vec Ideal S128x64 .f32) (b : Vec Ideal S1x64 .f32) (r : Fin 100000) (q : Fin 64) :
    nodeG128 x agg W b (ix2 r q) = Ideal.tanh ((∑ k : Fin 128, (x (ix2 r k) + agg (ix2 r k)) * W (ix2 k q)) + b (ix2 (0 : Fin 1) q)) := rfl
theorem nodeG64_apply (x agg : Vec Ideal S100000x64 .f32) (W : Vec Ideal S64x64 .f32) (b : Vec Ideal S1x64 .f32) (r : Fin 100000) (q : Fin 64) :
    nodeG64 x agg W b (ix2 r q) = Ideal.tanh ((∑ k : Fin 64, (x (ix2 r k) + agg (ix2 r k)) * W (ix2 k q)) + b (ix2 (0 : Fin 1) q)) := rfl
theorem mtG_apply (x : Vec Ideal S100000x64 .f32) (W : Vec Ideal S64x64 .f32) (r : Fin 100000) (q : Fin 64) :
    mtG x W (ix2 r q) = Ideal.tanh (∑ k : Fin 64, x (ix2 r k) * W (ix2 k q)) := rfl

end Cert.KernelIdeal.Hand

end
-- ==== Proof.PayIdx.lean ====
import proofs.«120795_j24472723652943_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
The six kernel bodies' stored values read at one element, at the ideal (extended real) instance.

* The three normalisation bodies store, at row `p` and column `q`,
  `((x[p,q] - mean[0,q]) * rsqrt (var[0,q] + eps)) * gamma[0,q] + beta[0,q]`, the four row
  vectors being `[1, C]` arrays laid along every row of the block.
* The two node-update bodies store `tanh ((∑ k, (x[p,k] + agg[p,k]) * W[k,q]) + b[0,q])`: the
  change of float format before the matrix product is the identity on extended reals, and the
  product accumulates into a zero array, so only the sum over the contracted axis is left.
* The last body stores `tanh (∑ k, x[p,k] * W[k,q])`.

The contraction index of each matrix product has one axis; the sum over it is re-indexed to a sum
over `Fin K`, and the operand indices at `(p, q)` and `k` are `(p, k)` and `(k, q)` by computation.
-/

noncomputable section

namespace Cert.PayIdx

open Idealize.ShloMosaic Idealize.ShloMosaic.ValueIdx
open Cert.KernelIdeal Cert.KernelIdeal.Gen

/-- A vector hyperbolic tangent at an index is the extended reals' function of the element. -/
theorem tanh_apply {s : Shape} {φ : FTy} (x : FVec Ideal s φ) (i : s.Idx) :
    Idealize.ShloMosaic.tanh x i = Ideal.tanh (x i) := rfl

/-- A vector reciprocal square root at an index is the extended reals' function of the element. -/
theorem rsqrt_apply {s : Shape} {φ : FTy} (x : FVec Ideal s φ) (i : s.Idx) :
    Idealize.ShloMosaic.rsqrt x i = Ideal.rsqrt (x i) := rfl

/-! ## The normalisation bodies -/

/-- The first normalisation body (128 columns) at `(p, q)`. -/
theorem k0_pay1_apply (v0 : Vec Ideal S5000x128 .f32) (v1 v3 v5 v7 : Vec Ideal S1x128 .f32)
    (p : Fin 5000) (q : Fin 128) :
    k0_pay1 (F := Ideal) v0 v1 v3 v5 v7 (ix2 p q)
      = ((v0 (ix2 p q) - v1 (ix2 (0 : Fin 1) q))
          * Ideal.rsqrt (v3 (ix2 (0 : Fin 1) q) + Ideal.ofBits .f32 0x3727C5AC#32))
          * v5 (ix2 (0 : Fin 1) q) + v7 (ix2 (0 : Fin 1) q) := by
  unfold k0_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The second normalisation body (64 columns) at `(p, q)`. -/
theorem k2_pay1_apply (v0 : Vec Ideal S5000x64 .f32) (v2 v4 v6 v8 : Vec Ideal S1x64 .f32)
    (p : Fin 5000) (q : Fin 64) :
    k2_pay1 (F := Ideal) v0 v2 v4 v6 v8 (ix2 p q)
      = ((v0 (ix2 p q) - v2 (ix2 (0 : Fin 1) q))
          * Ideal.rsqrt (v4 (ix2 (0 : Fin 1) q) + Ideal.ofBits .f32 0x3727C5AC#32))
          * v6 (ix2 (0 : Fin 1) q) + v8 (ix2 (0 : Fin 1) q) := by
  unfold k2_pay1
  simp only [shapeCast_self]
  rw [addf_apply, mulf_apply, mulf_apply, subf_apply,
    broadcastTo_1b_ab_apply, broadcastTo_1b_ab_apply, broadcastTo_1b_ab_apply, broadcastTo_1b_ab_apply]
  rfl

/-- The third normalisation body (64 columns) at `(p, q)`. -/
theorem k4_pay1_apply (v0 : Vec Ideal S5000x64 .f32) (v2 v4 v6 v8 : Vec Ideal S1x64 .f32)
    (p : Fin 5000) (q : Fin 64) :
    k4_pay1 (F := Ideal) v0 v2 v4 v6 v8 (ix2 p q)
      = ((v0 (ix2 p q) - v2 (ix2 (0 : Fin 1) q))
          * Ideal.rsqrt (v4 (ix2 (0 : Fin 1) q) + Ideal.ofBits .f32 0x3727C5AC#32))
          * v6 (ix2 (0 : Fin 1) q) + v8 (ix2 (0 : Fin 1) q) := by
  unfold k4_pay1
  simp only [shapeCast_self]
  rw [addf_apply, mulf_apply, mulf_apply, subf_apply,
    broadcastTo_1b_ab_apply, broadcastTo_1b_ab_apply, broadcastTo_1b_ab_apply, broadcastTo_1b_ab_apply]
  rfl

/-! ## The node-update bodies -/

/-- The first node update (128 features in, 64 out) at `(p, q)`. -/
theorem k1_pay1_apply (v0 v2 : Vec Ideal S5000x128 .f32) (v4 : Vec Ideal S128x64 .f32) (v5 : Vec Ideal S1x64 .f32)
    (p : Fin 5000) (q : Fin 64) :
    k1_pay1 (F := Ideal) v0 v2 v4 v5 (ix2 p q)
      = Ideal.tanh ((∑ k : Fin 128, (v0 (ix2 p k) + v2 (ix2 p k)) * v4 (ix2 k q)) + v5 (ix2 (0 : Fin 1) q)) := by
  unfold k1_pay1
  simp only [shapeCast_self]
  rw [tanh_apply, addf_apply, broadcastTo_1b_ab_apply]
  simp only [matmul]
  rw [Ideal.matmul_constant_zero_apply,
    ← Equiv.sum_comp (contrEquiv1 dot_S5000x128_S128x64_S5000x64_1_0_0_1_n_n 128 rfl rfl).symm]
  refine congrArg (fun s => Ideal.tanh (s + v5 (ix2 (0 : Fin 1) q))) (Finset.sum_congr rfl fun k _ => ?_)
  have hl : dot_S5000x128_S128x64_S5000x64_1_0_0_1_n_n.lhsIdx (ix2 p q)
      ((contrEquiv1 dot_S5000x128_S128x64_S5000x64_1_0_0_1_n_n 128 rfl rfl).symm k) = ix2 p k := by
    funext a
    match a with
    | ⟨0, _⟩ => rfl
    | ⟨1, _⟩ => rfl
  have hr : dot_S5000x128_S128x64_S5000x64_1_0_0_1_n_n.rhsIdx (ix2 p q)
      ((contrEquiv1 dot_S5000x128_S128x64_S5000x64_1_0_0_1_n_n 128 rfl rfl).symm k) = ix2 k q := by
    funext a
    match a with
    | ⟨0, _⟩ => rfl
    | ⟨1, _⟩ => rfl
  rw [hl, hr]
  rfl

/-- The second node update (64 features in, 64 out) at `(p, q)`. -/
theorem k3_pay1_apply (v0 v2 : Vec Ideal S5000x64 .f32) (v4 : Vec Ideal S64x64 .f32) (v5 : Vec Ideal S1x64 .f32)
    (p : Fin 5000) (q : Fin 64) :
    k3_pay1 (F := Ideal) v0 v2 v4 v5 (ix2 p q)
      = Ideal.tanh ((∑ k : Fin 64, (v0 (ix2 p k) + v2 (ix2 p k)) * v4 (ix2 k q)) + v5 (ix2 (0 : Fin 1) q)) := by
  unfold k3_pay1
  simp only [shapeCast_self]
  rw [tanh_apply, addf_apply, broadcastTo_1b_ab_apply]
  simp only [matmul]
  rw [Ideal.matmul_constant_zero_apply,
    ← Equiv.sum_comp (contrEquiv1 dot_S5000x64_S64x64_S5000x64_1_0_0_1_n_n 64 rfl rfl).symm]
  refine congrArg (fun s => Ideal.tanh (s + v5 (ix2 (0 : Fin 1) q))) (Finset.sum_congr rfl fun k _ => ?_)
  have hl : dot_S5000x64_S64x64_S5000x64_1_0_0_1_n_n.lhsIdx (ix2 p q)
      ((contrEquiv1 dot_S5000x64_S64x64_S5000x64_1_0_0_1_n_n 64 rfl rfl).symm k) = ix2 p k := by
    funext a
    match a with
    | ⟨0, _⟩ => rfl
    | ⟨1, _⟩ => rfl
  have hr : dot_S5000x64_S64x64_S5000x64_1_0_0_1_n_n.rhsIdx (ix2 p q)
      ((contrEquiv1 dot_S5000x64_S64x64_S5000x64_1_0_0_1_n_n 64 rfl rfl).symm k) = ix2 k q := by
    funext a
    match a with
    | ⟨0, _⟩ => rfl
    | ⟨1, _⟩ => rfl
  rw [hl, hr]
  rfl

/-! ## The last body: a matrix product and a hyperbolic tangent -/

/-- The last body at `(p, q)`. -/
theorem k5_pay1_apply (v0 : Vec Ideal S5000x64 .f32) (v2 : Vec Ideal S64x64 .f32) (p : Fin 5000) (q : Fin 64) :
    k5_pay1 (F := Ideal) v0 v2 (ix2 p q) = Ideal.tanh (∑ k : Fin 64, v0 (ix2 p k) * v2 (ix2 k q)) := by
  unfold k5_pay1
  simp only [shapeCast_self]
  rw [tanh_apply]
  simp only [matmul]
  rw [Ideal.matmul_constant_zero_apply,
    ← Equiv.sum_comp (contrEquiv1 dot_S5000x64_S64x64_S5000x64_1_0_0_1_n_n 64 rfl rfl).symm]
  refine congrArg Ideal.tanh (Finset.sum_congr rfl fun k _ => ?_)
  have hl : dot_S5000x64_S64x64_S5000x64_1_0_0_1_n_n.lhsIdx (ix2 p q)
      ((contrEquiv1 dot_S5000x64_S64x64_S5000x64_1_0_0_1_n_n 64 rfl rfl).symm k) = ix2 p k := by
    funext a
    match a with
    | ⟨0, _⟩ => rfl
    | ⟨1, _⟩ => rfl
  have hr : dot_S5000x64_S64x64_S5000x64_1_0_0_1_n_n.rhsIdx (ix2 p q)
      ((contrEquiv1 dot_S5000x64_S64x64_S5000x64_1_0_0_1_n_n 64 rfl rfl).symm k) = ix2 k q := by
    funext a
    match a with
    | ⟨0, _⟩ => rfl
    | ⟨1, _⟩ => rfl
  rw [hl, hr]
  rfl

end Cert.PayIdx

end
-- ==== Proof.KI.Val0.lean ====
import proofs.«120795_j24472723652943_2_alg».proof.Proof.KI.R0
import proofs.«120795_j24472723652943_2_alg».proof.Proof.KI.GDefs
import proofs.«120795_j24472723652943_2_alg».proof.Proof.PayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 0 read as a value: its output array after the twenty write-backs is `bnG128` of its operand arrays.
    The rows are cut into twenty blocks of 5000; the one-block operands are whole arrays. -/

variable (V : (c : Dev nD) → (b : Ref sig .tc) → Buf (Elt Ideal) ((c : Thread nD τ).loc b))

theorem hz0 : (![0, 0] : Fin 2 → Nat) = fun _ => 0 := funext fun a => by fin_cases a <;> rfl

/-- Row `p` of block `t`. -/
def row0 (t : Fin 20) (p : Fin 5000) : Fin 100000 := ⟨t.val * 5000 + p.val, by have := t.isLt; have := p.isLt; omega⟩

/-- The printed index maps over the grid: a row window's block index is the point, a one-block window's stays 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N0' : cfg0.N = 20 := by decide

/-- Block `t` of row operand 0 at (p, k) is its array at (row t p, k). -/
theorem blk0_0 (c : Dev nD) (t : Fin cfg0.N) (p : Fin 5000) (k : Fin 128) :
    iblk0 V c 0 t (ix2 p k) = V c main_arg0 (ix2 (row0 (t.cast N0') p) k) := by
  obtain ⟨e0, e1, -, -, -, -, -, -, -, -, -, -⟩ := idx_facts0 t
  show V c main_arg0 (((cfg0.win 0).blk t).view.emb (ix2 p k)) = V c main_arg0 _
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Operand 1's one block is its whole array. -/
theorem blk0_1 (c : Dev nD) (t : Fin cfg0.N) (i : Fin 1) (j : Fin 128) :
    iblk0 V c 1 t (ix2 i j) = V c main_v8 (ix2 i j) := by
  obtain ⟨-, -, e0, e1, -, -, -, -, -, -, -, -⟩ := idx_facts0 t
  show V c main_v8 (((cfg0.win 1).blk t).view.emb (ix2 i j)) = V c main_v8 _
  refine congrArg _ ?_
  funext a; apply Fin.ext
  match a with
  | ⟨0, _⟩ => show win0_1.index t (0 : Fin 2) * 1 + 1 * i.val = i.val; omega
  | ⟨1, _⟩ => show win0_1.index t (1 : Fin 2) * 128 + 1 * j.val = j.val; omega

/-- Operand 2's one block is its whole array. -/
theorem blk0_2 (c : Dev nD) (t : Fin cfg0.N) (i : Fin 1) (j : Fin 128) :
    iblk0 V c 2 t (ix2 i j) = V c main_v9 (ix2 i j) := by
  obtain ⟨-, -, -, -, e0, e1, -, -, -, -, -, -⟩ := idx_facts0 t
  show V c main_v9 (((cfg0.win 2).blk t).view.emb (ix2 i j)) = V c main_v9 _
  refine congrArg _ ?_
  funext a; apply Fin.ext
  match a with
  | ⟨0, _⟩ => show win0_2.index t (0 : Fin 2) * 1 + 1 * i.val = i.val; omega
  | ⟨1, _⟩ => show win0_2.index t (1 : Fin 2) * 128 + 1 * j.val = j.val; omega

/-- Operand 3's one block is its whole array. -/
theorem blk0_3 (c : Dev nD) (t : Fin cfg0.N) (i : Fin 1) (j : Fin 128) :
    iblk0 V c 3 t (ix2 i j) = V c main_v10 (ix2 i j) := by
  obtain ⟨-, -, -, -, -, -, e0, e1, -, -, -, -⟩ := idx_facts0 t
  show V c main_v10 (((cfg0.win 3).blk t).view.emb (ix2 i j)) = V c main_v10 _
  refine congrArg _ ?_
  funext a; apply Fin.ext
  match a with
  | ⟨0, _⟩ => show win0_3.index t (0 : Fin 2) * 1 + 1 * i.val = i.val; omega
  | ⟨1, _⟩ => show win0_3.index t (1 : Fin 2) * 128 + 1 * j.val = j.val; omega

/-- Operand 4's one block is its whole array. -/
theorem blk0_4 (c : Dev nD) (t : Fin cfg0.N) (i : Fin 1) (j : Fin 128) :
    iblk0 V c 4 t (ix2 i j) = V c main_v11 (ix2 i j) := by
  obtain ⟨-, -, -, -, -, -, -, -, e0, e1, -, -⟩ := idx_facts0 t
  show V c main_v11 (((cfg0.win 4).blk t).view.emb (ix2 i j)) = V c main_v11 _
  refine congrArg _ ?_
  funext a; apply Fin.ext
  match a with
  | ⟨0, _⟩ => show win0_4.index t (0 : Fin 2) * 1 + 1 * i.val = i.val; omega
  | ⟨1, _⟩ => show win0_4.index t (1 : Fin 2) * 128 + 1 * j.val = j.val; omega

/-- Where block `t` of the output sits in the array. -/
theorem emb0_out (t : Fin cfg0.N) (p : Fin 5000) (q : Fin 128) :
    ((cfg0.win 5).blk t).view.emb (ix2 p q) = ix2 (row0 (t.cast N0') p) q := by
  obtain ⟨-, -, -, -, -, -, -, -, -, -, e0, e1⟩ := idx_facts0 t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- What point `t` writes back is block `t` of the whole result. -/
theorem flushed0_eq (c : Dev nD) (t : Fin cfg0.N) :
    (dat0 V c).flushed 5 t = ((cfg0.win 5).blk t).view.read (Elt Ideal) (bnG128 (V c main_arg0) (V c main_v8) (V c main_v9) (V c main_v10) (V c main_v11)) := by
  show (cfg0.win 5).cut (grid0.coords t) ((dat0 V c).after 5 t) = _
  rw [after0_5]
  unfold out0
  rw [View.canon_unit_zero hz0]
  simp only [View.ld_unit_zero (S := S5000x128) hz0, View.ld_unit_zero (S := S1x128) hz0]
  funext j
  obtain ⟨p, q, rfl⟩ : ∃ (p : Fin 5000) (q : Fin 128), j = ix2 p q := ⟨j 0, j 1, eq_ix2 j⟩
  refine (Cert.PayIdx.k0_pay1_apply _ _ _ _ _ p q).trans ?_
  show _ = bnG128 (V c main_arg0) (V c main_v8) (V c main_v9) (V c main_v10) (V c main_v11) (((cfg0.win 5).blk t).view.emb (ix2 p q))
  rw [emb0_out, bnG128_apply]
  simp only [blk0_0, blk0_1, blk0_2, blk0_3, blk0_4]

/-- An index is in point `t`'s block iff each coordinate lies in the block's range. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v12).slice (win0_5.rect t)).set ↔ _
  rw [View.set_slice_whole, Rect.mem_set_unit]
  exact Iff.rfl

/-- Every index is in some point's block: row `r` in block `r / 5000`. -/
theorem cover0_out (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 5000, by rw [N0']; omega⟩, flush0_5 _, ?_⟩
  rw [mem_blk0]
  obtain ⟨-, -, -, -, -, -, -, -, -, -, e0, e1⟩ := idx_facts0 ⟨(i 0).val / 5000, by rw [N0']; omega⟩
  intro a
  match a with
  | ⟨0, _⟩ => show win0_5.index _ (0 : Fin 2) * 5000 ≤ (i 0).val ∧ (i 0).val < win0_5.index _ (0 : Fin 2) * 5000 + 5000; rw [e0]; show (i 0).val / 5000 * 5000 ≤ _ ∧ _ < (i 0).val / 5000 * 5000 + 5000; omega
  | ⟨1, _⟩ => show win0_5.index _ (1 : Fin 2) * 128 ≤ (i 1).val ∧ (i 1).val < win0_5.index _ (1 : Fin 2) * 128 + 128; rw [e1]; omega

/-- The output array after the region. -/
theorem final0 (c : Dev nD) : (dat0 V c).arrAt 5 cfg0.N = bnG128 (V c main_arg0) (V c main_v8) (V c main_v9) (V c main_v10) (V c main_v11) :=
  (dat0 V c).arrAt_eq_of_cover 5 _ (fun t _ => flushed0_eq V c t) cover0_out

end Cert.KernelIdeal.Hand

end
-- ==== Proof.KI.Val1.lean ====
import proofs.«120795_j24472723652943_2_alg».proof.Proof.KI.R1
import proofs.«120795_j24472723652943_2_alg».proof.Proof.KI.GDefs
import proofs.«120795_j24472723652943_2_alg».proof.Proof.PayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 1 read as a value: its output array after the twenty write-backs is `nodeG128` of its operand arrays.
    The rows are cut into twenty blocks of 5000; the one-block operands are whole arrays. -/

variable (V : (c : Dev nD) → (b : Ref sig .tc) → Buf (Elt Ideal) ((c : Thread nD τ).loc b))

theorem hz1 : (![0, 0] : Fin 2 → Nat) = fun _ => 0 := funext fun a => by fin_cases a <;> rfl

/-- Row `p` of block `t`. -/
def row1 (t : Fin 20) (p : Fin 5000) : Fin 100000 := ⟨t.val * 5000 + p.val, by have := t.isLt; have := p.isLt; omega⟩

/-- The printed index maps over the grid: a row window's block index is the point, a one-block window's stays 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem N1' : cfg1.N = 20 := by decide

/-- Block `t` of row operand 0 at (p, k) is its array at (row t p, k). -/
theorem blk1_0 (c : Dev nD) (t : Fin cfg1.N) (p : Fin 5000) (k : Fin 128) :
    iblk1 V c 0 t (ix2 p k) = V c main_v12 (ix2 (row1 (t.cast N1') p) k) := by
  obtain ⟨e0, e1, -, -, -, -, -, -, -, -⟩ := idx_facts1 t
  show V c main_v12 (((cfg1.win 0).blk t).view.emb (ix2 p k)) = V c main_v12 _
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Block `t` of row operand 1 at (p, k) is its array at (row t p, k). -/
theorem blk1_1 (c : Dev nD) (t : Fin cfg1.N) (p : Fin 5000) (k : Fin 128) :
    iblk1 V c 1 t (ix2 p k) = V c main_v30 (ix2 (row1 (t.cast N1') p) k) := by
  obtain ⟨-, -, e0, e1, -, -, -, -, -, -⟩ := idx_facts1 t
  show V c main_v30 (((cfg1.win 1).blk t).view.emb (ix2 p k)) = V c main_v30 _
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Operand 2's one block is its whole array. -/
theorem blk1_2 (c : Dev nD) (t : Fin cfg1.N) (i : Fin 128) (j : Fin 64) :
    iblk1 V c 2 t (ix2 i j) = V c main_arg7 (ix2 i j) := by
  obtain ⟨-, -, -, -, e0, e1, -, -, -, -⟩ := idx_facts1 t
  show V c main_arg7 (((cfg1.win 2).blk t).view.emb (ix2 i j)) = V c main_arg7 _
  refine congrArg _ ?_
  funext a; apply Fin.ext
  match a with
  | ⟨0, _⟩ => show win1_2.index t (0 : Fin 2) * 128 + 1 * i.val = i.val; omega
  | ⟨1, _⟩ => show win1_2.index t (1 : Fin 2) * 64 + 1 * j.val = j.val; omega

/-- Operand 3's one block is its whole array. -/
theorem blk1_3 (c : Dev nD) (t : Fin cfg1.N) (i : Fin 1) (j : Fin 64) :
    iblk1 V c 3 t (ix2 i j) = V c main_v31 (ix2 i j) := by
  obtain ⟨-, -, -, -, -, -, e0, e1, -, -⟩ := idx_facts1 t
  show V c main_v31 (((cfg1.win 3).blk t).view.emb (ix2 i j)) = V c main_v31 _
  refine congrArg _ ?_
  funext a; apply Fin.ext
  match a with
  | ⟨0, _⟩ => show win1_3.index t (0 : Fin 2) * 1 + 1 * i.val = i.val; omega
  | ⟨1, _⟩ => show win1_3.index t (1 : Fin 2) * 64 + 1 * j.val = j.val; omega

/-- Where block `t` of the output sits in the array. -/
theorem emb1_out (t : Fin cfg1.N) (p : Fin 5000) (q : Fin 64) :
    ((cfg1.win 4).blk t).view.emb (ix2 p q) = ix2 (row1 (t.cast N1') p) q := by
  obtain ⟨-, -, -, -, -, -, -, -, e0, e1⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- What point `t` writes back is block `t` of the whole result. -/
theorem flushed1_eq (c : Dev nD) (t : Fin cfg1.N) :
    (dat1 V c).flushed 4 t = ((cfg1.win 4).blk t).view.read (Elt Ideal) (nodeG128 (V c main_v12) (V c main_v30) (V c main_arg7) (V c main_v31)) := by
  show (cfg1.win 4).cut (grid1.coords t) ((dat1 V c).after 4 t) = _
  rw [after1_4]
  unfold out1
  rw [View.canon_unit_zero hz1]
  simp only [View.ld_unit_zero (S := S5000x128) hz1, View.ld_unit_zero (S := S128x64) hz1, View.ld_unit_zero (S := S1x64) hz1, View.ld_unit_zero (S := S5000x64) hz1]
  funext j
  obtain ⟨p, q, rfl⟩ : ∃ (p : Fin 5000) (q : Fin 64), j = ix2 p q := ⟨j 0, j 1, eq_ix2 j⟩
  refine (Cert.PayIdx.k1_pay1_apply _ _ _ _ p q).trans ?_
  show _ = nodeG128 (V c main_v12) (V c main_v30) (V c main_arg7) (V c main_v31) (((cfg1.win 4).blk t).view.emb (ix2 p q))
  rw [emb1_out, nodeG128_apply]
  simp only [blk1_0, blk1_1, blk1_2, blk1_3]

/-- An index is in point `t`'s block iff each coordinate lies in the block's range. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v32).slice (win1_4.rect t)).set ↔ _
  rw [View.set_slice_whole, Rect.mem_set_unit]
  exact Iff.rfl

/-- Every index is in some point's block: row `r` in block `r / 5000`. -/
theorem cover1_out (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  refine ⟨⟨(i 0).val / 5000, by rw [N1']; omega⟩, flush1_4 _, ?_⟩
  rw [mem_blk1]
  obtain ⟨-, -, -, -, -, -, -, -, e0, e1⟩ := idx_facts1 ⟨(i 0).val / 5000, by rw [N1']; omega⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ _ ∧ _ < (i 0).val / 5000 * 5000 + 5000; omega
  | ⟨1, _⟩ => show win1_4.index _ (1 : Fin 2) * 64 ≤ (i 1).val ∧ (i 1).val < win1_4.index _ (1 : Fin 2) * 64 + 64; rw [e1]; omega

/-- The output array after the region. -/
theorem final1 (c : Dev nD) : (dat1 V c).arrAt 4 cfg1.N = nodeG128 (V c main_v12) (V c main_v30) (V c main_arg7) (V c main_v31) :=
  (dat1 V c).arrAt_eq_of_cover 4 _ (fun t _ => flushed1_eq V c t) cover1_out

end Cert.KernelIdeal.Hand

end
-- ==== Proof.KI.Val2.lean ====
import proofs.«120795_j24472723652943_2_alg».proof.Proof.KI.R2
import proofs.«120795_j24472723652943_2_alg».proof.Proof.KI.GDefs
import proofs.«120795_j24472723652943_2_alg».proof.Proof.PayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 2 read as a value: its output array after the twenty write-backs is `bnG64` of its operand arrays.
    The rows are cut into twenty blocks of 5000; the one-block operands are whole arrays. -/

variable (V : (c : Dev nD) → (b : Ref sig .tc) → Buf (Elt Ideal) ((c : Thread nD τ).loc b))

theorem hz2 : (![0, 0] : Fin 2 → Nat) = fun _ => 0 := funext fun a => by fin_cases a <;> rfl

/-- Row `p` of block `t`. -/
def row2 (t : Fin 20) (p : Fin 5000) : Fin 100000 := ⟨t.val * 5000 + p.val, by have := t.isLt; have := p.isLt; omega⟩

/-- The printed index maps over the grid: a row window's block index is the point, a one-block window's stays 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem N2' : cfg2.N = 20 := by decide

/-- Block `t` of row operand 0 at (p, k) is its array at (row t p, k). -/
theorem blk2_0 (c : Dev nD) (t : Fin cfg2.N) (p : Fin 5000) (k : Fin 64) :
    iblk2 V c 0 t (ix2 p k) = V c main_v32 (ix2 (row2 (t.cast N2') p) k) := by
  obtain ⟨e0, e1, -, -, -, -, -, -, -, -, -, -⟩ := idx_facts2 t
  show V c main_v32 (((cfg2.win 0).blk t).view.emb (ix2 p k)) = V c main_v32 _
  refine congrArg _ ?_
  funext a; apply Fin.ext
  match a with
  | ⟨0, _⟩ => show win2_0.index t (0 : Fin 2) * 5000 + 1 * p.val = t.val * 5000 + p.val; omega
  | ⟨1, _⟩ => show win2_0.index t (1 : Fin 2) * 64 + 1 * k.val = k.val; omega

/-- Operand 1's one block is its whole array. -/
theorem blk2_1 (c : Dev nD) (t : Fin cfg2.N) (i : Fin 1) (j : Fin 64) :
    iblk2 V c 1 t (ix2 i j) = V c main_v37 (ix2 i j) := by
  obtain ⟨-, -, e0, e1, -, -, -, -, -, -, -, -⟩ := idx_facts2 t
  show V c main_v37 (((cfg2.win 1).blk t).view.emb (ix2 i j)) = V c main_v37 _
  refine congrArg _ ?_
  funext a; apply Fin.ext
  match a with
  | ⟨0, _⟩ => show win2_1.index t (0 : Fin 2) * 1 + 1 * i.val = i.val; omega
  | ⟨1, _⟩ => show win2_1.index t (1 : Fin 2) * 64 + 1 * j.val = j.val; omega

/-- Operand 2's one block is its whole array. -/
theorem blk2_2 (c : Dev nD) (t : Fin cfg2.N) (i : Fin 1) (j : Fin 64) :
    iblk2 V c 2 t (ix2 i j) = V c main_v38 (ix2 i j) := by
  obtain ⟨-, -, -, -, e0, e1, -, -, -, -, -, -⟩ := idx_facts2 t
  show V c main_v38 (((cfg2.win 2).blk t).view.emb (ix2 i j)) = V c main_v38 _
  refine congrArg _ ?_
  funext a; apply Fin.ext
  match a with
  | ⟨0, _⟩ => show win2_2.index t (0 : Fin 2) * 1 + 1 * i.val = i.val; omega
  | ⟨1, _⟩ => show win2_2.index t (1 : Fin 2) * 64 + 1 * j.val = j.val; omega

/-- Operand 3's one block is its whole array. -/
theorem blk2_3 (c : Dev nD) (t : Fin cfg2.N) (i : Fin 1) (j : Fin 64) :
    iblk2 V c 3 t (ix2 i j) = V c main_v39 (ix2 i j) := by
  obtain ⟨-, -, -, -, -, -, e0, e1, -, -, -, -⟩ := idx_facts2 t
  show V c main_v39 (((cfg2.win 3).blk t).view.emb (ix2 i j)) = V c main_v39 _
  refine congrArg _ ?_
  funext a; apply Fin.ext
  match a with
  | ⟨0, _⟩ => show win2_3.index t (0 : Fin 2) * 1 + 1 * i.val = i.val; omega
  | ⟨1, _⟩ => show win2_3.index t (1 : Fin 2) * 64 + 1 * j.val = j.val; omega

/-- Operand 4's one block is its whole array. -/
theorem blk2_4 (c : Dev nD) (t : Fin cfg2.N) (i : Fin 1) (j : Fin 64) :
    iblk2 V c 4 t (ix2 i j) = V c main_v40 (ix2 i j) := by
  obtain ⟨-, -, -, -, -, -, -, -, e0, e1, -, -⟩ := idx_facts2 t
  show V c main_v40 (((cfg2.win 4).blk t).view.emb (ix2 i j)) = V c main_v40 _
  refine congrArg _ ?_
  funext a; apply Fin.ext
  match a with
  | ⟨0, _⟩ => show win2_4.index t (0 : Fin 2) * 1 + 1 * i.val = i.val; omega
  | ⟨1, _⟩ => show win2_4.index t (1 : Fin 2) * 64 + 1 * j.val = j.val; omega

/-- Where block `t` of the output sits in the array. -/
theorem emb2_out (t : Fin cfg2.N) (p : Fin 5000) (q : Fin 64) :
    ((cfg2.win 5).blk t).view.emb (ix2 p q) = ix2 (row2 (t.cast N2') p) q := by
  obtain ⟨-, -, -, -, -, -, -, -, -, -, e0, e1⟩ := idx_facts2 t
  funext a; apply Fin.ext
  match a with
  | ⟨0, _⟩ => show win2_5.index t (0 : Fin 2) * 5000 + 1 * p.val = t.val * 5000 + p.val; omega
  | ⟨1, _⟩ => show win2_5.index t (1 : Fin 2) * 64 + 1 * q.val = q.val; omega

/-- What point `t` writes back is block `t` of the whole result. -/
theorem flushed2_eq (c : Dev nD) (t : Fin cfg2.N) :
    (dat2 V c).flushed 5 t = ((cfg2.win 5).blk t).view.read (Elt Ideal) (bnG64 (V c main_v32) (V c main_v37) (V c main_v38) (V c main_v39) (V c main_v40)) := by
  show (cfg2.win 5).cut (grid2.coords t) ((dat2 V c).after 5 t) = _
  rw [after2_5]
  unfold out2
  rw [View.canon_unit_zero hz2]
  simp only [View.ld_unit_zero (S := S5000x64) hz2, View.ld_unit_zero (S := S1x64) hz2]
  funext j
  obtain ⟨p, q, rfl⟩ : ∃ (p : Fin 5000) (q : Fin 64), j = ix2 p q := ⟨j 0, j 1, eq_ix2 j⟩
  refine (Cert.PayIdx.k2_pay1_apply _ _ _ _ _ p q).trans ?_
  show _ = bnG64 (V c main_v32) (V c main_v37) (V c main_v38) (V c main_v39) (V c main_v40) (((cfg2.win 5).blk t).view.emb (ix2 p q))
  rw [emb2_out, bnG64_apply]
  simp only [blk2_0, blk2_1, blk2_2, blk2_3, blk2_4]

/-- An index is in point `t`'s block iff each coordinate lies in the block's range. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v41).slice (win2_5.rect t)).set ↔ _
  rw [View.set_slice_whole, Rect.mem_set_unit]
  exact Iff.rfl

/-- Every index is in some point's block: row `r` in block `r / 5000`. -/
theorem cover2_out (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  refine ⟨⟨(i 0).val / 5000, by rw [N2']; omega⟩, flush2_5 _, ?_⟩
  rw [mem_blk2]
  obtain ⟨-, -, -, -, -, -, -, -, -, -, e0, e1⟩ := idx_facts2 ⟨(i 0).val / 5000, by rw [N2']; omega⟩
  intro a
  match a with
  | ⟨0, _⟩ => show win2_5.index _ (0 : Fin 2) * 5000 ≤ (i 0).val ∧ (i 0).val < win2_5.index _ (0 : Fin 2) * 5000 + 5000; rw [e0]; show (i 0).val / 5000 * 5000 ≤ _ ∧ _ < (i 0).val / 5000 * 5000 + 5000; omega
  | ⟨1, _⟩ => show win2_5.index _ (1 : Fin 2) * 64 ≤ (i 1).val ∧ (i 1).val < win2_5.index _ (1 : Fin 2) * 64 + 64; rw [e1]; omega

/-- The output array after the region. -/
theorem final2 (c : Dev nD) : (dat2 V c).arrAt 5 cfg2.N = bnG64 (V c main_v32) (V c main_v37) (V c main_v38) (V c main_v39) (V c main_v40) :=
  (dat2 V c).arrAt_eq_of_cover 5 _ (fun t _ => flushed2_eq V c t) cover2_out

end Cert.KernelIdeal.Hand

end
-- ==== Proof.KI.Val3.lean ====
import proofs.«120795_j24472723652943_2_alg».proof.Proof.KI.R3
import proofs.«120795_j24472723652943_2_alg».proof.Proof.KI.GDefs
import proofs.«120795_j24472723652943_2_alg».proof.Proof.PayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 3 read as a value: its output array after the twenty write-backs is `nodeG64` of its operand arrays.
    The rows are cut into twenty blocks of 5000; the one-block operands are whole arrays. -/

variable (V : (c : Dev nD) → (b : Ref sig .tc) → Buf (Elt Ideal) ((c : Thread nD τ).loc b))

theorem hz3 : (![0, 0] : Fin 2 → Nat) = fun _ => 0 := funext fun a => by fin_cases a <;> rfl

/-- Row `p` of block `t`. -/
def row3 (t : Fin 20) (p : Fin 5000) : Fin 100000 := ⟨t.val * 5000 + p.val, by have := t.isLt; have := p.isLt; omega⟩

/-- The printed index maps over the grid: a row window's block index is the point, a one-block window's stays 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem N3' : cfg3.N = 20 := by decide

/-- Block `t` of row operand 0 at (p, k) is its array at (row t p, k). -/
theorem blk3_0 (c : Dev nD) (t : Fin cfg3.N) (p : Fin 5000) (k : Fin 64) :
    iblk3 V c 0 t (ix2 p k) = V c main_v41 (ix2 (row3 (t.cast N3') p) k) := by
  obtain ⟨e0, e1, -, -, -, -, -, -, -, -⟩ := idx_facts3 t
  show V c main_v41 (((cfg3.win 0).blk t).view.emb (ix2 p k)) = V c main_v41 _
  refine congrArg _ ?_
  funext a; apply Fin.ext
  match a with
  | ⟨0, _⟩ => show win3_0.index t (0 : Fin 2) * 5000 + 1 * p.val = t.val * 5000 + p.val; omega
  | ⟨1, _⟩ => show win3_0.index t (1 : Fin 2) * 64 + 1 * k.val = k.val; omega

/-- Block `t` of row operand 1 at (p, k) is its array at (row t p, k). -/
theorem blk3_1 (c : Dev nD) (t : Fin cfg3.N) (p : Fin 5000) (k : Fin 64) :
    iblk3 V c 1 t (ix2 p k) = V c main_v59 (ix2 (row3 (t.cast N3') p) k) := by
  obtain ⟨-, -, e0, e1, -, -, -, -, -, -⟩ := idx_facts3 t
  show V c main_v59 (((cfg3.win 1).blk t).view.emb (ix2 p k)) = V c main_v59 _
  refine congrArg _ ?_
  funext a; apply Fin.ext
  match a with
  | ⟨0, _⟩ => show win3_1.index t (0 : Fin 2) * 5000 + 1 * p.val = t.val * 5000 + p.val; omega
  | ⟨1, _⟩ => show win3_1.index t (1 : Fin 2) * 64 + 1 * k.val = k.val; omega

/-- Operand 2's one block is its whole array. -/
theorem blk3_2 (c : Dev nD) (t : Fin cfg3.N) (i : Fin 64) (j : Fin 64) :
    iblk3 V c 2 t (ix2 i j) = V c main_arg13 (ix2 i j) := by
  obtain ⟨-, -, -, -, e0, e1, -, -, -, -⟩ := idx_facts3 t
  show V c main_arg13 (((cfg3.win 2).blk t).view.emb (ix2 i j)) = V c main_arg13 _
  refine congrArg _ ?_
  funext a; apply Fin.ext
  match a with
  | ⟨0, _⟩ => show win3_2.index t (0 : Fin 2) * 64 + 1 * i.val = i.val; omega
  | ⟨1, _⟩ => show win3_2.index t (1 : Fin 2) * 64 + 1 * j.val = j.val; omega

/-- Operand 3's one block is its whole array. -/
theorem blk3_3 (c : Dev nD) (t : Fin cfg3.N) (i : Fin 1) (j : Fin 64) :
    iblk3 V c 3 t (ix2 i j) = V c main_v60 (ix2 i j) := by
  obtain ⟨-, -, -, -, -, -, e0, e1, -, -⟩ := idx_facts3 t
  show V c main_v60 (((cfg3.win 3).blk t).view.emb (ix2 i j)) = V c main_v60 _
  refine congrArg _ ?_
  funext a; apply Fin.ext
  match a with
  | ⟨0, _⟩ => show win3_3.index t (0 : Fin 2) * 1 + 1 * i.val = i.val; omega
  | ⟨1, _⟩ => show win3_3.index t (1 : Fin 2) * 64 + 1 * j.val = j.val; omega

/-- Where block `t` of the output sits in the array. -/
theorem emb3_out (t : Fin cfg3.N) (p : Fin 5000) (q : Fin 64) :
    ((cfg3.win 4).blk t).view.emb (ix2 p q) = ix2 (row3 (t.cast N3') p) q := by
  obtain ⟨-, -, -, -, -, -, -, -, e0, e1⟩ := idx_facts3 t
  funext a; apply Fin.ext
  match a with
  | ⟨0, _⟩ => show win3_4.index t (0 : Fin 2) * 5000 + 1 * p.val = t.val * 5000 + p.val; omega
  | ⟨1, _⟩ => show win3_4.index t (1 : Fin 2) * 64 + 1 * q.val = q.val; omega

/-- What point `t` writes back is block `t` of the whole result. -/
theorem flushed3_eq (c : Dev nD) (t : Fin cfg3.N) :
    (dat3 V c).flushed 4 t = ((cfg3.win 4).blk t).view.read (Elt Ideal) (nodeG64 (V c main_v41) (V c main_v59) (V c main_arg13) (V c main_v60)) := by
  show (cfg3.win 4).cut (grid3.coords t) ((dat3 V c).after 4 t) = _
  rw [after3_4]
  unfold out3
  rw [View.canon_unit_zero hz3]
  simp only [View.ld_unit_zero (S := S5000x64) hz3, View.ld_unit_zero (S := S64x64) hz3, View.ld_unit_zero (S := S1x64) hz3]
  funext j
  obtain ⟨p, q, rfl⟩ : ∃ (p : Fin 5000) (q : Fin 64), j = ix2 p q := ⟨j 0, j 1, eq_ix2 j⟩
  refine (Cert.PayIdx.k3_pay1_apply _ _ _ _ p q).trans ?_
  show _ = nodeG64 (V c main_v41) (V c main_v59) (V c main_arg13) (V c main_v60) (((cfg3.win 4).blk t).view.emb (ix2 p q))
  rw [emb3_out, nodeG64_apply]
  simp only [blk3_0, blk3_1, blk3_2, blk3_3]

/-- An index is in point `t`'s block iff each coordinate lies in the block's range. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v61).slice (win3_4.rect t)).set ↔ _
  rw [View.set_slice_whole, Rect.mem_set_unit]
  exact Iff.rfl

/-- Every index is in some point's block: row `r` in block `r / 5000`. -/
theorem cover3_out (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  refine ⟨⟨(i 0).val / 5000, by rw [N3']; omega⟩, flush3_4 _, ?_⟩
  rw [mem_blk3]
  obtain ⟨-, -, -, -, -, -, -, -, e0, e1⟩ := idx_facts3 ⟨(i 0).val / 5000, by rw [N3']; omega⟩
  intro a
  match a with
  | ⟨0, _⟩ => show win3_4.index _ (0 : Fin 2) * 5000 ≤ (i 0).val ∧ (i 0).val < win3_4.index _ (0 : Fin 2) * 5000 + 5000; rw [e0]; show (i 0).val / 5000 * 5000 ≤ _ ∧ _ < (i 0).val / 5000 * 5000 + 5000; omega
  | ⟨1, _⟩ => show win3_4.index _ (1 : Fin 2) * 64 ≤ (i 1).val ∧ (i 1).val < win3_4.index _ (1 : Fin 2) * 64 + 64; rw [e1]; omega

/-- The output array after the region. -/
theorem final3 (c : Dev nD) : (dat3 V c).arrAt 4 cfg3.N = nodeG64 (V c main_v41) (V c main_v59) (V c main_arg13) (V c main_v60) :=
  (dat3 V c).arrAt_eq_of_cover 4 _ (fun t _ => flushed3_eq V c t) cover3_out

end Cert.KernelIdeal.Hand

end
-- ==== Proof.KI.Val4.lean ====
import proofs.«120795_j24472723652943_2_alg».proof.Proof.KI.R4
import proofs.«120795_j24472723652943_2_alg».proof.Proof.KI.GDefs
import proofs.«120795_j24472723652943_2_alg».proof.Proof.PayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 4 read as a value: its output array after the twenty write-backs is `bnG64` of its operand arrays.
    The rows are cut into twenty blocks of 5000; the one-block operands are whole arrays. -/

variable (V : (c : Dev nD) → (b : Ref sig .tc) → Buf (Elt Ideal) ((c : Thread nD τ).loc b))

theorem hz4 : (![0, 0] : Fin 2 → Nat) = fun _ => 0 := funext fun a => by fin_cases a <;> rfl

/-- Row `p` of block `t`. -/
def row4 (t : Fin 20) (p : Fin 5000) : Fin 100000 := ⟨t.val * 5000 + p.val, by have := t.isLt; have := p.isLt; omega⟩

/-- The printed index maps over the grid: a row window's block index is the point, a one-block window's stays 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem N4' : cfg4.N = 20 := by decide

/-- Block `t` of row operand 0 at (p, k) is its array at (row t p, k). -/
theorem blk4_0 (c : Dev nD) (t : Fin cfg4.N) (p : Fin 5000) (k : Fin 64) :
    iblk4 V c 0 t (ix2 p k) = V c main_v61 (ix2 (row4 (t.cast N4') p) k) := by
  obtain ⟨e0, e1, -, -, -, -, -, -, -, -, -, -⟩ := idx_facts4 t
  show V c main_v61 (((cfg4.win 0).blk t).view.emb (ix2 p k)) = V c main_v61 _
  refine congrArg _ ?_
  funext a; apply Fin.ext
  match a with
  | ⟨0, _⟩ => show win4_0.index t (0 : Fin 2) * 5000 + 1 * p.val = t.val * 5000 + p.val; omega
  | ⟨1, _⟩ => show win4_0.index t (1 : Fin 2) * 64 + 1 * k.val = k.val; omega

/-- Operand 1's one block is its whole array. -/
theorem blk4_1 (c : Dev nD) (t : Fin cfg4.N) (i : Fin 1) (j : Fin 64) :
    iblk4 V c 1 t (ix2 i j) = V c main_v66 (ix2 i j) := by
  obtain ⟨-, -, e0, e1, -, -, -, -, -, -, -, -⟩ := idx_facts4 t
  show V c main_v66 (((cfg4.win 1).blk t).view.emb (ix2 i j)) = V c main_v66 _
  refine congrArg _ ?_
  funext a; apply Fin.ext
  match a with
  | ⟨0, _⟩ => show win4_1.index t (0 : Fin 2) * 1 + 1 * i.val = i.val; omega
  | ⟨1, _⟩ => show win4_1.index t (1 : Fin 2) * 64 + 1 * j.val = j.val; omega

/-- Operand 2's one block is its whole array. -/
theorem blk4_2 (c : Dev nD) (t : Fin cfg4.N) (i : Fin 1) (j : Fin 64) :
    iblk4 V c 2 t (ix2 i j) = V c main_v67 (ix2 i j) := by
  obtain ⟨-, -, -, -, e0, e1, -, -, -, -, -, -⟩ := idx_facts4 t
  show V c main_v67 (((cfg4.win 2).blk t).view.emb (ix2 i j)) = V c main_v67 _
  refine congrArg _ ?_
  funext a; apply Fin.ext
  match a with
  | ⟨0, _⟩ => show win4_2.index t (0 : Fin 2) * 1 + 1 * i.val = i.val; omega
  | ⟨1, _⟩ => show win4_2.index t (1 : Fin 2) * 64 + 1 * j.val = j.val; omega

/-- Operand 3's one block is its whole array. -/
theorem blk4_3 (c : Dev nD) (t : Fin cfg4.N) (i : Fin 1) (j : Fin 64) :
    iblk4 V c 3 t (ix2 i j) = V c main_v68 (ix2 i j) := by
  obtain ⟨-, -, -, -, -, -, e0, e1, -, -, -, -⟩ := idx_facts4 t
  show V c main_v68 (((cfg4.win 3).blk t).view.emb (ix2 i j)) = V c main_v68 _
  refine congrArg _ ?_
  funext a; apply Fin.ext
  match a with
  | ⟨0, _⟩ => show win4_3.index t (0 : Fin 2) * 1 + 1 * i.val = i.val; omega
  | ⟨1, _⟩ => show win4_3.index t (1 : Fin 2) * 64 + 1 * j.val = j.val; omega

/-- Operand 4's one block is its whole array. -/
theorem blk4_4 (c : Dev nD) (t : Fin cfg4.N) (i : Fin 1) (j : Fin 64) :
    iblk4 V c 4 t (ix2 i j) = V c main_v69 (ix2 i j) := by
  obtain ⟨-, -, -, -, -, -, -, -, e0, e1, -, -⟩ := idx_facts4 t
  show V c main_v69 (((cfg4.win 4).blk t).view.emb (ix2 i j)) = V c main_v69 _
  refine congrArg _ ?_
  funext a; apply Fin.ext
  match a with
  | ⟨0, _⟩ => show win4_4.index t (0 : Fin 2) * 1 + 1 * i.val = i.val; omega
  | ⟨1, _⟩ => show win4_4.index t (1 : Fin 2) * 64 + 1 * j.val = j.val; omega

/-- Where block `t` of the output sits in the array. -/
theorem emb4_out (t : Fin cfg4.N) (p : Fin 5000) (q : Fin 64) :
    ((cfg4.win 5).blk t).view.emb (ix2 p q) = ix2 (row4 (t.cast N4') p) q := by
  obtain ⟨-, -, -, -, -, -, -, -, -, -, e0, e1⟩ := idx_facts4 t
  funext a; apply Fin.ext
  match a with
  | ⟨0, _⟩ => show win4_5.index t (0 : Fin 2) * 5000 + 1 * p.val = t.val * 5000 + p.val; omega
  | ⟨1, _⟩ => show win4_5.index t (1 : Fin 2) * 64 + 1 * q.val = q.val; omega

/-- What point `t` writes back is block `t` of the whole result. -/
theorem flushed4_eq (c : Dev nD) (t : Fin cfg4.N) :
    (dat4 V c).flushed 5 t = ((cfg4.win 5).blk t).view.read (Elt Ideal) (bnG64 (V c main_v61) (V c main_v66) (V c main_v67) (V c main_v68) (V c main_v69)) := by
  show (cfg4.win 5).cut (grid4.coords t) ((dat4 V c).after 5 t) = _
  rw [after4_5]
  unfold out4
  rw [View.canon_unit_zero hz4]
  simp only [View.ld_unit_zero (S := S5000x64) hz4, View.ld_unit_zero (S := S1x64) hz4]
  funext j
  obtain ⟨p, q, rfl⟩ : ∃ (p : Fin 5000) (q : Fin 64), j = ix2 p q := ⟨j 0, j 1, eq_ix2 j⟩
  refine (Cert.PayIdx.k4_pay1_apply _ _ _ _ _ p q).trans ?_
  show _ = bnG64 (V c main_v61) (V c main_v66) (V c main_v67) (V c main_v68) (V c main_v69) (((cfg4.win 5).blk t).view.emb (ix2 p q))
  rw [emb4_out, bnG64_apply]
  simp only [blk4_0, blk4_1, blk4_2, blk4_3, blk4_4]

/-- An index is in point `t`'s block iff each coordinate lies in the block's range. -/
theorem mem_blk4 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v70).slice (win4_5.rect t)).set ↔ _
  rw [View.set_slice_whole, Rect.mem_set_unit]
  exact Iff.rfl

/-- Every index is in some point's block: row `r` in block `r / 5000`. -/
theorem cover4_out (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  refine ⟨⟨(i 0).val / 5000, by rw [N4']; omega⟩, flush4_5 _, ?_⟩
  rw [mem_blk4]
  obtain ⟨-, -, -, -, -, -, -, -, -, -, e0, e1⟩ := idx_facts4 ⟨(i 0).val / 5000, by rw [N4']; omega⟩
  intro a
  match a with
  | ⟨0, _⟩ => show win4_5.index _ (0 : Fin 2) * 5000 ≤ (i 0).val ∧ (i 0).val < win4_5.index _ (0 : Fin 2) * 5000 + 5000; rw [e0]; show (i 0).val / 5000 * 5000 ≤ _ ∧ _ < (i 0).val / 5000 * 5000 + 5000; omega
  | ⟨1, _⟩ => show win4_5.index _ (1 : Fin 2) * 64 ≤ (i 1).val ∧ (i 1).val < win4_5.index _ (1 : Fin 2) * 64 + 64; rw [e1]; omega

/-- The output array after the region. -/
theorem final4 (c : Dev nD) : (dat4 V c).arrAt 5 cfg4.N = bnG64 (V c main_v61) (V c main_v66) (V c main_v67) (V c main_v68) (V c main_v69) :=
  (dat4 V c).arrAt_eq_of_cover 5 _ (fun t _ => flushed4_eq V c t) cover4_out

end Cert.KernelIdeal.Hand

end
-- ==== Proof.KI.Val5.lean ====
import proofs.«120795_j24472723652943_2_alg».proof.Proof.KI.R5
import proofs.«120795_j24472723652943_2_alg».proof.Proof.KI.GDefs
import proofs.«120795_j24472723652943_2_alg».proof.Proof.PayIdx
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! # Region 5 read as a value: its output array after the twenty write-backs is `mtG` of its operand arrays.
    The rows are cut into twenty blocks of 5000; the one-block operands are whole arrays. -/

variable (V : (c : Dev nD) → (b : Ref sig .tc) → Buf (Elt Ideal) ((c : Thread nD τ).loc b))

theorem hz5 : (![0, 0] : Fin 2 → Nat) = fun _ => 0 := funext fun a => by fin_cases a <;> rfl

/-- Row `p` of block `t`. -/
def row5 (t : Fin 20) (p : Fin 5000) : Fin 100000 := ⟨t.val * 5000 + p.val, by have := t.isLt; have := p.isLt; omega⟩

/-- The printed index maps over the grid: a row window's block index is the point, a one-block window's stays 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem N5' : cfg5.N = 20 := by decide

/-- Block `t` of row operand 0 at (p, k) is its array at (row t p, k). -/
theorem blk5_0 (c : Dev nD) (t : Fin cfg5.N) (p : Fin 5000) (k : Fin 64) :
    iblk5 V c 0 t (ix2 p k) = V c main_v70 (ix2 (row5 (t.cast N5') p) k) := by
  obtain ⟨e0, e1, -, -, -, -⟩ := idx_facts5 t
  show V c main_v70 (((cfg5.win 0).blk t).view.emb (ix2 p k)) = V c main_v70 _
  refine congrArg _ ?_
  funext a; apply Fin.ext
  match a with
  | ⟨0, _⟩ => show win5_0.index t (0 : Fin 2) * 5000 + 1 * p.val = t.val * 5000 + p.val; omega
  | ⟨1, _⟩ => show win5_0.index t (1 : Fin 2) * 64 + 1 * k.val = k.val; omega

/-- Operand 1's one block is its whole array. -/
theorem blk5_1 (c : Dev nD) (t : Fin cfg5.N) (i : Fin 64) (j : Fin 64) :
    iblk5 V c 1 t (ix2 i j) = V c main_arg17 (ix2 i j) := by
  obtain ⟨-, -, e0, e1, -, -⟩ := idx_facts5 t
  show V c main_arg17 (((cfg5.win 1).blk t).view.emb (ix2 i j)) = V c main_arg17 _
  refine congrArg _ ?_
  funext a; apply Fin.ext
  match a with
  | ⟨0, _⟩ => show win5_1.index t (0 : Fin 2) * 64 + 1 * i.val = i.val; omega
  | ⟨1, _⟩ => show win5_1.index t (1 : Fin 2) * 64 + 1 * j.val = j.val; omega

/-- Where block `t` of the output sits in the array. -/
theorem emb5_out (t : Fin cfg5.N) (p : Fin 5000) (q : Fin 64) :
    ((cfg5.win 2).blk t).view.emb (ix2 p q) = ix2 (row5 (t.cast N5') p) q := by
  obtain ⟨-, -, -, -, e0, e1⟩ := idx_facts5 t
  funext a; apply Fin.ext
  match a with
  | ⟨0, _⟩ => show win5_2.index t (0 : Fin 2) * 5000 + 1 * p.val = t.val * 5000 + p.val; omega
  | ⟨1, _⟩ => show win5_2.index t (1 : Fin 2) * 64 + 1 * q.val = q.val; omega

/-- What point `t` writes back is block `t` of the whole result. -/
theorem flushed5_eq (c : Dev nD) (t : Fin cfg5.N) :
    (dat5 V c).flushed 2 t = ((cfg5.win 2).blk t).view.read (Elt Ideal) (mtG (V c main_v70) (V c main_arg17)) := by
  show (cfg5.win 2).cut (grid5.coords t) ((dat5 V c).after 2 t) = _
  rw [after5_2]
  unfold out5
  rw [View.canon_unit_zero hz5]
  simp only [View.ld_unit_zero (S := S5000x64) hz5, View.ld_unit_zero (S := S64x64) hz5]
  funext j
  obtain ⟨p, q, rfl⟩ : ∃ (p : Fin 5000) (q : Fin 64), j = ix2 p q := ⟨j 0, j 1, eq_ix2 j⟩
  refine (Cert.PayIdx.k5_pay1_apply _ _ p q).trans ?_
  show _ = mtG (V c main_v70) (V c main_arg17) (((cfg5.win 2).blk t).view.emb (ix2 p q))
  rw [emb5_out, mtG_apply]
  simp only [blk5_0, blk5_1]

/-- An index is in point `t`'s block iff each coordinate lies in the block's range. -/
theorem mem_blk5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v71).slice (win5_2.rect t)).set ↔ _
  rw [View.set_slice_whole, Rect.mem_set_unit]
  exact Iff.rfl

/-- Every index is in some point's block: row `r` in block `r / 5000`. -/
theorem cover5_out (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  refine ⟨⟨(i 0).val / 5000, by rw [N5']; omega⟩, flush5_2 _, ?_⟩
  rw [mem_blk5]
  obtain ⟨-, -, -, -, e0, e1⟩ := idx_facts5 ⟨(i 0).val / 5000, by rw [N5']; omega⟩
  intro a
  match a with
  | ⟨0, _⟩ => show win5_2.index _ (0 : Fin 2) * 5000 ≤ (i 0).val ∧ (i 0).val < win5_2.index _ (0 : Fin 2) * 5000 + 5000; rw [e0]; show (i 0).val / 5000 * 5000 ≤ _ ∧ _ < (i 0).val / 5000 * 5000 + 5000; omega
  | ⟨1, _⟩ => show win5_2.index _ (1 : Fin 2) * 64 ≤ (i 1).val ∧ (i 1).val < win5_2.index _ (1 : Fin 2) * 64 + 64; rw [e1]; omega

/-- The output array after the region. -/
theorem final5 (c : Dev nD) : (dat5 V c).arrAt 2 cfg5.N = mtG (V c main_v70) (V c main_arg17) :=
  (dat5 V c).arrAt_eq_of_cover 2 _ (fun t _ => flushed5_eq V c t) cover5_out

end Cert.KernelIdeal.Hand

end
-- ==== Proof.RefSpec.lean ====
/-
  The reference function as one specification, Cert.RefSpec.out, at the ideal instance (a float an extended
  real): the composition of the operations the printed reference program runs, stage by stage and in the printed
  order. Batch normalisation over the rows (mean, biased variance, scale and shift), the edge features' linear
  map, the neighbourhood aggregation (gather at the source, add the edge term, clamp below at zero, scatter-add
  at the destination), the node update (matrix product, bias, tanh), the last product and tanh, the
  concatenation of the three hidden states along the columns.
-/
import proofs.«120795_j24472723652943_2_alg».proof.Proof.Gen.ReferenceIdeal
import Idealize.ShloMosaic.PureOps.Ideal

noncomputable section

namespace Cert.RefSpec

open Idealize.ShloMosaic Idealize.SL.Sem Cert.ReferenceIdeal Cert.ReferenceIdeal.Gen

/-- The contents of a buffer of shape s and element type e at the ideal instance. -/
abbrev T (s : Shape) (e : EltTy) : Type := (⟨s, e⟩ : BufTy).Contents (Elt Ideal)

/-- The scalar constant of the given bits. -/
abbrev k (b : BitVec 32) : T S_ .f32 := constant (F := Ideal) S_ .f32 b

/-! ## Row vectors repeated over the rows -/

/-- A row vector of 128 entries repeated over the 100000 rows. -/
def rows128 (v : T S128 .f32) : T S100000x128 .f32 :=
  broadcastInDim S100000x128 ![0, 1] bcast_S1x128_S100000x128_0_1 (broadcastInDim S1x128 ![1] bcast_S128_S1x128_1 v)

/-- A row vector of 64 entries repeated over the 100000 rows. -/
def rows64 (v : T S64 .f32) : T S100000x64 .f32 :=
  broadcastInDim S100000x64 ![0, 1] bcast_S1x64_S100000x64_0_1 (broadcastInDim S1x64 ![1] bcast_S64_S1x64_1 v)

/-! ## Batch normalisation, 128 columns -/

/-- The column means: the column sums over the row count. -/
def mean128 (x : T S100000x128 .f32) : T S128 .f32 :=
  Host.divf (F := Ideal) (φ := .f32) (Host.reduceAdd (F := Ideal) (φ := .f32) x (k 0x00000000#32) reducesTo_S100000x128_S128_d0 h_S_)
    (broadcastInDim S128 ![] bcast_S_S128 (k 0x47C35000#32))

/-- The row count less the degrees of freedom removed (none): the variance's divisor. -/
def count : T S_ .f32 :=
  subf (F := Ideal) (φ := .f32) (k 0x47C35000#32) (sitofp (F := Ideal) .f32 (constantI S_ 32 0#32))

/-- The deviations from the column means (the means computed as a 1 x 128 row). -/
def dev128 (x : T S100000x128 .f32) : T S100000x128 .f32 :=
  subf (F := Ideal) (φ := .f32) x (broadcastInDim S100000x128 ![0, 1] bcast_S1x128_S100000x128_0_1
    (Host.divf (F := Ideal) (φ := .f32)
      (broadcastInDim S1x128 ![1] bcast_S128_S1x128_1 (Host.reduceAdd (F := Ideal) (φ := .f32) x (k 0x00000000#32) reducesTo_S100000x128_S128_d0 h_S_))
      (broadcastInDim S1x128 ![] bcast_S_S1x128 (k 0x47C35000#32))))

/-- The column variances: the summed squared deviations over the count where the count is positive, the
    not-a-number constant elsewhere. -/
def var128 (x : T S100000x128 .f32) : T S128 .f32 :=
  select (broadcastInDim S128 ![] bcast_S_S128 (cmpf (F := Ideal) (φ := .f32) .ogt count (k 0x00000000#32)))
    (Host.divf (F := Ideal) (φ := .f32) (Host.reduceAdd (F := Ideal) (φ := .f32) (mulf (F := Ideal) (φ := .f32) (dev128 x) (dev128 x)) (k 0x00000000#32) reducesTo_S100000x128_S128_d0 h_S_)
      (broadcastInDim S128 ![] bcast_S_S128 count))
    (broadcastInDim S128 ![] bcast_S_S128 (id (k 0x7FC00000#32)))

/-- Normalise each column, scale by g, shift by b. -/
def bn128 (x : T S100000x128 .f32) (g b : T S128 .f32) : T S100000x128 .f32 :=
  addf (F := Ideal) (φ := .f32)
    (mulf (F := Ideal) (φ := .f32)
      (mulf (F := Ideal) (φ := .f32) (subf (F := Ideal) (φ := .f32) x (rows128 (mean128 x)))
        (rows128 (Host.rsqrt (F := Ideal) (φ := .f32) (addf (F := Ideal) (φ := .f32) (var128 x) (broadcastInDim S128 ![] bcast_S_S128 (k 0x3727C5AC#32))))))
      (rows128 g))
    (rows128 b)

/-! ## Batch normalisation, 64 columns -/

def mean64 (x : T S100000x64 .f32) : T S64 .f32 :=
  Host.divf (F := Ideal) (φ := .f32) (Host.reduceAdd (F := Ideal) (φ := .f32) x (k 0x00000000#32) reducesTo_S100000x64_S64_d0 h_S_)
    (broadcastInDim S64 ![] bcast_S_S64 (k 0x47C35000#32))

def dev64 (x : T S100000x64 .f32) : T S100000x64 .f32 :=
  subf (F := Ideal) (φ := .f32) x (broadcastInDim S100000x64 ![0, 1] bcast_S1x64_S100000x64_0_1
    (Host.divf (F := Ideal) (φ := .f32)
      (broadcastInDim S1x64 ![1] bcast_S64_S1x64_1 (Host.reduceAdd (F := Ideal) (φ := .f32) x (k 0x00000000#32) reducesTo_S100000x64_S64_d0 h_S_))
      (broadcastInDim S1x64 ![] bcast_S_S1x64 (k 0x47C35000#32))))

def var64 (x : T S100000x64 .f32) : T S64 .f32 :=
  select (broadcastInDim S64 ![] bcast_S_S64 (cmpf (F := Ideal) (φ := .f32) .ogt count (k 0x00000000#32)))
    (Host.divf (F := Ideal) (φ := .f32) (Host.reduceAdd (F := Ideal) (φ := .f32) (mulf (F := Ideal) (φ := .f32) (dev64 x) (dev64 x)) (k 0x00000000#32) reducesTo_S100000x64_S64_d0 h_S_)
      (broadcastInDim S64 ![] bcast_S_S64 count))
    (broadcastInDim S64 ![] bcast_S_S64 (id (k 0x7FC00000#32)))

def bn64 (x : T S100000x64 .f32) (g b : T S64 .f32) : T S100000x64 .f32 :=
  addf (F := Ideal) (φ := .f32)
    (mulf (F := Ideal) (φ := .f32)
      (mulf (F := Ideal) (φ := .f32) (subf (F := Ideal) (φ := .f32) x (rows64 (mean64 x)))
        (rows64 (Host.rsqrt (F := Ideal) (φ := .f32) (addf (F := Ideal) (φ := .f32) (var64 x) (broadcastInDim S64 ![] bcast_S_S64 (k 0x3727C5AC#32))))))
      (rows64 g))
    (rows64 b)

/-! ## The edge index: sources and destinations -/

/-- Row 0 of the edge index: each edge's source node. -/
def src (ei : T S2x1600000 .i32) : T S1600000 .i32 :=
  shapeCast S1600000 (extractStridedSlice S1x1600000 ![0, 0] ei slices_S2x1600000_S1x1600000_0_0) shapeCasts_S1x1600000_S1600000

/-- Row 1 of the edge index: each edge's destination node. -/
def dst (ei : T S2x1600000 .i32) : T S1600000 .i32 :=
  shapeCast S1600000 (extractStridedSlice S1x1600000 ![1, 0] ei slices_S2x1600000_S1x1600000_1_0) shapeCasts_S1x1600000_S1600000

/-- The sources as a gather's index column: a negative index counted from the end (the node count added). -/
def srcIdx (ei : T S2x1600000 .i32) : T S1600000x1 .i32 :=
  broadcastInDim S1600000x1 ![0] bcast_S1600000_S1600000x1_0
    (select (cmpi .slt (src ei) (broadcastInDim S1600000 ![] bcast_S_S1600000 (constantI S_ 32 0#32)))
      (addi (src ei) (broadcastInDim S1600000 ![] bcast_S_S1600000 (constantI S_ 32 100000#32)))
      (src ei))

/-- The destinations as a scatter's index column. -/
def dstIdx (ei : T S2x1600000 .i32) : T S1600000x1 .i32 :=
  broadcastInDim S1600000x1 ![0] bcast_S1600000_S1600000x1_0 (dst ei)

/-! ## Layer 0: 128 columns -/

/-- The edge term: the edge attribute times the 1 x 128 weight, plus the bias. -/
def edge128 (ea : T S1600000x1 .f32) (We : T S1x128 .f32) (be : T S128 .f32) : T S1600000x128 .f32 :=
  addf (F := Ideal) (φ := .f32) (Host.dotGeneral (F := Ideal) (φ₁ := .f32) (φ₂ := .f32) dot_S1600000x1_S1x128_S1600000x128_1_0_0_1_n_n none ea We)
    (broadcastInDim S1600000x128 ![0, 1] bcast_S1x128_S1600000x128_0_1 (broadcastInDim S1x128 ![1] bcast_S128_S1x128_1 be))

/-- The messages summed at their destinations: per edge the source row plus the edge term, clamped below at
    zero; scattered by addition into zeros. -/
def agg128 (x : T S100000x128 .f32) (e : T S1600000x128 .f32) (ei : T S2x1600000 .i32) : T S100000x128 .f32 :=
  Host.scatterAdd (F := Ideal) (φ := .f32) scatter_S100000x128_S1600000x1_S1600000x128_1_0_0_1
    (broadcastInDim S100000x128 ![] bcast_S_S100000x128 (k 0x00000000#32))
    (dstIdx ei)
    (maximumf (F := Ideal) (φ := .f32) (addf (F := Ideal) (φ := .f32) (Host.gather gather_S100000x128_S1600000x1_S1600000x128_1_0_n_n_0_1_1128 x (srcIdx ei)) e)
      (broadcastInDim S1600000x128 ![] bcast_S_S1600000x128 (k 0x00000000#32)))

/-- The node update: (x + agg) times W, plus b, through tanh. -/
def node128 (x agg : T S100000x128 .f32) (W : T S128x64 .f32) (b : T S64 .f32) : T S100000x64 .f32 :=
  Host.tanh (F := Ideal) (φ := .f32) (addf (F := Ideal) (φ := .f32) (Host.dotGeneral (F := Ideal) (φ₁ := .f32) (φ₂ := .f32) dot_S100000x128_S128x64_S100000x64_1_0_0_1_n_n none (addf (F := Ideal) (φ := .f32) x agg) W) (rows64 b))

/-! ## Layer 1: 64 columns -/

def edge64 (ea : T S1600000x1 .f32) (We : T S1x64 .f32) (be : T S64 .f32) : T S1600000x64 .f32 :=
  addf (F := Ideal) (φ := .f32) (Host.dotGeneral (F := Ideal) (φ₁ := .f32) (φ₂ := .f32) dot_S1600000x1_S1x64_S1600000x64_1_0_0_1_n_n none ea We)
    (broadcastInDim S1600000x64 ![0, 1] bcast_S1x64_S1600000x64_0_1 (broadcastInDim S1x64 ![1] bcast_S64_S1x64_1 be))

def agg64 (x : T S100000x64 .f32) (e : T S1600000x64 .f32) (ei : T S2x1600000 .i32) : T S100000x64 .f32 :=
  Host.scatterAdd (F := Ideal) (φ := .f32) scatter_S100000x64_S1600000x1_S1600000x64_1_0_0_1
    (broadcastInDim S100000x64 ![] bcast_S_S100000x64 (k 0x00000000#32))
    (dstIdx ei)
    (maximumf (F := Ideal) (φ := .f32) (addf (F := Ideal) (φ := .f32) (Host.gather gather_S100000x64_S1600000x1_S1600000x64_1_0_n_n_0_1_164 x (srcIdx ei)) e)
      (broadcastInDim S1600000x64 ![] bcast_S_S1600000x64 (k 0x00000000#32)))

def node64 (x agg : T S100000x64 .f32) (W : T S64x64 .f32) (b : T S64 .f32) : T S100000x64 .f32 :=
  Host.tanh (F := Ideal) (φ := .f32) (addf (F := Ideal) (φ := .f32) (Host.dotGeneral (F := Ideal) (φ₁ := .f32) (φ₂ := .f32) dot_S100000x64_S64x64_S100000x64_1_0_0_1_n_n none (addf (F := Ideal) (φ := .f32) x agg) W) (rows64 b))

/-! ## The head and the result -/

/-- The last layer: x times W through tanh, no bias. -/
def mt64 (x : T S100000x64 .f32) (W : T S64x64 .f32) : T S100000x64 .f32 :=
  Host.tanh (F := Ideal) (φ := .f32) (Host.dotGeneral (F := Ideal) (φ₁ := .f32) (φ₂ := .f32) dot_S100000x64_S64x64_S100000x64_1_0_0_1_n_n none x W)

/-- Three 64-column blocks side by side. -/
def cat (a b c : T S100000x64 .f32) : T S100000x192 .f32 :=
  concatenate S100000x192 1 [⟨S100000x64, a⟩, ⟨S100000x64, b⟩, ⟨S100000x64, c⟩]
    concatenates_S100000x64_S100000x64_S100000x64_S100000x192_d1

/-- The reference function of its eighteen arguments. -/
def out (X : T S100000x128 .f32) (ei : T S2x1600000 .i32) (ea : T S1600000x1 .f32)
    (g_in b_in : T S128 .f32) (We0 : T S1x128 .f32) (be0 : T S128 .f32) (W0 : T S128x64 .f32) (b0 g0 bb0 : T S64 .f32)
    (We1 : T S1x64 .f32) (be1 : T S64 .f32) (W1 : T S64x64 .f32) (b1 g1 bb1 : T S64 .f32) (Wfc : T S64x64 .f32) :
    T S100000x192 .f32 :=
  let x := bn128 X g_in b_in
  let h1 := bn64 (node128 x (agg128 x (edge128 ea We0 be0) ei) W0 b0) g0 bb0
  let h2 := bn64 (node64 h1 (agg64 h1 (edge64 ea We1 be1) ei) W1 b1) g1 bb1
  cat h1 h2 (mt64 h2 Wfc)

end Cert.RefSpec

end
-- ==== Proof.SpecIdx.lean ====
import proofs.«120795_j24472723652943_2_alg».proof.Proof.RefSpec
import proofs.«120795_j24472723652943_2_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

/-!
The reference specification read at one element, and the kernel program's host spelling of three of its
stages identified with the specification's.

* Normalisation: `bn x g b` at `(i, q)` is `((x[i,q] - mean[q]) * rsqrt (var[q] + eps)) * g[q] + b[q]`,
  the column statistics left as named functions of `x`.
* Node update: `tanh ((∑ k, (x[i,k] + agg[i,k]) * W[k,q]) + b[q])`; the head: `tanh (∑ k, x[i,k] * W[k,q])`.
  The host's matrix product at an element is the sum over its one contracted axis, re-indexed to `Fin K`.
* Edge term: the kernel program multiplies the edge attribute, repeated along the columns, by the one-row
  weight repeated along the rows; the reference contracts the two over an axis of extent one. A sum over
  one index is its only term, so the two arrays are equal element by element.
* The concatenation and the gather / scatter dimension records are the same data in both programs.
-/

noncomputable section

namespace Cert.SpecIdx

open Idealize.ShloMosaic Idealize.ShloMosaic.ValueIdx
open Cert.ReferenceIdeal Cert.RefSpec

/-- The host's hyperbolic tangent of an array at an index is the extended reals' function of the element. -/
theorem hostTanh_apply {s : Shape} {φ : FTy} (x : FVec Ideal s φ) (i : s.Idx) :
    Host.tanh x i = Ideal.tanh (x i) := rfl

/-- The host's reciprocal square root of an array at an index is the extended reals' function of the element. -/
theorem hostRsqrt_apply {s : Shape} {φ : FTy} (x : FVec Ideal s φ) (i : s.Idx) :
    Host.rsqrt x i = Ideal.rsqrt (x i) := rfl

/-! ## The host's broadcasts between a vector, a one-row array, a one-column array and a full array -/

section Layout
variable {α : Type}

/-- A vector of `b` entries as a `[1, b]` array (its axis sent to axis 1) reads, at `(0, c)`, the entry `c`. -/
theorem bcast_b_1b_apply {b : ℕ} (v : (⟨1, ![b]⟩ : Shape).Idx → α)
    (h : (⟨1, ![b]⟩ : Shape).BroadcastsInDim ⟨2, ![1, b]⟩ ![1]) (c : Fin b) :
    broadcastInDim ⟨2, ![1, b]⟩ ![1] h v (ix2 (0 : Fin 1) c) = v (ix1 c) := by
  refine broadcastInDim_apply ![1] h v (ix2 (0 : Fin 1) c) (ix1 c) fun ax => ?_
  match ax with
  | ⟨0, _⟩ =>
    show c.val = if b = 1 then 0 else c.val
    split
    · have := c.isLt; omega
    · rfl

/-- A `[1, b]` array repeated over `a` rows (axes sent to themselves) reads, at `(p, c)`, its one row at `c`. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- An `[a, 1]` array repeated over `b` columns (axes sent to themselves) reads, at `(p, c)`, its one column at `p`. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The specification's stages at an element -/

/-- A row vector of 128 entries repeated over the rows reads its entry at the column. -/
theorem rows128_apply (v : T S128 .f32) (i : Fin 100000) (q : Fin 128) : rows128 v (ix2 i q) = v (ix1 q) := by
  unfold rows128
  rw [bcast_1b_ab_apply, bcast_b_1b_apply]

/-- A row vector of 64 entries repeated over the rows reads its entry at the column. -/
theorem rows64_apply (v : T S64 .f32) (i : Fin 100000) (q : Fin 64) : rows64 v (ix2 i q) = v (ix1 q) := by
  unfold rows64
  rw [bcast_1b_ab_apply, bcast_b_1b_apply]

/-- Normalisation of 128 columns at `(i, q)`. -/
theorem bn128_apply (x : T S100000x128 .f32) (g b : T S128 .f32) (i : Fin 100000) (q : Fin 128) :
    bn128 x g b (ix2 i q)
      = ((x (ix2 i q) - mean128 x (ix1 q)) * Ideal.rsqrt (var128 x (ix1 q) + Ideal.ofBits .f32 0x3727C5AC#32))
          * g (ix1 q) + b (ix1 q) := by
  unfold bn128
  rw [addf_apply, mulf_apply, mulf_apply, subf_apply, rows128_apply, rows128_apply, rows128_apply, rows128_apply,
    hostRsqrt_apply, addf_apply]
  rfl

/-- Normalisation of 64 columns at `(i, q)`. -/
theorem bn64_apply (x : T S100000x64 .f32) (g b : T S64 .f32) (i : Fin 100000) (q : Fin 64) :
    bn64 x g b (ix2 i q)
      = ((x (ix2 i q) - mean64 x (ix1 q)) * Ideal.rsqrt (var64 x (ix1 q) + Ideal.ofBits .f32 0x3727C5AC#32))
          * g (ix1 q) + b (ix1 q) := by
  unfold bn64
  rw [addf_apply, mulf_apply, mulf_apply, subf_apply, rows64_apply, rows64_apply, rows64_apply, rows64_apply,
    hostRsqrt_apply, addf_apply]
  rfl

/-- The first node update at `(i, q)`. -/
theorem node128_apply (x agg : T S100000x128 .f32) (W : T S128x64 .f32) (b : T S64 .f32) (i : Fin 100000) (q : Fin 64) :
    node128 x agg W b (ix2 i q)
      = Ideal.tanh ((∑ k : Fin 128, (x (ix2 i k) + agg (ix2 i k)) * W (ix2 k q)) + b (ix1 q)) := by
  unfold node128
  rw [hostTanh_apply, addf_apply, rows64_apply]
  simp only [Host.dotGeneral]
  rw [Ideal.dotGeneral_apply, ← Equiv.sum_comp (contrEquiv1 dot_S100000x128_S128x64_S100000x64_1_0_0_1_n_n 128 rfl rfl).symm]
  refine congrArg (fun s => Ideal.tanh (s + b (ix1 q))) (Finset.sum_congr rfl fun k _ => ?_)
  have hl : dot_S100000x128_S128x64_S100000x64_1_0_0_1_n_n.lhsIdx (ix2 i q)
      ((contrEquiv1 dot_S100000x128_S128x64_S100000x64_1_0_0_1_n_n 128 rfl rfl).symm k) = ix2 i k := by
    funext a
    match a with
    | ⟨0, _⟩ => rfl
    | ⟨1, _⟩ => rfl
  have hr : dot_S100000x128_S128x64_S100000x64_1_0_0_1_n_n.rhsIdx (ix2 i q)
      ((contrEquiv1 dot_S100000x128_S128x64_S100000x64_1_0_0_1_n_n 128 rfl rfl).symm k) = ix2 k q := by
    funext a
    match a with
    | ⟨0, _⟩ => rfl
    | ⟨1, _⟩ => rfl
  rw [hl, hr]
  rfl

/-- The second node update at `(i, q)`. -/
theorem node64_apply (x agg : T S100000x64 .f32) (W : T S64x64 .f32) (b : T S64 .f32) (i : Fin 100000) (q : Fin 64) :
    node64 x agg W b (ix2 i q)
      = Ideal.tanh ((∑ k : Fin 64, (x (ix2 i k) + agg (ix2 i k)) * W (ix2 k q)) + b (ix1 q)) := by
  unfold node64
  rw [hostTanh_apply, addf_apply, rows64_apply]
  simp only [Host.dotGeneral]
  rw [Ideal.dotGeneral_apply, ← Equiv.sum_comp (contrEquiv1 dot_S100000x64_S64x64_S100000x64_1_0_0_1_n_n 64 rfl rfl).symm]
  refine congrArg (fun s => Ideal.tanh (s + b (ix1 q))) (Finset.sum_congr rfl fun k _ => ?_)
  have hl : dot_S100000x64_S64x64_S100000x64_1_0_0_1_n_n.lhsIdx (ix2 i q)
      ((contrEquiv1 dot_S100000x64_S64x64_S100000x64_1_0_0_1_n_n 64 rfl rfl).symm k) = ix2 i k := by
    funext a
    match a with
    | ⟨0, _⟩ => rfl
    | ⟨1, _⟩ => rfl
  have hr : dot_S100000x64_S64x64_S100000x64_1_0_0_1_n_n.rhsIdx (ix2 i q)
      ((contrEquiv1 dot_S100000x64_S64x64_S100000x64_1_0_0_1_n_n 64 rfl rfl).symm k) = ix2 k q := by
    funext a
    match a with
    | ⟨0, _⟩ => rfl
    | ⟨1, _⟩ => rfl
  rw [hl, hr]
  rfl

/-- The head at `(i, q)`. -/
theorem mt64_apply (x : T S100000x64 .f32) (W : T S64x64 .f32) (i : Fin 100000) (q : Fin 64) :
    mt64 x W (ix2 i q) = Ideal.tanh (∑ k : Fin 64, x (ix2 i k) * W (ix2 k q)) := by
  unfold mt64
  rw [hostTanh_apply]
  simp only [Host.dotGeneral]
  rw [Ideal.dotGeneral_apply, ← Equiv.sum_comp (contrEquiv1 dot_S100000x64_S64x64_S100000x64_1_0_0_1_n_n 64 rfl rfl).symm]
  refine congrArg Ideal.tanh (Finset.sum_congr rfl fun k _ => ?_)
  have hl : dot_S100000x64_S64x64_S100000x64_1_0_0_1_n_n.lhsIdx (ix2 i q)
      ((contrEquiv1 dot_S100000x64_S64x64_S100000x64_1_0_0_1_n_n 64 rfl rfl).symm k) = ix2 i k := by
    funext a
    match a with
    | ⟨0, _⟩ => rfl
    | ⟨1, _⟩ => rfl
  have hr : dot_S100000x64_S64x64_S100000x64_1_0_0_1_n_n.rhsIdx (ix2 i q)
      ((contrEquiv1 dot_S100000x64_S64x64_S100000x64_1_0_0_1_n_n 64 rfl rfl).symm k) = ix2 k q := by
    funext a
    match a with
    | ⟨0, _⟩ => rfl
    | ⟨1, _⟩ => rfl
  rw [hl, hr]

/-! ## The edge term: a product of two repeated arrays against a contraction over one index -/

theorem edge128_kernel_eq (ea : T S1600000x1 .f32) (We : T S1x128 .f32) (be : T S128 .f32)
    (hea : Cert.KernelIdeal.S1600000x1.BroadcastsInDim Cert.KernelIdeal.S1600000x128 ![0, 1])
    (hrow : Cert.KernelIdeal.S1x128.BroadcastsInDim Cert.KernelIdeal.S1600000x128 ![0, 1])
    (hvec : Cert.KernelIdeal.S128.BroadcastsInDim Cert.KernelIdeal.S1x128 ![1]) :
    addf (F := Ideal) (φ := .f32)
        (mulf (F := Ideal) (φ := .f32)
          (broadcastInDim Cert.KernelIdeal.S1600000x128 ![0, 1] hea ea)
          (broadcastInDim Cert.KernelIdeal.S1600000x128 ![0, 1] hrow We))
        (broadcastInDim Cert.KernelIdeal.S1600000x128 ![0, 1] hrow
          (broadcastInDim Cert.KernelIdeal.S1x128 ![1] hvec be))
      = edge128 ea We be := by
  funext j
  obtain ⟨e, q, rfl⟩ : ∃ (e : Fin 1600000) (q : Fin 128), j = ix2 e q := ⟨j 0, j 1, eq_ix2 j⟩
  unfold edge128
  rw [addf_apply, addf_apply, mulf_apply]
  simp only [Host.dotGeneral]
  rw [Ideal.dotGeneral_apply, ← Equiv.sum_comp (contrEquiv1 dot_S1600000x1_S1x128_S1600000x128_1_0_0_1_n_n 1 rfl rfl).symm, Fin.sum_univ_one]
  have hl : dot_S1600000x1_S1x128_S1600000x128_1_0_0_1_n_n.lhsIdx (ix2 e q)
      ((contrEquiv1 dot_S1600000x1_S1x128_S1600000x128_1_0_0_1_n_n 1 rfl rfl).symm 0) = ix2 e (0 : Fin 1) := by
    funext a
    match a with
    | ⟨0, _⟩ => rfl
    | ⟨1, _⟩ => rfl
  have hr : dot_S1600000x1_S1x128_S1600000x128_1_0_0_1_n_n.rhsIdx (ix2 e q)
      ((contrEquiv1 dot_S1600000x1_S1x128_S1600000x128_1_0_0_1_n_n 1 rfl rfl).symm 0) = ix2 (0 : Fin 1) q := by
    funext a
    match a with
    | ⟨0, _⟩ => rfl
    | ⟨1, _⟩ => rfl
  rw [hl, hr]
  rw [bcast_a1_ab_apply (a := 1600000) (b := 128) ea hea e q,
    bcast_1b_ab_apply (a := 1600000) (b := 128) We hrow e q,
    bcast_1b_ab_apply (a := 1600000) (b := 128) _ hrow e q]

theorem edge64_kernel_eq (ea : T S1600000x1 .f32) (We : T S1x64 .f32) (be : T S64 .f32)
    (hea : Cert.KernelIdeal.S1600000x1.BroadcastsInDim Cert.KernelIdeal.S1600000x64 ![0, 1])
    (hrow : Cert.KernelIdeal.S1x64.BroadcastsInDim Cert.KernelIdeal.S1600000x64 ![0, 1])
    (hvec : Cert.KernelIdeal.S64.BroadcastsInDim Cert.KernelIdeal.S1x64 ![1]) :
    addf (F := Ideal) (φ := .f32)
        (mulf (F := Ideal) (φ := .f32)
          (broadcastInDim Cert.KernelIdeal.S1600000x64 ![0, 1] hea ea)
          (broadcastInDim Cert.KernelIdeal.S1600000x64 ![0, 1] hrow We))
        (broadcastInDim Cert.KernelIdeal.S1600000x64 ![0, 1] hrow
          (broadcastInDim Cert.KernelIdeal.S1x64 ![1] hvec be))
      = edge64 ea We be := by
  funext j
  obtain ⟨e, q, rfl⟩ : ∃ (e : Fin 1600000) (q : Fin 64), j = ix2 e q := ⟨j 0, j 1, eq_ix2 j⟩
  unfold edge64
  rw [addf_apply, addf_apply, mulf_apply]
  simp only [Host.dotGeneral]
  rw [Ideal.dotGeneral_apply, ← Equiv.sum_comp (contrEquiv1 dot_S1600000x1_S1x64_S1600000x64_1_0_0_1_n_n 1 rfl rfl).symm, Fin.sum_univ_one]
  have hl : dot_S1600000x1_S1x64_S1600000x64_1_0_0_1_n_n.lhsIdx (ix2 e q)
      ((contrEquiv1 dot_S1600000x1_S1x64_S1600000x64_1_0_0_1_n_n 1 rfl rfl).symm 0) = ix2 e (0 : Fin 1) := by
    funext a
    match a with
    | ⟨0, _⟩ => rfl
    | ⟨1, _⟩ => rfl
  have hr : dot_S1600000x1_S1x64_S1600000x64_1_0_0_1_n_n.rhsIdx (ix2 e q)
      ((contrEquiv1 dot_S1600000x1_S1x64_S1600000x64_1_0_0_1_n_n 1 rfl rfl).symm 0) = ix2 (0 : Fin 1) q := by
    funext a
    match a with
    | ⟨0, _⟩ => rfl
    | ⟨1, _⟩ => rfl
  rw [hl, hr]
  rw [bcast_a1_ab_apply (a := 1600000) (b := 64) ea hea e q,
    bcast_1b_ab_apply (a := 1600000) (b := 64) We hrow e q,
    bcast_1b_ab_apply (a := 1600000) (b := 64) _ hrow e q]

/-! ## The shared host stages: the same data in both programs

The two printed programs each declare their own copy of the shapes and of the dimension records of the
gather, the scatter-add, the column sums and the concatenation. The shapes are the same literals and the
records carry the same axis lists, so each pair is equal by computation. -/

/-- The kernel program's concatenation of three 64-column blocks is the specification's. -/
theorem cat_kernel_eq (a b c : T S100000x64 .f32)
    (h : Shape.Concatenates [Cert.KernelIdeal.S100000x64, Cert.KernelIdeal.S100000x64, Cert.KernelIdeal.S100000x64]
      Cert.KernelIdeal.S100000x192 1) :
    concatenate Cert.KernelIdeal.S100000x192 1
        [⟨Cert.KernelIdeal.S100000x64, a⟩, ⟨Cert.KernelIdeal.S100000x64, b⟩, ⟨Cert.KernelIdeal.S100000x64, c⟩] h
      = cat a b c := rfl

/-- The two programs' gather records (128 columns). -/
theorem gather128_eq :
    Cert.KernelIdeal.gather_S100000x128_S1600000x1_S1600000x128_1_0_n_n_0_1_1128
      = Cert.ReferenceIdeal.gather_S100000x128_S1600000x1_S1600000x128_1_0_n_n_0_1_1128 := rfl

/-- The two programs' scatter records (128 columns). -/
theorem scatter128_eq :
    Cert.KernelIdeal.scatter_S100000x128_S1600000x1_S1600000x128_1_0_0_1
      = Cert.ReferenceIdeal.scatter_S100000x128_S1600000x1_S1600000x128_1_0_0_1 := rfl

/-- The two programs' gather records (64 columns). -/
theorem gather64_eq :
    Cert.KernelIdeal.gather_S100000x64_S1600000x1_S1600000x64_1_0_n_n_0_1_164
      = Cert.ReferenceIdeal.gather_S100000x64_S1600000x1_S1600000x64_1_0_n_n_0_1_164 := rfl

/-- The two programs' scatter records (64 columns). -/
theorem scatter64_eq :
    Cert.KernelIdeal.scatter_S100000x64_S1600000x1_S1600000x64_1_0_0_1
      = Cert.ReferenceIdeal.scatter_S100000x64_S1600000x1_S1600000x64_1_0_0_1 := rfl

/-- The two programs' column-sum facts (128 columns): propositions about the same shapes. -/
theorem reducesTo128_eq :
    Cert.KernelIdeal.Facts₀.reducesTo_S100000x128_S128_d0 = Cert.ReferenceIdeal.Facts₀.reducesTo_S100000x128_S128_d0 := rfl

/-- The two programs' column-sum facts (64 columns). -/
theorem reducesTo64_eq :
    Cert.KernelIdeal.Facts₀.reducesTo_S100000x64_S64_d0 = Cert.ReferenceIdeal.Facts₀.reducesTo_S100000x64_S64_d0 := rfl

end Cert.SpecIdx

end
-- ==== Proof.GSpec.lean ====
import proofs.«120795_j24472723652943_2_alg».proof.Proof.SpecIdx
import proofs.«120795_j24472723652943_2_alg».proof.Proof.KI.GDefs

/-!
The kernel regions' whole-array functions are the reference specification's stages.

Each region's function reads its column statistics, scale, shift and bias from one-row tables; the host
program builds such a table from a vector by a reshape `[C] → [1, C]`, which at `(0, q)` reads the
vector's entry `q`. With the tables so built, each region function agrees with the specification's
stage element by element: both sides are already written in the same normal form.
-/

noncomputable section

namespace Cert.GSpec

open Idealize.ShloMosaic Idealize.ShloMosaic.ValueIdx
open Cert.ReferenceIdeal Cert.RefSpec Cert.SpecIdx Cert.KernelIdeal.Hand

/-- A vector of 128 entries as a one-row table: the host's reshape `[128] → [1, 128]`. -/
def rs128 (v : T S128 .f32) : Vec Ideal Cert.KernelIdeal.S1x128 .f32 :=
  shapeCast Cert.KernelIdeal.S1x128 v Cert.KernelIdeal.Gen.shapeCasts_S128_S1x128

/-- A vector of 64 entries as a one-row table: the host's reshape `[64] → [1, 64]`. -/
def rs64 (v : T S64 .f32) : Vec Ideal Cert.KernelIdeal.S1x64 .f32 :=
  shapeCast Cert.KernelIdeal.S1x64 v Cert.KernelIdeal.Gen.shapeCasts_S64_S1x64

/-- The table's one row at `q` is the vector's entry `q`. -/
theorem rs128_apply (v : T S128 .f32) (q : Fin 128) : rs128 v (ix2 (0 : Fin 1) q) = v (ix1 q) :=
  shapeCast_a_1a_apply v _ 0 q

/-- The table's one row at `q` is the vector's entry `q`. -/
theorem rs64_apply (v : T S64 .f32) (q : Fin 64) : rs64 v (ix2 (0 : Fin 1) q) = v (ix1 q) :=
  shapeCast_a_1a_apply v _ 0 q

/-- The first normalisation region, fed the specification's column statistics, is the specification's stage. -/
theorem bnG128_eq (x : T S100000x128 .f32) (g b : T S128 .f32) :
    bnG128 x (rs128 (mean128 x)) (rs128 (var128 x)) (rs128 g) (rs128 b) = bn128 x g b := by
  funext j
  obtain ⟨i, q, rfl⟩ : ∃ (i : Fin 100000) (q : Fin 128), j = ix2 i q := ⟨j 0, j 1, eq_ix2 j⟩
  rw [bnG128_apply, bn128_apply, rs128_apply, rs128_apply, rs128_apply, rs128_apply]

/-- The 64-column normalisation regions likewise. -/
theorem bnG64_eq (x : T S100000x64 .f32) (g b : T S64 .f32) :
    bnG64 x (rs64 (mean64 x)) (rs64 (var64 x)) (rs64 g) (rs64 b) = bn64 x g b := by
  funext j
  obtain ⟨i, q, rfl⟩ : ∃ (i : Fin 100000) (q : Fin 64), j = ix2 i q := ⟨j 0, j 1, eq_ix2 j⟩
  rw [bnG64_apply, bn64_apply, rs64_apply, rs64_apply, rs64_apply, rs64_apply]

/-- The first node-update region is the specification's stage. -/
theorem nodeG128_eq (x agg : T S100000x128 .f32) (W : T S128x64 .f32) (b : T S64 .f32) :
    nodeG128 x agg W (rs64 b) = node128 x agg W b := by
  funext j
  obtain ⟨i, q, rfl⟩ : ∃ (i : Fin 100000) (q : Fin 64), j = ix2 i q := ⟨j 0, j 1, eq_ix2 j⟩
  rw [nodeG128_apply, node128_apply, rs64_apply]

/-- The second node-update region is the specification's stage. -/
theorem nodeG64_eq (x agg : T S100000x64 .f32) (W : T S64x64 .f32) (b : T S64 .f32) :
    nodeG64 x agg W (rs64 b) = node64 x agg W b := by
  funext j
  obtain ⟨i, q, rfl⟩ : ∃ (i : Fin 100000) (q : Fin 64), j = ix2 i q := ⟨j 0, j 1, eq_ix2 j⟩
  rw [nodeG64_apply, node64_apply, rs64_apply]

/-- The last region is the specification's head. -/
theorem mtG_eq (x : T S100000x64 .f32) (W : T S64x64 .f32) : mtG x W = mt64 x W := by
  funext j
  obtain ⟨i, q, rfl⟩ : ∃ (i : Fin 100000) (q : Fin 64), j = ix2 i q := ⟨j 0, j 1, eq_ix2 j⟩
  rw [mtG_apply, mt64_apply]

end Cert.GSpec

end
-- ==== Proof.HostRead.lean ====
import proofs.«120795_j24472723652943_2_alg».proof.Proof.Gen.KernelIdeal.Regions
import proofs.«120795_j24472723652943_2_alg».proof.Proof.GSpec

set_option maxRecDepth 4096

noncomputable section

namespace Cert.KernelIdeal.HostRead

open Idealize.ShloMosaic Idealize.ShloMosaic.TcCoe Idealize.SL.Sem
open Cert.KernelIdeal Cert.KernelIdeal.Gen
open Cert.GSpec (rs128 rs64)

/-!
What the kernel program's host stretches leave in the buffers the regions read, as stages of the reference
specification. Each stretch is first read for an arbitrary valuation `W` of the buffers before it (so that the
contents before the stretch stay a variable), then instantiated at the program's valuations.
-/

/-! ## The stretches over an arbitrary valuation -/

section Generic
variable (W : Valuation τ sig (Elt Ideal))

/-- After the three host stretches before the first region. -/
abbrev W3 : Valuation τ sig (Elt Ideal) :=
  StableHlo.after (hostOps0_2 (F := Ideal)) (StableHlo.after hostOps0_1 (StableHlo.after hostOps0 W))

theorem w3_v1 : W3 W (Proc.devRef .tc main_v1) = Cert.RefSpec.src (W (Proc.devRef .tc main_arg1)) := by
  after_results_simp
  rfl

theorem w3_v3 : W3 W (Proc.devRef .tc main_v3) = Cert.RefSpec.dst (W (Proc.devRef .tc main_arg1)) := by
  after_results_simp
  rfl

theorem w3_v8 : W3 W (Proc.devRef .tc main_v8) = rs128 (Cert.RefSpec.mean128 (W (Proc.devRef .tc main_arg0))) := by
  after_results_simp
  rfl

set_option maxHeartbeats 1000000 in
theorem w3_v9 : W3 W (Proc.devRef .tc main_v9) = rs128 (Cert.RefSpec.var128 (W (Proc.devRef .tc main_arg0))) := by
  after_results_simp
  rfl

theorem w3_v10 : W3 W (Proc.devRef .tc main_v10) = rs128 (W (Proc.devRef .tc main_arg3)) := by
  after_results_simp
  rfl

theorem w3_v11 : W3 W (Proc.devRef .tc main_v11) = rs128 (W (Proc.devRef .tc main_arg4)) := by
  after_results_simp
  rfl

/-- After the single host operation that follows the last region. -/
theorem w22_v72 : StableHlo.after (hostOps6 (F := Ideal)) W (Proc.devRef .tc main_v72)
    = Cert.RefSpec.cat (W (Proc.devRef .tc main_v41)) (W (Proc.devRef .tc main_v70)) (W (Proc.devRef .tc main_v71)) := by
  after_results
  rfl

end Generic

/-! ## The program's valuations -/

section Stages
variable (m : (ℓ : Loc nD τ sig) → Buf (Elt Ideal) ℓ) (outs : Outs (F := Ideal)) (c : Dev nD)

theorem s0_arg0 : Gen.V3 m c main_arg0 = (m ((c : Thread nD τ).loc main_arg0)) :=
  (V3_of m c main_arg0 (by decide)).trans <| (V2_of m c main_arg0 (by decide)).trans <| (V1_of m c main_arg0 (by decide))

theorem s0_v8 : Gen.V3 m c main_v8 = rs128 (Cert.RefSpec.mean128 (m ((c : Thread nD τ).loc main_arg0))) :=
  w3_v8 (V0 m c)

theorem s0_v9 : Gen.V3 m c main_v9 = rs128 (Cert.RefSpec.var128 (m ((c : Thread nD τ).loc main_arg0))) :=
  w3_v9 (V0 m c)

theorem s0_v10 : Gen.V3 m c main_v10 = rs128 (m ((c : Thread nD τ).loc main_arg3)) :=
  w3_v10 (V0 m c)

theorem s0_v11 : Gen.V3 m c main_v11 = rs128 (m ((c : Thread nD τ).loc main_arg4)) :=
  w3_v11 (V0 m c)

theorem s5_arg17 : Gen.V20 m outs c main_arg17 = (m ((c : Thread nD τ).loc main_arg17)) :=
  (V20_of m outs c main_arg17 (by decide)).trans <| (V19_of m outs c main_arg17 (by decide)).trans <| (V18_of m outs c main_arg17 (by decide)).trans <| (V17_of m outs c main_arg17 (by decide)).trans <| (V16_of m outs c main_arg17 (by decide)).trans <| (V15_of m outs c main_arg17 (by decide)).trans <| (V14_of m outs c main_arg17 (by decide)).trans <| (V13_of m outs c main_arg17 (by decide)).trans <| (V12_of m outs c main_arg17 (by decide)).trans <| (V11_of m outs c main_arg17 (by decide)).trans <| (V10_of m outs c main_arg17 (by decide)).trans <| (V9_of m outs c main_arg17 (by decide)).trans <| (V8_of m outs c main_arg17 (by decide)).trans <| (V7_of m outs c main_arg17 (by decide)).trans <| (V6_of m outs c main_arg17 (by decide)).trans <| (V5_of m outs c main_arg17 (by decide)).trans <| (V4_of m outs c main_arg17 (by decide)).trans <| (V3_of m c main_arg17 (by decide)).trans <| (V2_of m c main_arg17 (by decide)).trans <| (V1_of m c main_arg17 (by decide))

theorem s6_v72 : Gen.V22 m outs c main_v72
    = Cert.RefSpec.cat (Gen.V12 m outs c main_v41) (Gen.V20 m outs c main_v70) (Gen.V21 m outs c main_v71) := by
  have h41 : Gen.V21 m outs c main_v41 = Gen.V12 m outs c main_v41 :=
    (V21_of m outs c main_v41 (by decide)).trans <| (V20_of m outs c main_v41 (by decide)).trans <| (V19_of m outs c main_v41 (by decide)).trans <| (V18_of m outs c main_v41 (by decide)).trans <| (V17_of m outs c main_v41 (by decide)).trans <| (V16_of m outs c main_v41 (by decide)).trans <| (V15_of m outs c main_v41 (by decide)).trans <| (V14_of m outs c main_v41 (by decide)).trans <| (V13_of m outs c main_v41 (by decide))
  have h70 : Gen.V21 m outs c main_v70 = Gen.V20 m outs c main_v70 :=
    (V21_of m outs c main_v70 (by decide))
  exact (w22_v72 (V21 m outs c)).trans (by rw [h41, h70])

end Stages

end Cert.KernelIdeal.HostRead

end
-- ==== Proof.HostRead1.lean ====
import proofs.«120795_j24472723652943_2_alg».proof.Proof.HostRead

set_option maxRecDepth 4096

noncomputable section

namespace Cert.KernelIdeal.HostRead

open Idealize.ShloMosaic Idealize.ShloMosaic.TcCoe Idealize.SL.Sem
open Cert.KernelIdeal Cert.KernelIdeal.Gen
open Cert.GSpec (rs128 rs64)

/-!
The host stretches between the first and the second region: the neighbourhood aggregation of the normalised
input over the edge list, and the first bias as a one-row table.
-/

section Generic
variable (W : Valuation τ sig (Elt Ideal))

/-- After the three host stretches between the first and the second region. -/
abbrev W7 : Valuation τ sig (Elt Ideal) :=
  StableHlo.after (hostOps1_2 (F := Ideal)) (StableHlo.after hostOps1_1 (StableHlo.after hostOps1 W))

set_option maxHeartbeats 1000000 in
/-- The scatter-add's result is the specification's aggregation, the kernel program's edge term (a product of
    two repeated arrays) being the specification's (a contraction over one index). -/
theorem w7_v30 (x : Cert.RefSpec.T Cert.ReferenceIdeal.S100000x128 .f32) (ea : Cert.RefSpec.T Cert.ReferenceIdeal.S1600000x1 .f32) (We : Cert.RefSpec.T Cert.ReferenceIdeal.S1x128 .f32)
    (be : Cert.RefSpec.T Cert.ReferenceIdeal.S128 .f32) (ei : Cert.RefSpec.T Cert.ReferenceIdeal.S2x1600000 .i32)
    (hx : W (Proc.devRef .tc main_v12) = x) (h2 : W (Proc.devRef .tc main_arg2) = ea) (h5 : W (Proc.devRef .tc main_arg5) = We) (h6 : W (Proc.devRef .tc main_arg6) = be)
    (h1 : W (Proc.devRef .tc main_v1) = Cert.RefSpec.src ei) (h3 : W (Proc.devRef .tc main_v3) = Cert.RefSpec.dst ei) :
    W7 W (Proc.devRef .tc main_v30) = Cert.RefSpec.agg128 x (Cert.RefSpec.edge128 ea We be) ei := by
  after_results_simp
  rw [hx, h2, h5, h6, h1, h3, Cert.SpecIdx.edge128_kernel_eq ea We be]
  rfl

theorem w7_v31 : W7 W (Proc.devRef .tc main_v31) = rs64 (W (Proc.devRef .tc main_arg8)) := by
  after_results_simp
  rfl

end Generic

section Stages
variable (m : (ℓ : Loc nD τ sig) → Buf (Elt Ideal) ℓ) (outs : Outs (F := Ideal)) (c : Dev nD)

theorem s1_v12 : Gen.V7 m outs c main_v12 = Gen.V4 m outs c main_v12 :=
  (V7_of m outs c main_v12 (by decide)).trans <| (V6_of m outs c main_v12 (by decide)).trans <| (V5_of m outs c main_v12 (by decide))

theorem s1_arg7 : Gen.V7 m outs c main_arg7 = (m ((c : Thread nD τ).loc main_arg7)) :=
  (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide))

theorem s1_v30 : Gen.V7 m outs c main_v30
    = Cert.RefSpec.agg128 (Gen.V4 m outs c main_v12) (Cert.RefSpec.edge128 (m ((c : Thread nD τ).loc main_arg2)) (m ((c : Thread nD τ).loc main_arg5)) (m ((c : Thread nD τ).loc main_arg6))) (m ((c : Thread nD τ).loc main_arg1)) :=
  w7_v30 (V4 m outs c) _ _ _ _ _ rfl
    ((V4_of m outs c main_arg2 (by decide)).trans <| (V3_of m c main_arg2 (by decide)).trans <| (V2_of m c main_arg2 (by decide)).trans <| (V1_of m c main_arg2 (by decide)))
    ((V4_of m outs c main_arg5 (by decide)).trans <| (V3_of m c main_arg5 (by decide)).trans <| (V2_of m c main_arg5 (by decide)).trans <| (V1_of m c main_arg5 (by decide)))
    ((V4_of m outs c main_arg6 (by decide)).trans <| (V3_of m c main_arg6 (by decide)).trans <| (V2_of m c main_arg6 (by decide)).trans <| (V1_of m c main_arg6 (by decide)))
    (((V4_of m outs c main_v1 (by decide))).trans (w3_v1 (V0 m c)))
    (((V4_of m outs c main_v3 (by decide))).trans (w3_v3 (V0 m c)))

theorem s1_v31 : Gen.V7 m outs c main_v31 = rs64 (m ((c : Thread nD τ).loc main_arg8)) :=
  (w7_v31 (V4 m outs c)).trans (congrArg rs64 ((V4_of m outs c main_arg8 (by decide)).trans <| (V3_of m c main_arg8 (by decide)).trans <| (V2_of m c main_arg8 (by decide)).trans <| (V1_of m c main_arg8 (by decide))))

end Stages

end Cert.KernelIdeal.HostRead

end
-- ==== Proof.HostRead2.lean ====
import proofs.«120795_j24472723652943_2_alg».proof.Proof.HostRead

set_option maxRecDepth 4096

noncomputable section

namespace Cert.KernelIdeal.HostRead

open Idealize.ShloMosaic Idealize.ShloMosaic.TcCoe Idealize.SL.Sem
open Cert.KernelIdeal Cert.KernelIdeal.Gen
open Cert.GSpec (rs128 rs64)

/-!
The host stretches before a 64-column normalisation region: the column means and variances of the
region's input, the scale and the shift, each as a one-row table.
-/

section Generic
variable (W : Valuation τ sig (Elt Ideal))

/-- After the three host stretches before the region. -/
abbrev W11 : Valuation τ sig (Elt Ideal) :=
  StableHlo.after (hostOps2_2 (F := Ideal)) (StableHlo.after hostOps2_1 (StableHlo.after hostOps2 W))

theorem w11_v37 : W11 W (Proc.devRef .tc main_v37) = rs64 (Cert.RefSpec.mean64 (W (Proc.devRef .tc main_v32))) := by
  after_results_simp
  rfl

set_option maxHeartbeats 1000000 in
theorem w11_v38 : W11 W (Proc.devRef .tc main_v38) = rs64 (Cert.RefSpec.var64 (W (Proc.devRef .tc main_v32))) := by
  after_results_simp
  rfl

theorem w11_v39 : W11 W (Proc.devRef .tc main_v39) = rs64 (W (Proc.devRef .tc main_arg9)) := by
  after_results_simp
  rfl

theorem w11_v40 : W11 W (Proc.devRef .tc main_v40) = rs64 (W (Proc.devRef .tc main_arg10)) := by
  after_results_simp
  rfl

end Generic

section Stages
variable (m : (ℓ : Loc nD τ sig) → Buf (Elt Ideal) ℓ) (outs : Outs (F := Ideal)) (c : Dev nD)

theorem s2_v32 : Gen.V11 m outs c main_v32 = Gen.V8 m outs c main_v32 :=
  (V11_of m outs c main_v32 (by decide)).trans <| (V10_of m outs c main_v32 (by decide)).trans <| (V9_of m outs c main_v32 (by decide))

theorem s2_v37 : Gen.V11 m outs c main_v37 = rs64 (Cert.RefSpec.mean64 (Gen.V8 m outs c main_v32)) :=
  w11_v37 (V8 m outs c)

theorem s2_v38 : Gen.V11 m outs c main_v38 = rs64 (Cert.RefSpec.var64 (Gen.V8 m outs c main_v32)) :=
  w11_v38 (V8 m outs c)

theorem s2_v39 : Gen.V11 m outs c main_v39 = rs64 (m ((c : Thread nD τ).loc main_arg9)) :=
  (w11_v39 (V8 m outs c)).trans (congrArg rs64 ((V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide))))

theorem s2_v40 : Gen.V11 m outs c main_v40 = rs64 (m ((c : Thread nD τ).loc main_arg10)) :=
  (w11_v40 (V8 m outs c)).trans (congrArg rs64 ((V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide))))

end Stages

end Cert.KernelIdeal.HostRead

end
-- ==== Proof.HostRead3.lean ====
import proofs.«120795_j24472723652943_2_alg».proof.Proof.HostRead

set_option maxRecDepth 4096

noncomputable section

namespace Cert.KernelIdeal.HostRead

open Idealize.ShloMosaic Idealize.ShloMosaic.TcCoe Idealize.SL.Sem
open Cert.KernelIdeal Cert.KernelIdeal.Gen
open Cert.GSpec (rs128 rs64)

/-!
The host stretches between a normalisation region and the node update that follows it: the neighbourhood
aggregation of the normalised rows over the edge list, and the bias as a one-row table.
-/

section Generic
variable (W : Valuation τ sig (Elt Ideal))

/-- After the three host stretches between the two regions. -/
abbrev W15 : Valuation τ sig (Elt Ideal) :=
  StableHlo.after (hostOps3_2 (F := Ideal)) (StableHlo.after hostOps3_1 (StableHlo.after hostOps3 W))

set_option maxHeartbeats 1000000 in
/-- The scatter-add's result is the specification's aggregation, the kernel program's edge term (a product of
    two repeated arrays) being the specification's (a contraction over one index). -/
theorem w15_v59 (x : Cert.RefSpec.T Cert.ReferenceIdeal.S100000x64 .f32) (ea : Cert.RefSpec.T Cert.ReferenceIdeal.S1600000x1 .f32) (We : Cert.RefSpec.T Cert.ReferenceIdeal.S1x64 .f32)
    (be : Cert.RefSpec.T Cert.ReferenceIdeal.S64 .f32) (ei : Cert.RefSpec.T Cert.ReferenceIdeal.S2x1600000 .i32)
    (hx : W (Proc.devRef .tc main_v41) = x) (h2 : W (Proc.devRef .tc main_arg2) = ea) (h5 : W (Proc.devRef .tc main_arg11) = We) (h6 : W (Proc.devRef .tc main_arg12) = be)
    (h1 : W (Proc.devRef .tc main_v1) = Cert.RefSpec.src ei) (h3 : W (Proc.devRef .tc main_v3) = Cert.RefSpec.dst ei) :
    W15 W (Proc.devRef .tc main_v59) = Cert.RefSpec.agg64 x (Cert.RefSpec.edge64 ea We be) ei := by
  after_results_simp
  rw [hx, h2, h5, h6, h1, h3, Cert.SpecIdx.edge64_kernel_eq ea We be]
  rfl

theorem w15_v60 : W15 W (Proc.devRef .tc main_v60) = rs64 (W (Proc.devRef .tc main_arg14)) := by
  after_results_simp
  rfl

end Generic

section Stages
variable (m : (ℓ : Loc nD τ sig) → Buf (Elt Ideal) ℓ) (outs : Outs (F := Ideal)) (c : Dev nD)

theorem s3_v41 : Gen.V15 m outs c main_v41 = Gen.V12 m outs c main_v41 :=
  (V15_of m outs c main_v41 (by decide)).trans <| (V14_of m outs c main_v41 (by decide)).trans <| (V13_of m outs c main_v41 (by decide))

theorem s3_arg13 : Gen.V15 m outs c main_arg13 = (m ((c : Thread nD τ).loc main_arg13)) :=
  (V15_of m outs c main_arg13 (by decide)).trans <| (V14_of m outs c main_arg13 (by decide)).trans <| (V13_of m outs c main_arg13 (by decide)).trans <| (V12_of m outs c main_arg13 (by decide)).trans <| (V11_of m outs c main_arg13 (by decide)).trans <| (V10_of m outs c main_arg13 (by decide)).trans <| (V9_of m outs c main_arg13 (by decide)).trans <| (V8_of m outs c main_arg13 (by decide)).trans <| (V7_of m outs c main_arg13 (by decide)).trans <| (V6_of m outs c main_arg13 (by decide)).trans <| (V5_of m outs c main_arg13 (by decide)).trans <| (V4_of m outs c main_arg13 (by decide)).trans <| (V3_of m c main_arg13 (by decide)).trans <| (V2_of m c main_arg13 (by decide)).trans <| (V1_of m c main_arg13 (by decide))

theorem s3_v59 : Gen.V15 m outs c main_v59
    = Cert.RefSpec.agg64 (Gen.V12 m outs c main_v41) (Cert.RefSpec.edge64 (m ((c : Thread nD τ).loc main_arg2)) (m ((c : Thread nD τ).loc main_arg11)) (m ((c : Thread nD τ).loc main_arg12))) (m ((c : Thread nD τ).loc main_arg1)) :=
  w15_v59 (V12 m outs c) _ _ _ _ _ rfl
    ((V12_of m outs c main_arg2 (by decide)).trans <| (V11_of m outs c main_arg2 (by decide)).trans <| (V10_of m outs c main_arg2 (by decide)).trans <| (V9_of m outs c main_arg2 (by decide)).trans <| (V8_of m outs c main_arg2 (by decide)).trans <| (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)))
    ((V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m c main_arg11 (by decide)).trans <| (V2_of m c main_arg11 (by decide)).trans <| (V1_of m c main_arg11 (by decide)))
    ((V12_of m outs c main_arg12 (by decide)).trans <| (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| (V1_of m c main_arg12 (by decide)))
    (((V12_of m outs c main_v1 (by decide)).trans <| (V11_of m outs c main_v1 (by decide)).trans <| (V10_of m outs c main_v1 (by decide)).trans <| (V9_of m outs c main_v1 (by decide)).trans <| (V8_of m outs c main_v1 (by decide)).trans <| (V7_of m outs c main_v1 (by decide)).trans <| (V6_of m outs c main_v1 (by decide)).trans <| (V5_of m outs c main_v1 (by decide)).trans <| (V4_of m outs c main_v1 (by decide))).trans (w3_v1 (V0 m c)))
    (((V12_of m outs c main_v3 (by decide)).trans <| (V11_of m outs c main_v3 (by decide)).trans <| (V10_of m outs c main_v3 (by decide)).trans <| (V9_of m outs c main_v3 (by decide)).trans <| (V8_of m outs c main_v3 (by decide)).trans <| (V7_of m outs c main_v3 (by decide)).trans <| (V6_of m outs c main_v3 (by decide)).trans <| (V5_of m outs c main_v3 (by decide)).trans <| (V4_of m outs c main_v3 (by decide))).trans (w3_v3 (V0 m c)))

theorem s3_v60 : Gen.V15 m outs c main_v60 = rs64 (m ((c : Thread nD τ).loc main_arg14)) :=
  (w15_v60 (V12 m outs c)).trans (congrArg rs64 ((V12_of m outs c main_arg14 (by decide)).trans <| (V11_of m outs c main_arg14 (by decide)).trans <| (V10_of m outs c main_arg14 (by decide)).trans <| (V9_of m outs c main_arg14 (by decide)).trans <| (V8_of m outs c main_arg14 (by decide)).trans <| (V7_of m outs c main_arg14 (by decide)).trans <| (V6_of m outs c main_arg14 (by decide)).trans <| (V5_of m outs c main_arg14 (by decide)).trans <| (V4_of m outs c main_arg14 (by decide)).trans <| (V3_of m c main_arg14 (by decide)).trans <| (V2_of m c main_arg14 (by decide)).trans <| (V1_of m c main_arg14 (by decide))))

end Stages

end Cert.KernelIdeal.HostRead

end
-- ==== Proof.HostRead4.lean ====
import proofs.«120795_j24472723652943_2_alg».proof.Proof.HostRead

set_option maxRecDepth 4096

noncomputable section

namespace Cert.KernelIdeal.HostRead

open Idealize.ShloMosaic Idealize.ShloMosaic.TcCoe Idealize.SL.Sem
open Cert.KernelIdeal Cert.KernelIdeal.Gen
open Cert.GSpec (rs128 rs64)

/-!
The host stretches before a 64-column normalisation region: the column means and variances of the
region's input, the scale and the shift, each as a one-row table.
-/

section Generic
variable (W : Valuation τ sig (Elt Ideal))

/-- After the three host stretches before the region. -/
abbrev W19 : Valuation τ sig (Elt Ideal) :=
  StableHlo.after (hostOps4_2 (F := Ideal)) (StableHlo.after hostOps4_1 (StableHlo.after hostOps4 W))

theorem w19_v66 : W19 W (Proc.devRef .tc main_v66) = rs64 (Cert.RefSpec.mean64 (W (Proc.devRef .tc main_v61))) := by
  after_results_simp
  rfl

set_option maxHeartbeats 1000000 in
theorem w19_v67 : W19 W (Proc.devRef .tc main_v67) = rs64 (Cert.RefSpec.var64 (W (Proc.devRef .tc main_v61))) := by
  after_results_simp
  rfl

theorem w19_v68 : W19 W (Proc.devRef .tc main_v68) = rs64 (W (Proc.devRef .tc main_arg15)) := by
  after_results_simp
  rfl

theorem w19_v69 : W19 W (Proc.devRef .tc main_v69) = rs64 (W (Proc.devRef .tc main_arg16)) := by
  after_results_simp
  rfl

end Generic

section Stages
variable (m : (ℓ : Loc nD τ sig) → Buf (Elt Ideal) ℓ) (outs : Outs (F := Ideal)) (c : Dev nD)

theorem s4_v61 : Gen.V19 m outs c main_v61 = Gen.V16 m outs c main_v61 :=
  (V19_of m outs c main_v61 (by decide)).trans <| (V18_of m outs c main_v61 (by decide)).trans <| (V17_of m outs c main_v61 (by decide))

theorem s4_v66 : Gen.V19 m outs c main_v66 = rs64 (Cert.RefSpec.mean64 (Gen.V16 m outs c main_v61)) :=
  w19_v66 (V16 m outs c)

theorem s4_v67 : Gen.V19 m outs c main_v67 = rs64 (Cert.RefSpec.var64 (Gen.V16 m outs c main_v61)) :=
  w19_v67 (V16 m outs c)

theorem s4_v68 : Gen.V19 m outs c main_v68 = rs64 (m ((c : Thread nD τ).loc main_arg15)) :=
  (w19_v68 (V16 m outs c)).trans (congrArg rs64 ((V16_of m outs c main_arg15 (by decide)).trans <| (V15_of m outs c main_arg15 (by decide)).trans <| (V14_of m outs c main_arg15 (by decide)).trans <| (V13_of m outs c main_arg15 (by decide)).trans <| (V12_of m outs c main_arg15 (by decide)).trans <| (V11_of m outs c main_arg15 (by decide)).trans <| (V10_of m outs c main_arg15 (by decide)).trans <| (V9_of m outs c main_arg15 (by decide)).trans <| (V8_of m outs c main_arg15 (by decide)).trans <| (V7_of m outs c main_arg15 (by decide)).trans <| (V6_of m outs c main_arg15 (by decide)).trans <| (V5_of m outs c main_arg15 (by decide)).trans <| (V4_of m outs c main_arg15 (by decide)).trans <| (V3_of m c main_arg15 (by decide)).trans <| (V2_of m c main_arg15 (by decide)).trans <| (V1_of m c main_arg15 (by decide))))

theorem s4_v69 : Gen.V19 m outs c main_v69 = rs64 (m ((c : Thread nD τ).loc main_arg16)) :=
  (w19_v69 (V16 m outs c)).trans (congrArg rs64 ((V16_of m outs c main_arg16 (by decide)).trans <| (V15_of m outs c main_arg16 (by decide)).trans <| (V14_of m outs c main_arg16 (by decide)).trans <| (V13_of m outs c main_arg16 (by decide)).trans <| (V12_of m outs c main_arg16 (by decide)).trans <| (V11_of m outs c main_arg16 (by decide)).trans <| (V10_of m outs c main_arg16 (by decide)).trans <| (V9_of m outs c main_arg16 (by decide)).trans <| (V8_of m outs c main_arg16 (by decide)).trans <| (V7_of m outs c main_arg16 (by decide)).trans <| (V6_of m outs c main_arg16 (by decide)).trans <| (V5_of m outs c main_arg16 (by decide)).trans <| (V4_of m outs c main_arg16 (by decide)).trans <| (V3_of m c main_arg16 (by decide)).trans <| (V2_of m c main_arg16 (by decide)).trans <| (V1_of m c main_arg16 (by decide))))

end Stages

end Cert.KernelIdeal.HostRead

end
-- ==== Proof.KI.Bridge.lean ====
import proofs.«120795_j24472723652943_2_alg».proof.Proof.KI.Outs
import proofs.«120795_j24472723652943_2_alg».proof.Proof.KI.Val0
import proofs.«120795_j24472723652943_2_alg».proof.Proof.KI.Val1
import proofs.«120795_j24472723652943_2_alg».proof.Proof.KI.Val2
import proofs.«120795_j24472723652943_2_alg».proof.Proof.KI.Val3
import proofs.«120795_j24472723652943_2_alg».proof.Proof.KI.Val4
import proofs.«120795_j24472723652943_2_alg».proof.Proof.KI.Val5
import proofs.«120795_j24472723652943_2_alg».proof.Proof.RefSpec
import proofs.«120795_j24472723652943_2_alg».proof.Proof.GSpec
import proofs.«120795_j24472723652943_2_alg».proof.Proof.HostRead
import proofs.«120795_j24472723652943_2_alg».proof.Proof.HostRead1
import proofs.«120795_j24472723652943_2_alg».proof.Proof.HostRead2
import proofs.«120795_j24472723652943_2_alg».proof.Proof.HostRead3
import proofs.«120795_j24472723652943_2_alg».proof.Proof.HostRead4

set_option maxRecDepth 16384

noncomputable section

namespace Cert.KernelIdeal.Hand

open Cert.KernelIdeal Cert.KernelIdeal.Gen
open Idealize.ShloMosaic Idealize.ShloMosaic.TcCoe
open Idealize.SL.Sem
open Cert.KernelIdeal.HostRead

/-! # The kernel program's result is the specification's

    Stage by stage: the batch-normalised input, the first layer before and after its batch norm, the second layer likewise, the
    last layer — each region's output array (the fold of its write-backs, `finalK`) at the contents the host stretches before
    it leave is the specification's function of the same stage; the last stretch concatenates the three layers. -/

variable (m : (ℓ : Loc nD τ sig) → Buf (Elt Ideal) ℓ) (c : Dev nD)

/-- The specification's stages at the launch arguments. -/
def sx : RefSpec.T Cert.ReferenceIdeal.S100000x128 .f32 := RefSpec.bn128 (m ((c.tc : Thread nD τ).loc main_arg0)) (m ((c.tc : Thread nD τ).loc main_arg3)) (m ((c.tc : Thread nD τ).loc main_arg4))
def sagg1 : RefSpec.T Cert.ReferenceIdeal.S100000x128 .f32 := RefSpec.agg128 (sx m c) (RefSpec.edge128 (m ((c.tc : Thread nD τ).loc main_arg2)) (m ((c.tc : Thread nD τ).loc main_arg5)) (m ((c.tc : Thread nD τ).loc main_arg6))) (m ((c.tc : Thread nD τ).loc main_arg1))
def sy1 : RefSpec.T Cert.ReferenceIdeal.S100000x64 .f32 := RefSpec.node128 (sx m c) (sagg1 m c) (m ((c.tc : Thread nD τ).loc main_arg7)) (m ((c.tc : Thread nD τ).loc main_arg8))
def sh1 : RefSpec.T Cert.ReferenceIdeal.S100000x64 .f32 := RefSpec.bn64 (sy1 m c) (m ((c.tc : Thread nD τ).loc main_arg9)) (m ((c.tc : Thread nD τ).loc main_arg10))
def sagg2 : RefSpec.T Cert.ReferenceIdeal.S100000x64 .f32 := RefSpec.agg64 (sh1 m c) (RefSpec.edge64 (m ((c.tc : Thread nD τ).loc main_arg2)) (m ((c.tc : Thread nD τ).loc main_arg11)) (m ((c.tc : Thread nD τ).loc main_arg12))) (m ((c.tc : Thread nD τ).loc main_arg1))
def sy2 : RefSpec.T Cert.ReferenceIdeal.S100000x64 .f32 := RefSpec.node64 (sh1 m c) (sagg2 m c) (m ((c.tc : Thread nD τ).loc main_arg13)) (m ((c.tc : Thread nD τ).loc main_arg14))
def sh2 : RefSpec.T Cert.ReferenceIdeal.S100000x64 .f32 := RefSpec.bn64 (sy2 m c) (m ((c.tc : Thread nD τ).loc main_arg15)) (m ((c.tc : Thread nD τ).loc main_arg16))
def sh3 : RefSpec.T Cert.ReferenceIdeal.S100000x64 .f32 := RefSpec.mt64 (sh2 m c) (m ((c.tc : Thread nD τ).loc main_arg17))

theorem out_eq : RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) = RefSpec.cat (sh1 m c) (sh2 m c) (sh3 m c) := rfl

theorem e_x : Gen.V4 m (outsF m) c main_v12 = sx m c := by
  refine (vout0_self c).trans (((outs_ok m).h0 c).trans ((final0 (Vin0 m) c).trans ?_))
  show bnG128 (Gen.V3 m c main_arg0) (Gen.V3 m c main_v8) (Gen.V3 m c main_v9) (Gen.V3 m c main_v10) (Gen.V3 m c main_v11) = _
  rw [s0_arg0 m c, s0_v8 m c, s0_v9 m c, s0_v10 m c, s0_v11 m c]
  exact Cert.GSpec.bnG128_eq _ _ _

theorem e_y1 : Gen.V8 m (outsF m) c main_v32 = sy1 m c := by
  refine (vout1_self c).trans (((outs_ok m).h1 c).trans ((final1 (Vin1 m (outsF m)) c).trans ?_))
  show nodeG128 (Gen.V7 m (outsF m) c main_v12) (Gen.V7 m (outsF m) c main_v30) (Gen.V7 m (outsF m) c main_arg7) (Gen.V7 m (outsF m) c main_v31) = _
  rw [s1_v12 m (outsF m) c, s1_v30 m (outsF m) c, s1_arg7 m (outsF m) c, s1_v31 m (outsF m) c, e_x m c]
  exact Cert.GSpec.nodeG128_eq _ _ _ _

theorem e_h1 : Gen.V12 m (outsF m) c main_v41 = sh1 m c := by
  refine (vout2_self c).trans (((outs_ok m).h2 c).trans ((final2 (Vin2 m (outsF m)) c).trans ?_))
  show bnG64 (Gen.V11 m (outsF m) c main_v32) (Gen.V11 m (outsF m) c main_v37) (Gen.V11 m (outsF m) c main_v38) (Gen.V11 m (outsF m) c main_v39) (Gen.V11 m (outsF m) c main_v40) = _
  rw [s2_v32 m (outsF m) c, s2_v37 m (outsF m) c, s2_v38 m (outsF m) c, s2_v39 m (outsF m) c, s2_v40 m (outsF m) c, e_y1 m c]
  exact Cert.GSpec.bnG64_eq _ _ _

theorem e_y2 : Gen.V16 m (outsF m) c main_v61 = sy2 m c := by
  refine (vout3_self c).trans (((outs_ok m).h3 c).trans ((final3 (Vin3 m (outsF m)) c).trans ?_))
  show nodeG64 (Gen.V15 m (outsF m) c main_v41) (Gen.V15 m (outsF m) c main_v59) (Gen.V15 m (outsF m) c main_arg13) (Gen.V15 m (outsF m) c main_v60) = _
  rw [s3_v41 m (outsF m) c, s3_v59 m (outsF m) c, s3_arg13 m (outsF m) c, s3_v60 m (outsF m) c, e_h1 m c]
  exact Cert.GSpec.nodeG64_eq _ _ _ _

theorem e_h2 : Gen.V20 m (outsF m) c main_v70 = sh2 m c := by
  refine (vout4_self c).trans (((outs_ok m).h4 c).trans ((final4 (Vin4 m (outsF m)) c).trans ?_))
  show bnG64 (Gen.V19 m (outsF m) c main_v61) (Gen.V19 m (outsF m) c main_v66) (Gen.V19 m (outsF m) c main_v67) (Gen.V19 m (outsF m) c main_v68) (Gen.V19 m (outsF m) c main_v69) = _
  rw [s4_v61 m (outsF m) c, s4_v66 m (outsF m) c, s4_v67 m (outsF m) c, s4_v68 m (outsF m) c, s4_v69 m (outsF m) c, e_y2 m c]
  exact Cert.GSpec.bnG64_eq _ _ _

theorem e_h3 : Gen.V21 m (outsF m) c main_v71 = sh3 m c := by
  refine (vout5_self c).trans (((outs_ok m).h5 c).trans ((final5 (Vin5 m (outsF m)) c).trans ?_))
  show mtG (Gen.V20 m (outsF m) c main_v70) (Gen.V20 m (outsF m) c main_arg17) = _
  rw [s5_arg17 m (outsF m) c, e_h2 m c]
  exact Cert.GSpec.mtG_eq _ _

/-- The result buffer's last contents are the specification's result of the launch arguments. -/
theorem result_eq : Gen.V22 m (outsF m) c main_v72 = RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [out_eq, s6_v72 m (outsF m) c, e_h1 m c, e_h2 m c, e_h3 m c]

end Cert.KernelIdeal.Hand

end
-- ==== Proof.RefRunOps.lean ====
/-
  The reference program run by hand. Its @main is a straight line of tensor operations (the calls to the
  variance, the select and the clamp helpers unfolded at their call sites); the line is cut into the stages of
  Cert.RefSpec (row indices, mean, variance, normalisation, edge term, aggregation, node update, three times
  over; the head; the concatenation). Each stage's result buffer holds the stage's function of the buffers it
  reads; a buffer a stage does not write keeps its contents; chained, the result buffer holds Cert.RefSpec.out
  of the arguments and the arguments are unchanged.
-/
import proofs.«120795_j24472723652943_2_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The helpers' operations, over one call's buffers -/

/-- The select helper at 128 entries: the scalar converted, broadcast, the select under the broadcast predicate. -/
def opsWhere (a0 : TRef sig ⟨S_, .i1⟩) (a1 : TRef sig ⟨S128, .f32⟩) (a2 : TRef sig ⟨S_, .f32⟩) (φ : fn_where.Bufs) : List (HloOp τ sig (Elt F)) :=
  [ TRef.unary a2 φ.v0 id,
    TRef.unary φ.v0 φ.v1 (broadcastInDim S128 ![] bcast_S_S128),
    TRef.ternary a0 a1 φ.v1 φ.v2 (fun p a b => select (broadcastInDim S128 ![] bcast_S_S128 p) a b) ]

/-- The select helper at 64 entries. -/
def opsWhere1 (a0 : TRef sig ⟨S_, .i1⟩) (a1 : TRef sig ⟨S64, .f32⟩) (a2 : TRef sig ⟨S_, .f32⟩) (φ : fn_where_1.Bufs) : List (HloOp τ sig (Elt F)) :=
  [ TRef.unary a2 φ.v0 id,
    TRef.unary φ.v0 φ.v1 (broadcastInDim S64 ![] bcast_S_S64),
    TRef.ternary a0 a1 φ.v1 φ.v2 (fun p a b => select (broadcastInDim S64 ![] bcast_S_S64 p) a b) ]

/-- The variance helper over S100000x128: the mean as a row, the squared deviations, their sum over the count. -/
def opsVar (a0 : TRef sig ⟨S100000x128, .f32⟩) (a1 : TRef sig ⟨S_, .i32⟩) (φ : fn_var.Bufs) : List (HloOp τ sig (Elt F)) :=
  [ TRef.nullary φ.cst (constant S_ .f32 0x00000000#32),
    TRef.binary a0 φ.cst φ.v0 (fun x v => Host.reduceAdd x v reducesTo_S100000x128_S128_d0 h_S_),
    TRef.unary φ.v0 φ.v1 (broadcastInDim S1x128 ![1] bcast_S128_S1x128_1),
    TRef.nullary φ.cst_0 (constant S_ .f32 0x47C35000#32),
    TRef.unary φ.cst_0 φ.v2 (broadcastInDim S1x128 ![] bcast_S_S1x128),
    TRef.binary φ.v1 φ.v2 φ.v3 Host.divf,
    TRef.unary φ.v3 φ.v4 (broadcastInDim S100000x128 ![0, 1] bcast_S1x128_S100000x128_0_1),
    TRef.binary a0 φ.v4 φ.v5 subf,
    TRef.binary φ.v5 φ.v5 φ.v6 mulf,
    TRef.unary a1 φ.v7 (sitofp .f32),
    TRef.nullary φ.cst_1 (constant S_ .f32 0x47C35000#32),
    TRef.binary φ.cst_1 φ.v7 φ.v8 subf,
    TRef.nullary φ.cst_2 (constant S_ .f32 0x00000000#32),
    TRef.binary φ.v6 φ.cst_2 φ.v9 (fun x v => Host.reduceAdd x v reducesTo_S100000x128_S128_d0 h_S_),
    TRef.unary φ.v8 φ.v10 (broadcastInDim S128 ![] bcast_S_S128),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32) ]
  ++ opsWhere φ.v12 φ.v11 φ.cst_4 φ.call0

/-- The variance helper over S100000x64: the mean as a row, the squared deviations, their sum over the count. -/
def opsVar0 (a0 : TRef sig ⟨S100000x64, .f32⟩) (a1 : TRef sig ⟨S_, .i32⟩) (φ : fn_var_0.Bufs) : List (HloOp τ sig (Elt F)) :=
  [ TRef.nullary φ.cst (constant S_ .f32 0x00000000#32),
    TRef.binary a0 φ.cst φ.v0 (fun x v => Host.reduceAdd x v reducesTo_S100000x64_S64_d0 h_S_),
    TRef.unary φ.v0 φ.v1 (broadcastInDim S1x64 ![1] bcast_S64_S1x64_1),
    TRef.nullary φ.cst_0 (constant S_ .f32 0x47C35000#32),
    TRef.unary φ.cst_0 φ.v2 (broadcastInDim S1x64 ![] bcast_S_S1x64),
    TRef.binary φ.v1 φ.v2 φ.v3 Host.divf,
    TRef.unary φ.v3 φ.v4 (broadcastInDim S100000x64 ![0, 1] bcast_S1x64_S100000x64_0_1),
    TRef.binary a0 φ.v4 φ.v5 subf,
    TRef.binary φ.v5 φ.v5 φ.v6 mulf,
    TRef.unary a1 φ.v7 (sitofp .f32),
    TRef.nullary φ.cst_1 (constant S_ .f32 0x47C35000#32),
    TRef.binary φ.cst_1 φ.v7 φ.v8 subf,
    TRef.nullary φ.cst_2 (constant S_ .f32 0x00000000#32),
    TRef.binary φ.v6 φ.cst_2 φ.v9 (fun x v => Host.reduceAdd x v reducesTo_S100000x64_S64_d0 h_S_),
    TRef.unary φ.v8 φ.v10 (broadcastInDim S64 ![] bcast_S_S64),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32) ]
  ++ opsWhere1 φ.v12 φ.v11 φ.cst_4 φ.call0

/-- The clamp helper at 1600000 x 128: the zero, broadcast, the maximum. -/
def opsRelu (a0 : TRef sig ⟨S1600000x128, .f32⟩) (φ : fn_relu.Bufs) : List (HloOp τ sig (Elt F)) :=
  [ TRef.nullary φ.cst (constant S_ .f32 0x00000000#32),
    TRef.unary φ.cst φ.v0 (broadcastInDim S1600000x128 ![] bcast_S_S1600000x128),
    TRef.binary a0 φ.v0 φ.v1 maximumf ]

/-- The clamp helper at 1600000 x 64. -/
def opsRelu2 (a0 : TRef sig ⟨S1600000x64, .f32⟩) (φ : fn_relu_2.Bufs) : List (HloOp τ sig (Elt F)) :=
  [ TRef.nullary φ.cst (constant S_ .f32 0x00000000#32),
    TRef.unary φ.cst φ.v0 (broadcastInDim S1600000x64 ![] bcast_S_S1600000x64),
    TRef.binary a0 φ.v0 φ.v1 maximumf ]

/-! ## The stages of @main -/

/-- Rows 0 and 1 of the edge index, each as a vector. -/
def opsIdx : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000 ]

/-- The column means. -/
def opsMean0 : List (HloOp τ sig (Elt F)) :=
  [ nullary main_cst (constant S_ .f32 0x00000000#32),
    binary main_arg0 main_cst main_v4 (fun x v => Host.reduceAdd x v reducesTo_S100000x128_S128_d0 h_S_),
    nullary main_cst_0 (constant S_ .f32 0x47C35000#32),
    unary main_cst_0 main_v5 (broadcastInDim S128 ![] bcast_S_S128),
    binary main_v4 main_v5 main_v6 Host.divf ]

/-- The column variances: the helper's call. -/
def opsVar0c : List (HloOp τ sig (Elt F)) :=
  [ nullary main_c (constantI S_ 32 0#32) ]
  ++ opsVar (.of main_arg0) (.of main_c) main_call0

/-- Normalise by the mean and the variance, scale, shift. -/
def opsBn0 : List (HloOp τ sig (Elt F)) :=
  [ unary main_v6 main_v8 (broadcastInDim S1x128 ![1] bcast_S128_S1x128_1),
    unary main_v8 main_v9 (broadcastInDim S100000x128 ![0, 1] bcast_S1x128_S100000x128_0_1),
    binary main_arg0 main_v9 main_v10 subf,
    nullary main_cst_1 (constant S_ .f32 0x3727C5AC#32),
    unary main_cst_1 main_v11 (broadcastInDim S128 ![] bcast_S_S128),
    binary main_v7 main_v11 main_v12 addf,
    unary main_v12 main_v13 Host.rsqrt,
    unary main_v13 main_v14 (broadcastInDim S1x128 ![1] bcast_S128_S1x128_1),
    unary main_v14 main_v15 (broadcastInDim S100000x128 ![0, 1] bcast_S1x128_S100000x128_0_1),
    binary main_v10 main_v15 main_v16 mulf,
    unary main_arg3 main_v17 (broadcastInDim S1x128 ![1] bcast_S128_S1x128_1),
    unary main_v17 main_v18 (broadcastInDim S100000x128 ![0, 1] bcast_S1x128_S100000x128_0_1),
    binary main_v16 main_v18 main_v19 mulf,
    unary main_arg4 main_v20 (broadcastInDim S1x128 ![1] bcast_S128_S1x128_1),
    unary main_v20 main_v21 (broadcastInDim S100000x128 ![0, 1] bcast_S1x128_S100000x128_0_1),
    binary main_v19 main_v21 main_v22 addf ]

/-- The edge term. -/
def opsEdge0 : List (HloOp τ sig (Elt F)) :=
  [ binary main_arg2 main_arg5 main_v23 (fun l r => Host.dotGeneral dot_S1600000x1_S1x128_S1600000x128_1_0_0_1_n_n none l r),
    unary main_arg6 main_v24 (broadcastInDim S1x128 ![1] bcast_S128_S1x128_1),
    unary main_v24 main_v25 (broadcastInDim S1600000x128 ![0, 1] bcast_S1x128_S1600000x128_0_1),
    binary main_v23 main_v25 main_v26 addf ]

/-- The aggregation: gather at the sources, add the edge term, clamp below at zero, scatter-add at the destinations. -/
def opsAgg0 : List (HloOp τ sig (Elt F)) :=
  [ nullary main_c_2 (constantI S_ 32 0#32),
    unary main_c_2 main_v27 (broadcastInDim S1600000 ![] bcast_S_S1600000),
    binary main_v1 main_v27 main_v28 (cmpi .slt),
    nullary main_c_3 (constantI S_ 32 100000#32),
    unary main_c_3 main_v29 (broadcastInDim S1600000 ![] bcast_S_S1600000),
    binary main_v1 main_v29 main_v30 addi,
    ternary main_v28 main_v30 main_v1 main_v31 select,
    unary main_v31 main_v32 (broadcastInDim S1600000x1 ![0] bcast_S1600000_S1600000x1_0),
    binary main_v22 main_v32 main_v33 (fun x i => Host.gather gather_S100000x128_S1600000x1_S1600000x128_1_0_n_n_0_1_1128 x i),
    binary main_v33 main_v26 main_v34 addf ]
  ++ opsRelu (.of main_v34) main_call1 ++
  [ nullary main_cst_4 (constant S_ .f32 0x00000000#32),
    unary main_cst_4 main_v36 (broadcastInDim S100000x128 ![] bcast_S_S100000x128),
    unary main_v3 main_v37 (broadcastInDim S1600000x1 ![0] bcast_S1600000_S1600000x1_0),
    ternary main_v36 main_v37 main_v35 main_v38 (fun x i u => Host.scatterAdd scatter_S100000x128_S1600000x1_S1600000x128_1_0_0_1 x i u) ]

/-- The node update. -/
def opsNode0 : List (HloOp τ sig (Elt F)) :=
  [ binary main_v22 main_v38 main_v39 addf,
    binary main_v39 main_arg7 main_v40 (fun l r => Host.dotGeneral dot_S100000x128_S128x64_S100000x64_1_0_0_1_n_n none l r),
    unary main_arg8 main_v41 (broadcastInDim S1x64 ![1] bcast_S64_S1x64_1),
    unary main_v41 main_v42 (broadcastInDim S100000x64 ![0, 1] bcast_S1x64_S100000x64_0_1),
    binary main_v40 main_v42 main_v43 addf,
    unary main_v43 main_v44 Host.tanh ]

/-- The column means. -/
def opsMean1 : List (HloOp τ sig (Elt F)) :=
  [ nullary main_cst_5 (constant S_ .f32 0x00000000#32),
    binary main_v44 main_cst_5 main_v45 (fun x v => Host.reduceAdd x v reducesTo_S100000x64_S64_d0 h_S_),
    nullary main_cst_6 (constant S_ .f32 0x47C35000#32),
    unary main_cst_6 main_v46 (broadcastInDim S64 ![] bcast_S_S64),
    binary main_v45 main_v46 main_v47 Host.divf ]

/-- The column variances: the helper's call. -/
def opsVar1c : List (HloOp τ sig (Elt F)) :=
  [ nullary main_c_7 (constantI S_ 32 0#32) ]
  ++ opsVar0 (.of main_v44) (.of main_c_7) main_call2

/-- Normalise by the mean and the variance, scale, shift. -/
def opsBn1 : List (HloOp τ sig (Elt F)) :=
  [ unary main_v47 main_v49 (broadcastInDim S1x64 ![1] bcast_S64_S1x64_1),
    unary main_v49 main_v50 (broadcastInDim S100000x64 ![0, 1] bcast_S1x64_S100000x64_0_1),
    binary main_v44 main_v50 main_v51 subf,
    nullary main_cst_8 (constant S_ .f32 0x3727C5AC#32),
    unary main_cst_8 main_v52 (broadcastInDim S64 ![] bcast_S_S64),
    binary main_v48 main_v52 main_v53 addf,
    unary main_v53 main_v54 Host.rsqrt,
    unary main_v54 main_v55 (broadcastInDim S1x64 ![1] bcast_S64_S1x64_1),
    unary main_v55 main_v56 (broadcastInDim S100000x64 ![0, 1] bcast_S1x64_S100000x64_0_1),
    binary main_v51 main_v56 main_v57 mulf,
    unary main_arg9 main_v58 (broadcastInDim S1x64 ![1] bcast_S64_S1x64_1),
    unary main_v58 main_v59 (broadcastInDim S100000x64 ![0, 1] bcast_S1x64_S100000x64_0_1),
    binary main_v57 main_v59 main_v60 mulf,
    unary main_arg10 main_v61 (broadcastInDim S1x64 ![1] bcast_S64_S1x64_1),
    unary main_v61 main_v62 (broadcastInDim S100000x64 ![0, 1] bcast_S1x64_S100000x64_0_1),
    binary main_v60 main_v62 main_v63 addf ]

/-- The edge term. -/
def opsEdge1 : List (HloOp τ sig (Elt F)) :=
  [ binary main_arg2 main_arg11 main_v64 (fun l r => Host.dotGeneral dot_S1600000x1_S1x64_S1600000x64_1_0_0_1_n_n none l r),
    unary main_arg12 main_v65 (broadcastInDim S1x64 ![1] bcast_S64_S1x64_1),
    unary main_v65 main_v66 (broadcastInDim S1600000x64 ![0, 1] bcast_S1x64_S1600000x64_0_1),
    binary main_v64 main_v66 main_v67 addf ]

/-- The aggregation: gather at the sources, add the edge term, clamp below at zero, scatter-add at the destinations. -/
def opsAgg1 : List (HloOp τ sig (Elt F)) :=
  [ nullary main_c_9 (constantI S_ 32 0#32),
    unary main_c_9 main_v68 (broadcastInDim S1600000 ![] bcast_S_S1600000),
    binary main_v1 main_v68 main_v69 (cmpi .slt),
    nullary main_c_10 (constantI S_ 32 100000#32),
    unary main_c_10 main_v70 (broadcastInDim S1600000 ![] bcast_S_S1600000),
    binary main_v1 main_v70 main_v71 addi,
    ternary main_v69 main_v71 main_v1 main_v72 select,
    unary main_v72 main_v73 (broadcastInDim S1600000x1 ![0] bcast_S1600000_S1600000x1_0),
    binary main_v63 main_v73 main_v74 (fun x i => Host.gather gather_S100000x64_S1600000x1_S1600000x64_1_0_n_n_0_1_164 x i),
    binary main_v74 main_v67 main_v75 addf ]
  ++ opsRelu2 (.of main_v75) main_call3 ++
  [ nullary main_cst_11 (constant S_ .f32 0x00000000#32),
    unary main_cst_11 main_v77 (broadcastInDim S100000x64 ![] bcast_S_S100000x64),
    unary main_v3 main_v78 (broadcastInDim S1600000x1 ![0] bcast_S1600000_S1600000x1_0),
    ternary main_v77 main_v78 main_v76 main_v79 (fun x i u => Host.scatterAdd scatter_S100000x64_S1600000x1_S1600000x64_1_0_0_1 x i u) ]

/-- The node update. -/
def opsNode1 : List (HloOp τ sig (Elt F)) :=
  [ binary main_v63 main_v79 main_v80 addf,
    binary main_v80 main_arg13 main_v81 (fun l r => Host.dotGeneral dot_S100000x64_S64x64_S100000x64_1_0_0_1_n_n none l r),
    unary main_arg14 main_v82 (broadcastInDim S1x64 ![1] bcast_S64_S1x64_1),
    unary main_v82 main_v83 (broadcastInDim S100000x64 ![0, 1] bcast_S1x64_S100000x64_0_1),
    binary main_v81 main_v83 main_v84 addf,
    unary main_v84 main_v85 Host.tanh ]

/-- The column means. -/
def opsMean2 : List (HloOp τ sig (Elt F)) :=
  [ nullary main_cst_12 (constant S_ .f32 0x00000000#32),
    binary main_v85 main_cst_12 main_v86 (fun x v => Host.reduceAdd x v reducesTo_S100000x64_S64_d0 h_S_),
    nullary main_cst_13 (constant S_ .f32 0x47C35000#32),
    unary main_cst_13 main_v87 (broadcastInDim S64 ![] bcast_S_S64),
    binary main_v86 main_v87 main_v88 Host.divf ]

/-- The column variances: the helper's call. -/
def opsVar2c : List (HloOp τ sig (Elt F)) :=
  [ nullary main_c_14 (constantI S_ 32 0#32) ]
  ++ opsVar0 (.of main_v85) (.of main_c_14) main_call4

/-- Normalise by the mean and the variance, scale, shift. -/
def opsBn2 : List (HloOp τ sig (Elt F)) :=
  [ unary main_v88 main_v90 (broadcastInDim S1x64 ![1] bcast_S64_S1x64_1),
    unary main_v90 main_v91 (broadcastInDim S100000x64 ![0, 1] bcast_S1x64_S100000x64_0_1),
    binary main_v85 main_v91 main_v92 subf,
    nullary main_cst_15 (constant S_ .f32 0x3727C5AC#32),
    unary main_cst_15 main_v93 (broadcastInDim S64 ![] bcast_S_S64),
    binary main_v89 main_v93 main_v94 addf,
    unary main_v94 main_v95 Host.rsqrt,
    unary main_v95 main_v96 (broadcastInDim S1x64 ![1] bcast_S64_S1x64_1),
    unary main_v96 main_v97 (broadcastInDim S100000x64 ![0, 1] bcast_S1x64_S100000x64_0_1),
    binary main_v92 main_v97 main_v98 mulf,
    unary main_arg15 main_v99 (broadcastInDim S1x64 ![1] bcast_S64_S1x64_1),
    unary main_v99 main_v100 (broadcastInDim S100000x64 ![0, 1] bcast_S1x64_S100000x64_0_1),
    binary main_v98 main_v100 main_v101 mulf,
    unary main_arg16 main_v102 (broadcastInDim S1x64 ![1] bcast_S64_S1x64_1),
    unary main_v102 main_v103 (broadcastInDim S100000x64 ![0, 1] bcast_S1x64_S100000x64_0_1),
    binary main_v101 main_v103 main_v104 addf ]

/-- The last product and tanh. -/
def opsHead : List (HloOp τ sig (Elt F)) :=
  [ binary main_v104 main_arg17 main_v105 (fun l r => Host.dotGeneral dot_S100000x64_S64x64_S100000x64_1_0_0_1_n_n none l r),
    unary main_v105 main_v106 Host.tanh ]

/-- The three blocks side by side. -/
def opsCat : List (HloOp τ sig (Elt F)) :=
  [ nary ![main_v63, main_v104, main_v106] main_v107 (fun u => concatenate S100000x192 1 [⟨S100000x64, u 0⟩, ⟨S100000x64, u 1⟩, ⟨S100000x64, u 2⟩] concatenates_S100000x64_S100000x64_S100000x64_S100000x192_d1) ]

/-- @main's operations, in order. -/
def ops : List (HloOp τ sig (Elt F)) :=
  opsIdx ++ opsMean0 ++ opsVar0c ++ opsBn0 ++ opsEdge0 ++ opsAgg0 ++ opsNode0 ++ opsMean1 ++ opsVar1c ++ opsBn1 ++ opsEdge1 ++ opsAgg1 ++ opsNode1 ++ opsMean2 ++ opsVar2c ++ opsBn2 ++ opsHead ++ opsCat

set_option maxRecDepth 16384 in
set_option maxHeartbeats 0 in  -- two hundred binds reassociated; about forty seconds
/-- @main is that straight line: the helpers unfolded at their calls, sequencing reassociated. -/
theorem main_eq (c : Dev nD) : main (F := F) c = seq ops := by
  simp only [main, main_part0, main_part1, main_part2, fn_var.body, fn_where.body, fn_relu.body, fn_var_0.body,
    fn_where_1.body, fn_relu_2.body, ops, opsIdx, opsMean0, opsVar0c, opsBn0, opsEdge0, opsAgg0, opsNode0, opsMean1, opsVar1c, opsBn1, opsEdge1, opsAgg1, opsNode1, opsMean2, opsVar2c, opsBn2, opsHead, opsCat,
    opsVar, opsVar0, opsWhere, opsWhere1, opsRelu, opsRelu2, List.cons_append, List.nil_append, List.append_assoc,
    seq, bind_assoc, pure_bind]
  rfl

/-! ## The stages' functions, over what each stage reads

The normalisation with the mean and the variance as arguments, the aggregation with the source and destination
rows as arguments: Cert.RefSpec's functions are these at the mean, variance and rows computed from their operand. -/

section Spec
open Cert.RefSpec

/-- Normalise x by the mean mu and the variance var, scale by g, shift by b. -/
def bnApply128 (x : T S100000x128 .f32) (mu var g b : T S128 .f32) : T S100000x128 .f32 :=
  addf (F := Ideal) (φ := .f32)
    (mulf (F := Ideal) (φ := .f32)
      (mulf (F := Ideal) (φ := .f32) (subf (F := Ideal) (φ := .f32) x (rows128 mu))
        (rows128 (Host.rsqrt (F := Ideal) (φ := .f32) (addf (F := Ideal) (φ := .f32) var (broadcastInDim S128 ![] bcast_S_S128 (k 0x3727C5AC#32))))))
      (rows128 g))
    (rows128 b)

theorem bn128_eq (x : T S100000x128 .f32) (g b : T S128 .f32) : bn128 x g b = bnApply128 x (mean128 x) (var128 x) g b := rfl

/-- Normalise x by the mean mu and the variance var, scale by g, shift by b. -/
def bnApply64 (x : T S100000x64 .f32) (mu var g b : T S64 .f32) : T S100000x64 .f32 :=
  addf (F := Ideal) (φ := .f32)
    (mulf (F := Ideal) (φ := .f32)
      (mulf (F := Ideal) (φ := .f32) (subf (F := Ideal) (φ := .f32) x (rows64 mu))
        (rows64 (Host.rsqrt (F := Ideal) (φ := .f32) (addf (F := Ideal) (φ := .f32) var (broadcastInDim S64 ![] bcast_S_S64 (k 0x3727C5AC#32))))))
      (rows64 g))
    (rows64 b)

theorem bn64_eq (x : T S100000x64 .f32) (g b : T S64 .f32) : bn64 x g b = bnApply64 x (mean64 x) (var64 x) g b := rfl

/-- The aggregation with the source row s and the destination row d as arguments. -/
def aggApply128 (x : T S100000x128 .f32) (e : T S1600000x128 .f32) (s d : T S1600000 .i32) : T S100000x128 .f32 :=
  Host.scatterAdd (F := Ideal) (φ := .f32) scatter_S100000x128_S1600000x1_S1600000x128_1_0_0_1
    (broadcastInDim S100000x128 ![] bcast_S_S100000x128 (k 0x00000000#32))
    (broadcastInDim S1600000x1 ![0] bcast_S1600000_S1600000x1_0 d)
    (maximumf (F := Ideal) (φ := .f32) (addf (F := Ideal) (φ := .f32) (Host.gather gather_S100000x128_S1600000x1_S1600000x128_1_0_n_n_0_1_1128 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))) e)
      (broadcastInDim S1600000x128 ![] bcast_S_S1600000x128 (k 0x00000000#32)))

theorem agg128_eq (x : T S100000x128 .f32) (e : T S1600000x128 .f32) (ei : T S2x1600000 .i32) :
    agg128 x e ei = aggApply128 x e (src ei) (dst ei) := rfl

/-- The aggregation with the source row s and the destination row d as arguments. -/
def aggApply64 (x : T S100000x64 .f32) (e : T S1600000x64 .f32) (s d : T S1600000 .i32) : T S100000x64 .f32 :=
  Host.scatterAdd (F := Ideal) (φ := .f32) scatter_S100000x64_S1600000x1_S1600000x64_1_0_0_1
    (broadcastInDim S100000x64 ![] bcast_S_S100000x64 (k 0x00000000#32))
    (broadcastInDim S1600000x1 ![0] bcast_S1600000_S1600000x1_0 d)
    (maximumf (F := Ideal) (φ := .f32) (addf (F := Ideal) (φ := .f32) (Host.gather gather_S100000x64_S1600000x1_S1600000x64_1_0_n_n_0_1_164 x
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 100000#32))) s))) e)
      (broadcastInDim S1600000x64 ![] bcast_S_S1600000x64 (k 0x00000000#32)))

theorem agg64_eq (x : T S100000x64 .f32) (e : T S1600000x64 .f32) (ei : T S2x1600000 .i32) :
    agg64 x e ei = aggApply64 x e (src ei) (dst ei) := rfl

end Spec

/-! ## What each stage leaves at its result, at the ideal instance -/

section Values
set_option maxHeartbeats 4000000
set_option maxRecDepth 4096
variable (V : Valuation τ sig (Elt Ideal))

theorem idx_src_val : after (opsIdx (F := Ideal)) V (Proc.devRef .tc main_v1) = RefSpec.src (V (Proc.devRef .tc main_arg1)) := by
  simp only [opsIdx, opsVar, opsVar0, opsWhere, opsWhere1, opsRelu, opsRelu2, List.cons_append, List.nil_append, List.append_assoc]
  after_results
  rfl
theorem idx_src_val' : after (opsIdx (F := Ideal)) V (no_index (Proc.devRef .tc main_v1)) = RefSpec.src (V (Proc.devRef .tc main_arg1)) := idx_src_val V

theorem idx_dst_val : after (opsIdx (F := Ideal)) V (Proc.devRef .tc main_v3) = RefSpec.dst (V (Proc.devRef .tc main_arg1)) := by
  simp only [opsIdx, opsVar, opsVar0, opsWhere, opsWhere1, opsRelu, opsRelu2, List.cons_append, List.nil_append, List.append_assoc]
  after_results
  rfl
theorem idx_dst_val' : after (opsIdx (F := Ideal)) V (no_index (Proc.devRef .tc main_v3)) = RefSpec.dst (V (Proc.devRef .tc main_arg1)) := idx_dst_val V

theorem mean0_val : after (opsMean0 (F := Ideal)) V (Proc.devRef .tc main_v6) = RefSpec.mean128 (V (Proc.devRef .tc main_arg0)) := by
  simp only [opsMean0, opsVar, opsVar0, opsWhere, opsWhere1, opsRelu, opsRelu2, List.cons_append, List.nil_append, List.append_assoc]
  after_results
  rfl
theorem mean0_val' : after (opsMean0 (F := Ideal)) V (no_index (Proc.devRef .tc main_v6)) = RefSpec.mean128 (V (Proc.devRef .tc main_arg0)) := mean0_val V

theorem var0_val : after (opsVar0c (F := Ideal)) V (Proc.devRef .tc main_v7) = RefSpec.var128 (V (Proc.devRef .tc main_arg0)) := by
  simp only [opsVar0c, opsVar, opsVar0, opsWhere, opsWhere1, opsRelu, opsRelu2, List.cons_append, List.nil_append, List.append_assoc]
  after_results
  rfl
theorem var0_val' : after (opsVar0c (F := Ideal)) V (no_index (Proc.devRef .tc main_v7)) = RefSpec.var128 (V (Proc.devRef .tc main_arg0)) := var0_val V

theorem bn0_val : after (opsBn0 (F := Ideal)) V (Proc.devRef .tc main_v22) = bnApply128 (V (Proc.devRef .tc main_arg0)) (V (Proc.devRef .tc main_v6)) (V (Proc.devRef .tc main_v7)) (V (Proc.devRef .tc main_arg3)) (V (Proc.devRef .tc main_arg4)) := by
  simp only [opsBn0, opsVar, opsVar0, opsWhere, opsWhere1, opsRelu, opsRelu2, List.cons_append, List.nil_append, List.append_assoc]
  after_results
  rfl
theorem bn0_val' : after (opsBn0 (F := Ideal)) V (no_index (Proc.devRef .tc main_v22)) = bnApply128 (V (Proc.devRef .tc main_arg0)) (V (Proc.devRef .tc main_v6)) (V (Proc.devRef .tc main_v7)) (V (Proc.devRef .tc main_arg3)) (V (Proc.devRef .tc main_arg4)) := bn0_val V

theorem edge0_val : after (opsEdge0 (F := Ideal)) V (Proc.devRef .tc main_v26) = RefSpec.edge128 (V (Proc.devRef .tc main_arg2)) (V (Proc.devRef .tc main_arg5)) (V (Proc.devRef .tc main_arg6)) := by
  simp only [opsEdge0, opsVar, opsVar0, opsWhere, opsWhere1, opsRelu, opsRelu2, List.cons_append, List.nil_append, List.append_assoc]
  after_results
  rfl
theorem edge0_val' : after (opsEdge0 (F := Ideal)) V (no_index (Proc.devRef .tc main_v26)) = RefSpec.edge128 (V (Proc.devRef .tc main_arg2)) (V (Proc.devRef .tc main_arg5)) (V (Proc.devRef .tc main_arg6)) := edge0_val V

theorem agg0_val : after (opsAgg0 (F := Ideal)) V (Proc.devRef .tc main_v38) = aggApply128 (V (Proc.devRef .tc main_v22)) (V (Proc.devRef .tc main_v26)) (V (Proc.devRef .tc main_v1)) (V (Proc.devRef .tc main_v3)) := by
  simp only [opsAgg0, opsVar, opsVar0, opsWhere, opsWhere1, opsRelu, opsRelu2, List.cons_append, List.nil_append, List.append_assoc]
  after_results
  rfl
theorem agg0_val' : after (opsAgg0 (F := Ideal)) V (no_index (Proc.devRef .tc main_v38)) = aggApply128 (V (Proc.devRef .tc main_v22)) (V (Proc.devRef .tc main_v26)) (V (Proc.devRef .tc main_v1)) (V (Proc.devRef .tc main_v3)) := agg0_val V

theorem node0_val : after (opsNode0 (F := Ideal)) V (Proc.devRef .tc main_v44) = RefSpec.node128 (V (Proc.devRef .tc main_v22)) (V (Proc.devRef .tc main_v38)) (V (Proc.devRef .tc main_arg7)) (V (Proc.devRef .tc main_arg8)) := by
  simp only [opsNode0, opsVar, opsVar0, opsWhere, opsWhere1, opsRelu, opsRelu2, List.cons_append, List.nil_append, List.append_assoc]
  after_results
  rfl
theorem node0_val' : after (opsNode0 (F := Ideal)) V (no_index (Proc.devRef .tc main_v44)) = RefSpec.node128 (V (Proc.devRef .tc main_v22)) (V (Proc.devRef .tc main_v38)) (V (Proc.devRef .tc main_arg7)) (V (Proc.devRef .tc main_arg8)) := node0_val V

theorem mean1_val : after (opsMean1 (F := Ideal)) V (Proc.devRef .tc main_v47) = RefSpec.mean64 (V (Proc.devRef .tc main_v44)) := by
  simp only [opsMean1, opsVar, opsVar0, opsWhere, opsWhere1, opsRelu, opsRelu2, List.cons_append, List.nil_append, List.append_assoc]
  after_results
  rfl
theorem mean1_val' : after (opsMean1 (F := Ideal)) V (no_index (Proc.devRef .tc main_v47)) = RefSpec.mean64 (V (Proc.devRef .tc main_v44)) := mean1_val V

theorem var1_val : after (opsVar1c (F := Ideal)) V (Proc.devRef .tc main_v48) = RefSpec.var64 (V (Proc.devRef .tc main_v44)) := by
  simp only [opsVar1c, opsVar, opsVar0, opsWhere, opsWhere1, opsRelu, opsRelu2, List.cons_append, List.nil_append, List.append_assoc]
  after_results
  rfl
theorem var1_val' : after (opsVar1c (F := Ideal)) V (no_index (Proc.devRef .tc main_v48)) = RefSpec.var64 (V (Proc.devRef .tc main_v44)) := var1_val V

theorem bn1_val : after (opsBn1 (F := Ideal)) V (Proc.devRef .tc main_v63) = bnApply64 (V (Proc.devRef .tc main_v44)) (V (Proc.devRef .tc main_v47)) (V (Proc.devRef .tc main_v48)) (V (Proc.devRef .tc main_arg9)) (V (Proc.devRef .tc main_arg10)) := by
  simp only [opsBn1, opsVar, opsVar0, opsWhere, opsWhere1, opsRelu, opsRelu2, List.cons_append, List.nil_append, List.append_assoc]
  after_results
  rfl
theorem bn1_val' : after (opsBn1 (F := Ideal)) V (no_index (Proc.devRef .tc main_v63)) = bnApply64 (V (Proc.devRef .tc main_v44)) (V (Proc.devRef .tc main_v47)) (V (Proc.devRef .tc main_v48)) (V (Proc.devRef .tc main_arg9)) (V (Proc.devRef .tc main_arg10)) := bn1_val V

theorem edge1_val : after (opsEdge1 (F := Ideal)) V (Proc.devRef .tc main_v67) = RefSpec.edge64 (V (Proc.devRef .tc main_arg2)) (V (Proc.devRef .tc main_arg11)) (V (Proc.devRef .tc main_arg12)) := by
  simp only [opsEdge1, opsVar, opsVar0, opsWhere, opsWhere1, opsRelu, opsRelu2, List.cons_append, List.nil_append, List.append_assoc]
  after_results
  rfl
theorem edge1_val' : after (opsEdge1 (F := Ideal)) V (no_index (Proc.devRef .tc main_v67)) = RefSpec.edge64 (V (Proc.devRef .tc main_arg2)) (V (Proc.devRef .tc main_arg11)) (V (Proc.devRef .tc main_arg12)) := edge1_val V

theorem agg1_val : after (opsAgg1 (F := Ideal)) V (Proc.devRef .tc main_v79) = aggApply64 (V (Proc.devRef .tc main_v63)) (V (Proc.devRef .tc main_v67)) (V (Proc.devRef .tc main_v1)) (V (Proc.devRef .tc main_v3)) := by
  simp only [opsAgg1, opsVar, opsVar0, opsWhere, opsWhere1, opsRelu, opsRelu2, List.cons_append, List.nil_append, List.append_assoc]
  after_results
  rfl
theorem agg1_val' : after (opsAgg1 (F := Ideal)) V (no_index (Proc.devRef .tc main_v79)) = aggApply64 (V (Proc.devRef .tc main_v63)) (V (Proc.devRef .tc main_v67)) (V (Proc.devRef .tc main_v1)) (V (Proc.devRef .tc main_v3)) := agg1_val V

theorem node1_val : after (opsNode1 (F := Ideal)) V (Proc.devRef .tc main_v85) = RefSpec.node64 (V (Proc.devRef .tc main_v63)) (V (Proc.devRef .tc main_v79)) (V (Proc.devRef .tc main_arg13)) (V (Proc.devRef .tc main_arg14)) := by
  simp only [opsNode1, opsVar, opsVar0, opsWhere, opsWhere1, opsRelu, opsRelu2, List.cons_append, List.nil_append, List.append_assoc]
  after_results
  rfl
theorem node1_val' : after (opsNode1 (F := Ideal)) V (no_index (Proc.devRef .tc main_v85)) = RefSpec.node64 (V (Proc.devRef .tc main_v63)) (V (Proc.devRef .tc main_v79)) (V (Proc.devRef .tc main_arg13)) (V (Proc.devRef .tc main_arg14)) := node1_val V

theorem mean2_val : after (opsMean2 (F := Ideal)) V (Proc.devRef .tc main_v88) = RefSpec.mean64 (V (Proc.devRef .tc main_v85)) := by
  simp only [opsMean2, opsVar, opsVar0, opsWhere, opsWhere1, opsRelu, opsRelu2, List.cons_append, List.nil_append, List.append_assoc]
  after_results
  rfl
theorem mean2_val' : after (opsMean2 (F := Ideal)) V (no_index (Proc.devRef .tc main_v88)) = RefSpec.mean64 (V (Proc.devRef .tc main_v85)) := mean2_val V

theorem var2_val : after (opsVar2c (F := Ideal)) V (Proc.devRef .tc main_v89) = RefSpec.var64 (V (Proc.devRef .tc main_v85)) := by
  simp only [opsVar2c, opsVar, opsVar0, opsWhere, opsWhere1, opsRelu, opsRelu2, List.cons_append, List.nil_append, List.append_assoc]
  after_results
  rfl
theorem var2_val' : after (opsVar2c (F := Ideal)) V (no_index (Proc.devRef .tc main_v89)) = RefSpec.var64 (V (Proc.devRef .tc main_v85)) := var2_val V

theorem bn2_val : after (opsBn2 (F := Ideal)) V (Proc.devRef .tc main_v104) = bnApply64 (V (Proc.devRef .tc main_v85)) (V (Proc.devRef .tc main_v88)) (V (Proc.devRef .tc main_v89)) (V (Proc.devRef .tc main_arg15)) (V (Proc.devRef .tc main_arg16)) := by
  simp only [opsBn2, opsVar, opsVar0, opsWhere, opsWhere1, opsRelu, opsRelu2, List.cons_append, List.nil_append, List.append_assoc]
  after_results
  rfl
theorem bn2_val' : after (opsBn2 (F := Ideal)) V (no_index (Proc.devRef .tc main_v104)) = bnApply64 (V (Proc.devRef .tc main_v85)) (V (Proc.devRef .tc main_v88)) (V (Proc.devRef .tc main_v89)) (V (Proc.devRef .tc main_arg15)) (V (Proc.devRef .tc main_arg16)) := bn2_val V

theorem head_val : after (opsHead (F := Ideal)) V (Proc.devRef .tc main_v106) = RefSpec.mt64 (V (Proc.devRef .tc main_v104)) (V (Proc.devRef .tc main_arg17)) := by
  simp only [opsHead, opsVar, opsVar0, opsWhere, opsWhere1, opsRelu, opsRelu2, List.cons_append, List.nil_append, List.append_assoc]
  after_results
  rfl
theorem head_val' : after (opsHead (F := Ideal)) V (no_index (Proc.devRef .tc main_v106)) = RefSpec.mt64 (V (Proc.devRef .tc main_v104)) (V (Proc.devRef .tc main_arg17)) := head_val V

theorem cat_val : after (opsCat (F := Ideal)) V (Proc.devRef .tc main_v107) = RefSpec.cat (V (Proc.devRef .tc main_v63)) (V (Proc.devRef .tc main_v104)) (V (Proc.devRef .tc main_v106)) := by
  simp only [opsCat, opsVar, opsVar0, opsWhere, opsWhere1, opsRelu, opsRelu2, List.cons_append, List.nil_append, List.append_assoc]
  after_results
  rfl
theorem cat_val' : after (opsCat (F := Ideal)) V (no_index (Proc.devRef .tc main_v107)) = RefSpec.cat (V (Proc.devRef .tc main_v63)) (V (Proc.devRef .tc main_v104)) (V (Proc.devRef .tc main_v106)) := cat_val V

end Values

/-! ## What each stage writes, and that it leaves every other buffer as it was -/

/-- The references opsIdx's operations write. -/
abbrev opsIdx_W : List (Ref sig .tc) := [main_v0, main_v1, main_v2, main_v3]
theorem opsIdx_writes : (opsIdx : List (HloOp τ sig (Elt F))).Forall fun op => op.writes ⊆ (opsIdx_W.map (Proc.devRef (τ := τ) .tc)).toFinset := by
  simp only [opsIdx, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsIdx_frame (V : Valuation τ sig (Elt F)) {r : Ref sig .tc} (h : r ∉ opsIdx_W) :
    after opsIdx V (no_index (Proc.devRef .tc r)) = V (Proc.devRef .tc r) := after_of_writes_sub opsIdx V opsIdx_writes h

/-- The references opsMean0's operations write. -/
abbrev opsMean0_W : List (Ref sig .tc) := [main_cst, main_v4, main_cst_0, main_v5, main_v6]
theorem opsMean0_writes : (opsMean0 : List (HloOp τ sig (Elt F))).Forall fun op => op.writes ⊆ (opsMean0_W.map (Proc.devRef (τ := τ) .tc)).toFinset := by
  simp only [opsMean0, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsMean0_frame (V : Valuation τ sig (Elt F)) {r : Ref sig .tc} (h : r ∉ opsMean0_W) :
    after opsMean0 V (no_index (Proc.devRef .tc r)) = V (Proc.devRef .tc r) := after_of_writes_sub opsMean0 V opsMean0_writes h

/-- The references opsVar0c's operations write. -/
abbrev opsVar0c_W : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v7]
theorem opsVar0c_writes : (opsVar0c : List (HloOp τ sig (Elt F))).Forall fun op => op.writes ⊆ (opsVar0c_W.map (Proc.devRef (τ := τ) .tc)).toFinset := by
  simp only [opsVar0c, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsVar0c_frame (V : Valuation τ sig (Elt F)) {r : Ref sig .tc} (h : r ∉ opsVar0c_W) :
    after opsVar0c V (no_index (Proc.devRef .tc r)) = V (Proc.devRef .tc r) := after_of_writes_sub opsVar0c V opsVar0c_writes h

/-- The references opsBn0's operations write. -/
abbrev opsBn0_W : List (Ref sig .tc) := [main_v8, main_v9, main_v10, main_cst_1, main_v11, main_v12, main_v13, main_v14, main_v15, main_v16, main_v17, main_v18, main_v19, main_v20, main_v21, main_v22]
theorem opsBn0_writes : (opsBn0 : List (HloOp τ sig (Elt F))).Forall fun op => op.writes ⊆ (opsBn0_W.map (Proc.devRef (τ := τ) .tc)).toFinset := by
  simp only [opsBn0, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsBn0_frame (V : Valuation τ sig (Elt F)) {r : Ref sig .tc} (h : r ∉ opsBn0_W) :
    after opsBn0 V (no_index (Proc.devRef .tc r)) = V (Proc.devRef .tc r) := after_of_writes_sub opsBn0 V opsBn0_writes h

/-- The references opsEdge0's operations write. -/
abbrev opsEdge0_W : List (Ref sig .tc) := [main_v23, main_v24, main_v25, main_v26]
theorem opsEdge0_writes : (opsEdge0 : List (HloOp τ sig (Elt F))).Forall fun op => op.writes ⊆ (opsEdge0_W.map (Proc.devRef (τ := τ) .tc)).toFinset := by
  simp only [opsEdge0, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsEdge0_frame (V : Valuation τ sig (Elt F)) {r : Ref sig .tc} (h : r ∉ opsEdge0_W) :
    after opsEdge0 V (no_index (Proc.devRef .tc r)) = V (Proc.devRef .tc r) := after_of_writes_sub opsEdge0 V opsEdge0_writes h

/-- The references opsAgg0's operations write. -/
abbrev opsAgg0_W : List (Ref sig .tc) := [main_c_2, main_v27, main_v28, main_c_3, main_v29, main_v30, main_v31, main_v32, main_v33, main_v34, main_call1_cst, main_call1_v0, main_v35, main_cst_4, main_v36, main_v37, main_v38]
theorem opsAgg0_writes : (opsAgg0 : List (HloOp τ sig (Elt F))).Forall fun op => op.writes ⊆ (opsAgg0_W.map (Proc.devRef (τ := τ) .tc)).toFinset := by
  simp only [opsAgg0, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsAgg0_frame (V : Valuation τ sig (Elt F)) {r : Ref sig .tc} (h : r ∉ opsAgg0_W) :
    after opsAgg0 V (no_index (Proc.devRef .tc r)) = V (Proc.devRef .tc r) := after_of_writes_sub opsAgg0 V opsAgg0_writes h

/-- The references opsNode0's operations write. -/
abbrev opsNode0_W : List (Ref sig .tc) := [main_v39, main_v40, main_v41, main_v42, main_v43, main_v44]
theorem opsNode0_writes : (opsNode0 : List (HloOp τ sig (Elt F))).Forall fun op => op.writes ⊆ (opsNode0_W.map (Proc.devRef (τ := τ) .tc)).toFinset := by
  simp only [opsNode0, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsNode0_frame (V : Valuation τ sig (Elt F)) {r : Ref sig .tc} (h : r ∉ opsNode0_W) :
    after opsNode0 V (no_index (Proc.devRef .tc r)) = V (Proc.devRef .tc r) := after_of_writes_sub opsNode0 V opsNode0_writes h

/-- The references opsMean1's operations write. -/
abbrev opsMean1_W : List (Ref sig .tc) := [main_cst_5, main_v45, main_cst_6, main_v46, main_v47]
theorem opsMean1_writes : (opsMean1 : List (HloOp τ sig (Elt F))).Forall fun op => op.writes ⊆ (opsMean1_W.map (Proc.devRef (τ := τ) .tc)).toFinset := by
  simp only [opsMean1, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsMean1_frame (V : Valuation τ sig (Elt F)) {r : Ref sig .tc} (h : r ∉ opsMean1_W) :
    after opsMean1 V (no_index (Proc.devRef .tc r)) = V (Proc.devRef .tc r) := after_of_writes_sub opsMean1 V opsMean1_writes h

/-- The references opsVar1c's operations write. -/
abbrev opsVar1c_W : List (Ref sig .tc) := [main_c_7, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v48]
theorem opsVar1c_writes : (opsVar1c : List (HloOp τ sig (Elt F))).Forall fun op => op.writes ⊆ (opsVar1c_W.map (Proc.devRef (τ := τ) .tc)).toFinset := by
  simp only [opsVar1c, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsVar1c_frame (V : Valuation τ sig (Elt F)) {r : Ref sig .tc} (h : r ∉ opsVar1c_W) :
    after opsVar1c V (no_index (Proc.devRef .tc r)) = V (Proc.devRef .tc r) := after_of_writes_sub opsVar1c V opsVar1c_writes h

/-- The references opsBn1's operations write. -/
abbrev opsBn1_W : List (Ref sig .tc) := [main_v49, main_v50, main_v51, main_cst_8, main_v52, main_v53, main_v54, main_v55, main_v56, main_v57, main_v58, main_v59, main_v60, main_v61, main_v62, main_v63]
theorem opsBn1_writes : (opsBn1 : List (HloOp τ sig (Elt F))).Forall fun op => op.writes ⊆ (opsBn1_W.map (Proc.devRef (τ := τ) .tc)).toFinset := by
  simp only [opsBn1, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsBn1_frame (V : Valuation τ sig (Elt F)) {r : Ref sig .tc} (h : r ∉ opsBn1_W) :
    after opsBn1 V (no_index (Proc.devRef .tc r)) = V (Proc.devRef .tc r) := after_of_writes_sub opsBn1 V opsBn1_writes h

/-- The references opsEdge1's operations write. -/
abbrev opsEdge1_W : List (Ref sig .tc) := [main_v64, main_v65, main_v66, main_v67]
theorem opsEdge1_writes : (opsEdge1 : List (HloOp τ sig (Elt F))).Forall fun op => op.writes ⊆ (opsEdge1_W.map (Proc.devRef (τ := τ) .tc)).toFinset := by
  simp only [opsEdge1, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsEdge1_frame (V : Valuation τ sig (Elt F)) {r : Ref sig .tc} (h : r ∉ opsEdge1_W) :
    after opsEdge1 V (no_index (Proc.devRef .tc r)) = V (Proc.devRef .tc r) := after_of_writes_sub opsEdge1 V opsEdge1_writes h

/-- The references opsAgg1's operations write. -/
abbrev opsAgg1_W : List (Ref sig .tc) := [main_c_9, main_v68, main_v69, main_c_10, main_v70, main_v71, main_v72, main_v73, main_v74, main_v75, main_call3_cst, main_call3_v0, main_v76, main_cst_11, main_v77, main_v78, main_v79]
theorem opsAgg1_writes : (opsAgg1 : List (HloOp τ sig (Elt F))).Forall fun op => op.writes ⊆ (opsAgg1_W.map (Proc.devRef (τ := τ) .tc)).toFinset := by
  simp only [opsAgg1, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsAgg1_frame (V : Valuation τ sig (Elt F)) {r : Ref sig .tc} (h : r ∉ opsAgg1_W) :
    after opsAgg1 V (no_index (Proc.devRef .tc r)) = V (Proc.devRef .tc r) := after_of_writes_sub opsAgg1 V opsAgg1_writes h

/-- The references opsNode1's operations write. -/
abbrev opsNode1_W : List (Ref sig .tc) := [main_v80, main_v81, main_v82, main_v83, main_v84, main_v85]
theorem opsNode1_writes : (opsNode1 : List (HloOp τ sig (Elt F))).Forall fun op => op.writes ⊆ (opsNode1_W.map (Proc.devRef (τ := τ) .tc)).toFinset := by
  simp only [opsNode1, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsNode1_frame (V : Valuation τ sig (Elt F)) {r : Ref sig .tc} (h : r ∉ opsNode1_W) :
    after opsNode1 V (no_index (Proc.devRef .tc r)) = V (Proc.devRef .tc r) := after_of_writes_sub opsNode1 V opsNode1_writes h

/-- The references opsMean2's operations write. -/
abbrev opsMean2_W : List (Ref sig .tc) := [main_cst_12, main_v86, main_cst_13, main_v87, main_v88]
theorem opsMean2_writes : (opsMean2 : List (HloOp τ sig (Elt F))).Forall fun op => op.writes ⊆ (opsMean2_W.map (Proc.devRef (τ := τ) .tc)).toFinset := by
  simp only [opsMean2, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsMean2_frame (V : Valuation τ sig (Elt F)) {r : Ref sig .tc} (h : r ∉ opsMean2_W) :
    after opsMean2 V (no_index (Proc.devRef .tc r)) = V (Proc.devRef .tc r) := after_of_writes_sub opsMean2 V opsMean2_writes h

/-- The references opsVar2c's operations write. -/
abbrev opsVar2c_W : List (Ref sig .tc) := [main_c_14, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v89]
theorem opsVar2c_writes : (opsVar2c : List (HloOp τ sig (Elt F))).Forall fun op => op.writes ⊆ (opsVar2c_W.map (Proc.devRef (τ := τ) .tc)).toFinset := by
  simp only [opsVar2c, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsVar2c_frame (V : Valuation τ sig (Elt F)) {r : Ref sig .tc} (h : r ∉ opsVar2c_W) :
    after opsVar2c V (no_index (Proc.devRef .tc r)) = V (Proc.devRef .tc r) := after_of_writes_sub opsVar2c V opsVar2c_writes h

/-- The references opsBn2's operations write. -/
abbrev opsBn2_W : List (Ref sig .tc) := [main_v90, main_v91, main_v92, main_cst_15, main_v93, main_v94, main_v95, main_v96, main_v97, main_v98, main_v99, main_v100, main_v101, main_v102, main_v103, main_v104]
theorem opsBn2_writes : (opsBn2 : List (HloOp τ sig (Elt F))).Forall fun op => op.writes ⊆ (opsBn2_W.map (Proc.devRef (τ := τ) .tc)).toFinset := by
  simp only [opsBn2, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsBn2_frame (V : Valuation τ sig (Elt F)) {r : Ref sig .tc} (h : r ∉ opsBn2_W) :
    after opsBn2 V (no_index (Proc.devRef .tc r)) = V (Proc.devRef .tc r) := after_of_writes_sub opsBn2 V opsBn2_writes h

/-- The references opsHead's operations write. -/
abbrev opsHead_W : List (Ref sig .tc) := [main_v105, main_v106]
theorem opsHead_writes : (opsHead : List (HloOp τ sig (Elt F))).Forall fun op => op.writes ⊆ (opsHead_W.map (Proc.devRef (τ := τ) .tc)).toFinset := by
  simp only [opsHead, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsHead_frame (V : Valuation τ sig (Elt F)) {r : Ref sig .tc} (h : r ∉ opsHead_W) :
    after opsHead V (no_index (Proc.devRef .tc r)) = V (Proc.devRef .tc r) := after_of_writes_sub opsHead V opsHead_writes h

/-- The references opsCat's operations write. -/
abbrev opsCat_W : List (Ref sig .tc) := [main_v107]
theorem opsCat_writes : (opsCat : List (HloOp τ sig (Elt F))).Forall fun op => op.writes ⊆ (opsCat_W.map (Proc.devRef (τ := τ) .tc)).toFinset := by
  simp only [opsCat, opsVar, opsVar0, opsWhere, opsWhere1, opsRelu, opsRelu2, List.cons_append, List.nil_append, List.append_assoc, List.Forall, nullary_writes, unary_writes, binary_writes, ternary_writes, reshape_writes, nary_writes,
    Finset.singleton_subset_iff, List.mem_toFinset, List.mem_map_of_injective (Proc.devRef_injective _)]
  decide
theorem opsCat_frame (V : Valuation τ sig (Elt F)) {r : Ref sig .tc} (h : r ∉ opsCat_W) :
    after opsCat V (no_index (Proc.devRef .tc r)) = V (Proc.devRef .tc r) := after_of_writes_sub opsCat V opsCat_writes h

/-- Two lines run one after the other: the second from what the first leaves. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-! ## The whole line -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, opsIdx, opsMean0, opsVar0c, opsBn0, opsEdge0, opsAgg0, opsNode0, opsMean1, opsVar1c, opsBn1, opsEdge1, opsAgg1, opsNode1, opsMean2, opsVar2c, opsBn2, opsHead, opsCat, opsVar, opsVar0, opsWhere, opsWhere1, opsRelu, opsRelu2, List.cons_append, List.nil_append, List.append_assoc, List.Forall,
    nullary_bufs_sub, unary_bufs_sub, binary_bufs_sub, ternary_bufs_sub, reshape_bufs_sub, nary_bufs_sub, and_self]

/-- Every operation determines its results. -/
theorem ops_fresh : ∀ op ∈ (ops : List (HloOp τ sig (Elt F))), op.fresh = ∅ := by
  refine List.forall_iff_forall_mem.mp ?_
  simp only [ops, opsIdx, opsMean0, opsVar0c, opsBn0, opsEdge0, opsAgg0, opsNode0, opsMean1, opsVar1c, opsBn1, opsEdge1, opsAgg1, opsNode1, opsMean2, opsVar2c, opsBn2, opsHead, opsCat, opsVar, opsVar0, opsWhere, opsWhere1, opsRelu, opsRelu2, List.cons_append, List.nil_append, List.append_assoc, List.Forall]
  repeat' constructor

/-- The result buffer after the line: the specification of the arguments. -/
theorem out_eq (V : Valuation τ sig (Elt Ideal)) :
    after (ops (F := Ideal)) V (Proc.devRef .tc main_v107)
      = RefSpec.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
  simp (disch := decide) only [ops, after_app, idx_src_val', idx_dst_val', mean0_val', var0_val', bn0_val', edge0_val', agg0_val', node0_val', mean1_val', var1_val', bn1_val', edge1_val', agg1_val', node1_val', mean2_val', var2_val', bn2_val', head_val', cat_val',
    opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
  simp only [RefSpec.out, bn128_eq, bn64_eq, agg128_eq, agg64_eq]

/-- No operation writes an argument. -/
theorem main_arg0_keep (V : Valuation τ sig (Elt F)) : after (ops (F := F)) V (Proc.devRef .tc main_arg0) = V (Proc.devRef .tc main_arg0) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg1_keep (V : Valuation τ sig (Elt F)) : after (ops (F := F)) V (Proc.devRef .tc main_arg1) = V (Proc.devRef .tc main_arg1) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg2_keep (V : Valuation τ sig (Elt F)) : after (ops (F := F)) V (Proc.devRef .tc main_arg2) = V (Proc.devRef .tc main_arg2) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg3_keep (V : Valuation τ sig (Elt F)) : after (ops (F := F)) V (Proc.devRef .tc main_arg3) = V (Proc.devRef .tc main_arg3) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg4_keep (V : Valuation τ sig (Elt F)) : after (ops (F := F)) V (Proc.devRef .tc main_arg4) = V (Proc.devRef .tc main_arg4) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg5_keep (V : Valuation τ sig (Elt F)) : after (ops (F := F)) V (Proc.devRef .tc main_arg5) = V (Proc.devRef .tc main_arg5) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg6_keep (V : Valuation τ sig (Elt F)) : after (ops (F := F)) V (Proc.devRef .tc main_arg6) = V (Proc.devRef .tc main_arg6) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg7_keep (V : Valuation τ sig (Elt F)) : after (ops (F := F)) V (Proc.devRef .tc main_arg7) = V (Proc.devRef .tc main_arg7) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg8_keep (V : Valuation τ sig (Elt F)) : after (ops (F := F)) V (Proc.devRef .tc main_arg8) = V (Proc.devRef .tc main_arg8) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg9_keep (V : Valuation τ sig (Elt F)) : after (ops (F := F)) V (Proc.devRef .tc main_arg9) = V (Proc.devRef .tc main_arg9) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg10_keep (V : Valuation τ sig (Elt F)) : after (ops (F := F)) V (Proc.devRef .tc main_arg10) = V (Proc.devRef .tc main_arg10) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg11_keep (V : Valuation τ sig (Elt F)) : after (ops (F := F)) V (Proc.devRef .tc main_arg11) = V (Proc.devRef .tc main_arg11) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg12_keep (V : Valuation τ sig (Elt F)) : after (ops (F := F)) V (Proc.devRef .tc main_arg12) = V (Proc.devRef .tc main_arg12) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg13_keep (V : Valuation τ sig (Elt F)) : after (ops (F := F)) V (Proc.devRef .tc main_arg13) = V (Proc.devRef .tc main_arg13) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg14_keep (V : Valuation τ sig (Elt F)) : after (ops (F := F)) V (Proc.devRef .tc main_arg14) = V (Proc.devRef .tc main_arg14) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg15_keep (V : Valuation τ sig (Elt F)) : after (ops (F := F)) V (Proc.devRef .tc main_arg15) = V (Proc.devRef .tc main_arg15) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg16_keep (V : Valuation τ sig (Elt F)) : after (ops (F := F)) V (Proc.devRef .tc main_arg16) = V (Proc.devRef .tc main_arg16) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]
theorem main_arg17_keep (V : Valuation τ sig (Elt F)) : after (ops (F := F)) V (Proc.devRef .tc main_arg17) = V (Proc.devRef .tc main_arg17) := by
  simp (disch := decide) only [ops, after_app, opsIdx_frame, opsMean0_frame, opsVar0c_frame, opsBn0_frame, opsEdge0_frame, opsAgg0_frame, opsNode0_frame, opsMean1_frame, opsVar1c_frame, opsBn1_frame, opsEdge1_frame, opsAgg1_frame, opsNode1_frame, opsMean2_frame, opsVar2c_frame, opsBn2_frame, opsHead_frame, opsCat_frame]

end Cert.ReferenceIdeal.RefRun

end
-- ==== Proof.RefRun.lean ====
/-
  The reference program's run: from any memory with zero counters every weakly fair execution of its @main ends
  with the result buffer at Cert.RefSpec.out of the arguments' launch contents and the arguments unchanged
  (the straight line, its stages' values and frames: RefRunOps).
-/
import proofs.«120795_j24472723652943_2_alg».proof.Proof.RefRunOps

noncomputable section

namespace Cert.ReferenceIdeal.RefRun

open Cert.ReferenceIdeal Cert.ReferenceIdeal.Gen Idealize.ShloMosaic Idealize.ShloMosaic.TcCoe Idealize.SL.Sem Idealize.ShloMosaic.StableHlo

set_option maxHeartbeats 4000000 in
/-- On every device, from any memory with zero counters: every weakly fair execution of @main terminates with the
    result buffer at the specification of the launch contents of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v107) = RefSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v107).trans (out_eq _),
      (h c main_arg0).trans (main_arg0_keep _),
      (h c main_arg1).trans (main_arg1_keep _),
      (h c main_arg2).trans (main_arg2_keep _),
      (h c main_arg3).trans (main_arg3_keep _),
      (h c main_arg4).trans (main_arg4_keep _),
      (h c main_arg5).trans (main_arg5_keep _),
      (h c main_arg6).trans (main_arg6_keep _),
      (h c main_arg7).trans (main_arg7_keep _),
      (h c main_arg8).trans (main_arg8_keep _),
      (h c main_arg9).trans (main_arg9_keep _),
      (h c main_arg10).trans (main_arg10_keep _),
      (h c main_arg11).trans (main_arg11_keep _),
      (h c main_arg12).trans (main_arg12_keep _),
      (h c main_arg13).trans (main_arg13_keep _),
      (h c main_arg14).trans (main_arg14_keep _),
      (h c main_arg15).trans (main_arg15_keep _),
      (h c main_arg16).trans (main_arg16_keep _),
      (h c main_arg17).trans (main_arg17_keep _)⟩)
    (run_seq scopedRefs_eq scopedSems_eq defs main (fun _ => ops) main_eq (fun _ => ops_sub) m ρ (fun _ => ops_fresh))

/-- The frame alone: @main runs (terminates, no fault) and its argument buffers end unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.ReferenceIdeal.RefRun

end
-- ==== Proof.lean ====
/-
  The claim: a two-layer graph network with three batch norms.  With N = 100000 nodes and E = 1600000 edges,
      x  = BN(X),   h1 = BN(tanh((x + agg x) · W0 + b0)),   h2 = BN(tanh((h1 + agg h1) · W1 + b1)),   h3 = tanh(h2 · Wfc),
  the result is the three layers side by side, [N, 192]; BN(y) = (y − mean y) · rsqrt(var y + ε) · γ + β over the nodes, and
  agg y sums relu(y[src e] + a e · We + be) over the edges e into their destination nodes.

  The reference computes all of this with array operations.  The kernel computes the means, variances, the gathers and the
  scatter-sums with the same array operations, but applies each batch norm, each layer's matrix product with bias and tanh, and
  the last product in a pallas_call over twenty blocks of 5000 nodes.  On the extended reals the two are one function:
    * a region's output array is the fold of its twenty write-backs; block t written back is block t of ONE whole-array
      function of the region's operand arrays (`bnG…`, `nodeG…`, `mtG`), because the row blocks move with the grid point and
      the one-row tables and weight matrices are whole-array blocks; the blocks cover the rows (row r lies in block r / 5000);
    * that whole-array function is the reference's stage: the reference's broadcast of a length-C vector along the rows read at
      (r, q) is the vector at q, as is the kernel's one-row table; a product with the weights is the same finite sum;
    * the edge term `a e · We q`, spelled by the kernel as a product of two broadcasts, is the reference's contraction over an axis
      of extent one — a one-term sum;
    * the gathers, scatter-sums, means and variances are the same operations of equal operands.
  No finiteness is needed: nothing is distributed, cancelled or moved across a sum.

  The frames (each program terminates without a fault and leaves its arguments as launched) come with the runs: the kernel
  programs' from the library's several-region launch theorem over one segment per host stretch and one region record per
  pallas_call (each body run symbolically once, at a generic grid point), the reference's from its list of operations.
  The idealisation rewrote nothing, so `preserves` is `True`.
-/
import proofs.«120795_j24472723652943_2_alg».proof.Defs
import proofs.«120795_j24472723652943_2_alg».proof.Proof.Gen.Kernel
import proofs.«120795_j24472723652943_2_alg».proof.Proof.Gen.KernelIdeal
import proofs.«120795_j24472723652943_2_alg».proof.Proof.Gen.ReferenceIdeal
import proofs.«120795_j24472723652943_2_alg».proof.Proof.Gen.Pre_finite_inputs
import proofs.«120795_j24472723652943_2_alg».proof.Proof.K.Outs
import proofs.«120795_j24472723652943_2_alg».proof.Proof.KI.Outs
import proofs.«120795_j24472723652943_2_alg».proof.Proof.KI.Bridge
import proofs.«120795_j24472723652943_2_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame m ρ

/-- So does the idealised kernel program. -/
theorem frame_ki : Cert.frame_KernelIdeal := fun m ρ _ => Cert.KernelIdeal.Hand.frame m ρ

/-- So does the reference: its run with the result forgotten. -/
theorem frame_ri : Cert.frame_ReferenceIdeal := fun m ρ _ =>
  (θ_run Cert.ReferenceIdeal.defs _ _).mono (fun _ h c => (h c).2) (Cert.ReferenceIdeal.RefRun.run m ρ)

/-- From memories agreeing on the arguments both programs end with the specification's result of those arguments. -/
theorem algebraic : Cert.algebraic_KernelIdeal_ReferenceIdeal := by
  intro m ρ m' ρ' _ hagree
  refine ⟨fun c => Cert.RefSpec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Hand.result_eq m c), (h c).2⟩) (Cert.KernelIdeal.Hand.run m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13, h14, h15, h16, h17⟩ := hagree c
    rw [h0, h1, h2, h3, h4, h5, h6, h7, h8, h9, h10, h11, h12, h13, h14, h15, h16, h17]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
